-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 8192, 256]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 8192, 256]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x256 : Shape := ⟨2, ![4, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x512x256 .f32) (main_arg1 : FVec F S4x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Pre_finite_inputs_ReferenceIdeal.lean ====
abbrev S4x8192x256 : Shape := ⟨3, ![4, 8192, 256]⟩
abbrev S4x256 : Shape := ⟨2, ![4, 256]⟩
abbrev S_ : Shape := ⟨0, ![]⟩

class Facts : Prop where
  bcast_S_S4x8192x256 : S_.BroadcastsInDim S4x8192x256 (![] : Fin 0 → Fin S4x8192x256.rank)
  reducesTo_S4x8192x256_S_d0_1_2 : S4x8192x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x8192x256 .f32) (main_arg1 : FVec F S4x256 .f32) : IVec S_ 1 :=
  let main_v0 : FVec F S4x8192x256 .f32 := Host.absf main_arg0
  let main_cst : FVec F S_ .f32 := constant S_ .f32 0x7F800000#32
  let main_v1 : FVec F S4x8192x256 .f32 := broadcastInDim S4x8192x256 ![] bcast_S_S4x8192x256 main_cst
  let main_v2 : IVec S4x8192x256 1 := cmpf .olt main_v0 main_v1
  let main_c : IVec S_ 1 := constantI S_ 1 1#1
  let main_v3 : IVec S_ 1 := (fun x v => Host.reduce IntOp.andi x v reducesTo_S4x8192x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Kernel.lean ====
abbrev S4x512x256 : Shape := ⟨3, ![4, 512, 256]⟩
abbrev S4x256 : Shape := ⟨2, ![4, 256]⟩
abbrev S4x8x256 : Shape := ⟨3, ![4, 8, 256]⟩
abbrev S_ : Shape := ⟨0, ![]⟩
abbrev S4x509x256 : Shape := ⟨3, ![4, 509, 256]⟩
abbrev S1x256 : Shape := ⟨2, ![1, 256]⟩
abbrev S256 : Shape := ⟨1, ![256]⟩
abbrev S1x1x256 : Shape := ⟨3, ![1, 1, 256]⟩
abbrev S4x510x256 : Shape := ⟨3, ![4, 510, 256]⟩
abbrev S4x3x256 : Shape := ⟨3, ![4, 3, 256]⟩
abbrev S4x6x256 : Shape := ⟨3, ![4, 6, 256]⟩
abbrev S4x4x256 : Shape := ⟨3, ![4, 4, 256]⟩

abbrev nBuf : Space → Nat
  | .hbm => 3
  | .vmem => 5
  | .smem => 0
  | _ => 0

abbrev bufTy : (tb : Table) → Fin (tcTables nBuf tb) → BufTy
  | .hbm, ⟨0, _⟩ => ⟨S4x512x256, .f32⟩
  | .hbm, ⟨1, _⟩ => ⟨S4x256, .f32⟩
  | .hbm, ⟨2, _⟩ => ⟨S4x512x256, .bf16⟩
  | .local _ .vmem, ⟨0, _⟩ => ⟨S4x512x256, .f32⟩
  | .local _ .vmem, ⟨1, _⟩ => ⟨S4x256, .f32⟩
  | .local _ .vmem, ⟨2, _⟩ => ⟨S4x512x256, .bf16⟩
  | .local _ .vmem, ⟨3, _⟩ => ⟨S4x8x256, .f32⟩
  | .local _ .vmem, ⟨4, _⟩ => ⟨S4x8x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  { ofTc nBuf bufTy 2 5 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_13 : BitVec 32 := 0#32
  let v25 : BitVec 1 := Scalar.cmpi .eq v2 c0_i32_13
  let v_true : BitVec 1 := 1#1
  let v28 : BitVec 1 := Scalar.xori v25 v_true
  let v29 : BitVec 32 := Scalar.extui v28
  let c0_i32_14 : BitVec 32 := 0#32
  let v30 : BitVec 1 := Scalar.cmpi .ne v29 c0_i32_14
  v30

def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31 : BitVec 32 := 1#32
  let v81 : BitVec 32 := Scalar.muli v13 c1_i32_31
  let v82 : BitVec 32 := Scalar.addi c0_i32_32 v81
  v82.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v26 : BitVec 1 := Scalar.cmpi .eq v2 c15_i32
  let true_19 : BitVec 1 := 1#1
  let v36 : BitVec 1 := Scalar.xori v26 true_19
  let v37 : BitVec 32 := Scalar.extui v36
  let c0_i32_20 : BitVec 32 := 0#32
  let v38 : BitVec 1 := Scalar.cmpi .ne v37 c0_i32_20
  v38

def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v81 : BitVec 32 := Scalar.muli v24 c1_i32_32
  let v82 : BitVec 32 := Scalar.addi c0_i32_33 v81
  v82.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_13 : BitVec 32 := 0#32
  let v25 : BitVec 1 := Scalar.cmpi .eq v2 c0_i32_13
  let true_30_r0 : BitVec 1 := 1#1
  let v82_r0 : BitVec 1 := Scalar.xori v25 true_30_r0
  let v83_r0 : BitVec 32 := Scalar.extui v82_r0
  let c0_i32_31_r0 : BitVec 32 := 0#32
  let v84_r0 : BitVec 1 := Scalar.cmpi .ne v83_r0 c0_i32_31_r0
  v84_r0

def k0_dev3 (d0 : Dev nD) : Nat :=
  let c0_i32_45_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44_r0 : BitVec 32 := 1#32
  let v128_r0 : BitVec 32 := Scalar.muli v13 c1_i32_44_r0
  let v129_r0 : BitVec 32 := Scalar.addi c0_i32_45_r0 v128_r0
  v129_r0.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S4x512x256_S4x8x256_0_504_0 : ∀ a, (![0, 504, 0] : Fin 3 → Nat) a + S4x8x256.size a ≤ S4x512x256.size a
  h_S4x8x256 : 0 < S4x8x256.numel
  shapeCasts_S4x8x256_S4x8x256 : S4x8x256.ShapeCasts S4x8x256
  inb_S4x8x256_S4x8x256_0_0_0 : ∀ a, (![0, 0, 0] : Fin 3 → Nat) a + S4x8x256.size a ≤ S4x8x256.size a
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  bitsLt_bf16_f32 : FTy.bits .bf16 < FTy.bits .f32
  inb_S4x256_S4x256_0_0 : ∀ a, (![0, 0] : Fin 2 → Nat) a + S4x256.size a ≤ S4x256.size a
  h_S4x256 : 0 < S4x256.numel
  shapeCasts_S4x256_S4x256 : S4x256.ShapeCasts S4x256
  slices_S4x512x256_o0_3_0_S4x509x256 : S4x512x256.Slices ![0, 3, 0] S4x509x256
  slices_S4x256_o3_0_S1x256 : S4x256.Slices ![3, 0] S1x256
  shapeCasts_S1x256_S256 : S1x256.ShapeCasts S256
  shapeCasts_S256_S1x1x256 : S256.ShapeCasts S1x1x256
  broadcasts_S1x1x256_S4x509x256 : S1x1x256.Broadcasts S4x509x256
  slices_S4x512x256_o0_0_0_S4x509x256 : S4x512x256.Slices ![0, 0, 0] S4x509x256
  slices_S4x256_o0_0_S1x256 : S4x256.Slices ![0, 0] S1x256
  slices_S4x512x256_o0_1_0_S4x509x256 : S4x512x256.Slices ![0, 1, 0] S4x509x256
  slices_S4x256_o1_0_S1x256 : S4x256.Slices ![1, 0] S1x256
  slices_S4x512x256_o0_2_0_S4x509x256 : S4x512x256.Slices ![0, 2, 0] S4x509x256
  slices_S4x256_o2_0_S1x256 : S4x256.Slices ![2, 0] S1x256
  inb_S4x512x256_S4x509x256_0_3_0 : ∀ a, (![0, 3, 0] : Fin 3 → Nat) a + S4x509x256.size a ≤ S4x512x256.size a
  h_S4x509x256 : 0 < S4x509x256.numel
  inb_S4x512x256_S4x510x256_0_2_0 : ∀ a, (![0, 2, 0] : Fin 3 → Nat) a + S4x510x256.size a ≤ S4x512x256.size a
  h_S4x510x256 : 0 < S4x510x256.numel
  slices_S4x510x256_S4x509x256_0_1_0 : S4x510x256.Slices ![0, 1, 0] S4x509x256
  packedbf16_S4x512x256_S4x510x256_0_2_0 : (Rect.unit (s := S4x512x256) ![0, 2, 0] S4x510x256.size inb_S4x512x256_S4x510x256_0_2_0).PackedRows (EltTy.packing .bf16)
  inb_S4x8x256_S4x3x256_0_5_0 : ∀ a, (![0, 5, 0] : Fin 3 → Nat) a + S4x3x256.size a ≤ S4x8x256.size a
  h_S4x3x256 : 0 < S4x3x256.numel
  slices_S4x512x256_o0_0_0_S4x3x256 : S4x512x256.Slices ![0, 0, 0] S4x3x256
  concatenates_S4x3x256_S4x3x256_S4x6x256_d1 : Shape.Concatenates [S4x3x256, S4x3x256] S4x6x256 1
  slices_S4x6x256_o0_3_0_S4x3x256 : S4x6x256.Slices ![0, 3, 0] S4x3x256
  broadcasts_S1x1x256_S4x3x256 : S1x1x256.Broadcasts S4x3x256
  slices_S4x6x256_o0_0_0_S4x3x256 : S4x6x256.Slices ![0, 0, 0] S4x3x256
  slices_S4x6x256_o0_1_0_S4x3x256 : S4x6x256.Slices ![0, 1, 0] S4x3x256
  slices_S4x6x256_o0_2_0_S4x3x256 : S4x6x256.Slices ![0, 2, 0] S4x3x256
  inb_S4x512x256_S4x3x256_0_0_0 : ∀ a, (![0, 0, 0] : Fin 3 → Nat) a + S4x3x256.size a ≤ S4x512x256.size a
  inb_S4x512x256_S4x4x256_0_0_0 : ∀ a, (![0, 0, 0] : Fin 3 → Nat) a + S4x4x256.size a ≤ S4x512x256.size a
  h_S4x4x256 : 0 < S4x4x256.numel
  slices_S4x4x256_S4x3x256_0_0_0 : S4x4x256.Slices ![0, 0, 0] S4x3x256
  packedbf16_S4x512x256_S4x4x256_0_0_0 : (Rect.unit (s := S4x512x256) ![0, 0, 0] S4x4x256.size inb_S4x512x256_S4x4x256_0_0_0).PackedRows (EltTy.packing .bf16)
  hcc0_scoped0 : 1 + S_.numel ≤ 2
  hcc0_scratch2 : 3 + S_.numel ≤ 5
  hcc0_scratch3 : 4 + S_.numel ≤ 5
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  k0_dev3_lt : ∀ d0 : Dev nD, ∀ (k0_h4 : k0_cond4 d0 = 1#1), (k0_dev3 d0) < nD
  hstage0_0 : ∀ j, (stage0_0 j).IsWhole
  hstage0_1 : ∀ j, (stage0_1 j).IsWhole
  hstage0_2 : ∀ j, (stage0_2 j).IsWhole

variable [Facts₀]

abbrev cc0_scoped0 : Sems sig S_ := SemArray.consecutive 1 S_ hcc0_scoped0
abbrev cc0_scratch2 : DmaSems sig S_ := SemArray.consecutive 3 S_ hcc0_scratch2
abbrev cc0_scratch3 : DmaSems sig S_ := SemArray.consecutive 4 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x256 : Shape := ⟨3, ![4, 8192, 256]⟩
abbrev S4x256 : Shape := ⟨2, ![4, 256]⟩
abbrev S_ : Shape := ⟨0, ![]⟩
abbrev S4x3x256 : Shape := ⟨3, ![4, 3, 256]⟩
abbrev S4x8195x256 : Shape := ⟨3, ![4, 8195, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x256, .f32⟩
  | .hbm, ⟨1, _⟩ => ⟨S4x256, .f32⟩
  | .hbm, ⟨2, _⟩ => ⟨S_, .f32⟩
  | .hbm, ⟨3, _⟩ => ⟨S4x3x256, .f32⟩
  | .hbm, ⟨4, _⟩ => ⟨S4x8195x256, .f32⟩
  | .hbm, ⟨5, _⟩ => ⟨S_, .f32⟩
  | .hbm, ⟨6, _⟩ => ⟨S4x8192x256, .f32⟩
  | .hbm, ⟨7, _⟩ => ⟨S4x8192x256, .f32⟩
  | .hbm, ⟨8, _⟩ => ⟨S1x256, .f32⟩
  | .hbm, ⟨9, _⟩ => ⟨S256, .f32⟩
  | .hbm, ⟨10, _⟩ => ⟨S1x1x256, .f32⟩
  | .hbm, ⟨11, _⟩ => ⟨S4x8192x256, .f32⟩
  | .hbm, ⟨12, _⟩ => ⟨S4x8192x256, .f32⟩
  | .hbm, ⟨13, _⟩ => ⟨S4x8192x256, .f32⟩
  | .hbm, ⟨14, _⟩ => ⟨S4x8192x256, .f32⟩
  | .hbm, ⟨15, _⟩ => ⟨S1x256, .f32⟩
  | .hbm, ⟨16, _⟩ => ⟨S256, .f32⟩
  | .hbm, ⟨17, _⟩ => ⟨S1x1x256, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S1x256, .f32⟩
  | .hbm, ⟨23, _⟩ => ⟨S256, .f32⟩
  | .hbm, ⟨24, _⟩ => ⟨S1x1x256, .f32⟩
  | .hbm, ⟨25, _⟩ => ⟨S4x8192x256, .f32⟩
  | .hbm, ⟨26, _⟩ => ⟨S4x8192x256, .f32⟩
  | .hbm, ⟨27, _⟩ => ⟨S4x8192x256, .f32⟩
  | .hbm, ⟨28, _⟩ => ⟨S4x8192x256, .f32⟩
  | .hbm, ⟨29, _⟩ => ⟨S1x256, .f32⟩
  | .hbm, ⟨30, _⟩ => ⟨S256, .f32⟩
  | .hbm, ⟨31, _⟩ => ⟨S1x1x256, .f32⟩
  | .hbm, ⟨32, _⟩ => ⟨S4x8192x256, .f32⟩
  | .hbm, ⟨33, _⟩ => ⟨S4x8192x256, .f32⟩
  | .hbm, ⟨34, _⟩ => ⟨S4x8192x256, .f32⟩
  | .hbm, ⟨35, _⟩ => ⟨S4x8192x256, .f32⟩
  | .hbm, ⟨36, _⟩ => ⟨S4x8192x256, .f32⟩
  | .hbm, ⟨37, _⟩ => ⟨S_, .f32⟩
  | .hbm, ⟨38, _⟩ => ⟨S4x8192x256, .f32⟩
  | .hbm, ⟨39, _⟩ => ⟨S4x8192x256, .f32⟩
  | .hbm, ⟨40, _⟩ => ⟨S4x8192x256, .f32⟩
  | .hbm, ⟨41, _⟩ => ⟨S4x8192x256, .bf16⟩
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]

class Facts₀ : Prop where
  bcast_S_S4x3x256 : S_.BroadcastsInDim S4x3x256 (![] : Fin 0 → Fin S4x3x256.rank)
  concatenates_S4x3x256_S4x8192x256_S4x8195x256_d1 : Shape.Concatenates [S4x3x256, S4x8192x256] S4x8195x256 1
  bcast_S_S4x8192x256 : S_.BroadcastsInDim S4x8192x256 (![] : Fin 0 → Fin S4x8192x256.rank)
  slices_S4x8195x256_S4x8192x256_0_0_0 : S4x8195x256.Slices ![0, 0, 0] S4x8192x256
  slices_S4x256_S1x256_0_0 : S4x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S4x8192x256_0_1_2 : S1x1x256.BroadcastsInDim S4x8192x256 (![0, 1, 2] : Fin 3 → Fin S4x8192x256.rank)
  slices_S4x8195x256_S4x8192x256_0_1_0 : S4x8195x256.Slices ![0, 1, 0] S4x8192x256
  slices_S4x256_S1x256_1_0 : S4x256.Slices ![1, 0] S1x256
  slices_S4x8195x256_S4x8192x256_0_2_0 : S4x8195x256.Slices ![0, 2, 0] S4x8192x256
  slices_S4x256_S1x256_2_0 : S4x256.Slices ![2, 0] S1x256
  slices_S4x8195x256_S4x8192x256_0_3_0 : S4x8195x256.Slices ![0, 3, 0] S4x8192x256
  slices_S4x256_S1x256_3_0 : S4x256.Slices ![3, 0] S1x256
  bitsLt_bf16_f32 : FTy.bits .bf16 < FTy.bits .f32

variable [Facts₀]

class Facts : Prop extends Facts₀ where

variable [Facts]
-- ==== Proof.Kernel.Line.lean ====
/-
  The mesh is a LINE of sixteen devices: device `c` sends to `c + 1` and receives from `c - 1`; device 0 has no
  left neighbour and device 15 no right one. This module decides, once over the sixteen devices, what the program's
  integer chains compute: which of its conditional blocks a device runs, and which device each addressed operation
  names. `nxt` and `prv` are the successor and predecessor modulo 16; they are used only where the edge exists.
-/
import proofs.«900434_g7700000000000435_dist_gconv1d_seqshard_i_b4_s512_c256_v7x_i16_bf16_1_alg».proof.Proof.Gen.Kernel

namespace Cert.KernelProof

open Cert.Kernel Cert.Kernel.Gen
open Idealize.ShloMosaic

/-- The device after `c` on the line (modulo 16). -/
def nxt (c : Dev nD) : Dev nD := ⟨(c.val + 1) % 16, Nat.mod_lt _ (by decide)⟩
/-- The device before `c` on the line (modulo 16). -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide
theorem nxt_ne_self (c : Dev nD) : nxt c ≠ c := by revert c; decide
theorem prv_ne_self (c : Dev nD) : prv c ≠ c := by revert c; decide
theorem nxt_ne_prv (c : Dev nD) : nxt c ≠ prv c := by revert c; decide

/-- The successor of a device other than the last is not the first; the predecessor of one other than the first is
    not the last. -/
theorem nxt_val_ne_zero (c : Dev nD) (h : c.val ≠ 15) : (nxt c).val ≠ 0 := by revert c; decide
theorem prv_val_ne_last (c : Dev nD) (h : c.val ≠ 0) : (prv c).val ≠ 15 := by revert c; decide
theorem nxt_val (c : Dev nD) (h : c.val ≠ 15) : (nxt c).val = c.val + 1 := by revert c; decide
theorem prv_val (c : Dev nD) (h : c.val ≠ 0) : (prv c).val + 1 = c.val := by revert c; decide

/-- "This device is the first" and "this device is the last", as the words the body computes and carries. -/
def wFirst (c : Dev nD) : BitVec 1 := Scalar.cmpi .eq (Scalar.remsi (Scalar.divsi (Dev.word c) 1#32) 16#32) 0#32
def wLast (c : Dev nD) : BitVec 1 := Scalar.cmpi .eq (Scalar.remsi (Scalar.divsi (Dev.word c) 1#32) 16#32) 15#32

/-- The three printed conditions, per device: the entry signal and the receive block run on every device but the
    first; the barrier wait with the transfer on every device but the last. -/
theorem cond1_iff : ∀ c : Dev nD, k0_cond1 c = 1#1 ↔ c.val ≠ 0 := by decide +kernel
theorem cond2_iff : ∀ c : Dev nD, k0_cond2 c = 1#1 ↔ c.val ≠ 15 := by decide +kernel
theorem cond4_iff : ∀ c : Dev nD, k0_cond4 c = 1#1 ↔ c.val ≠ 0 := by decide +kernel
/-- The two conditions the body spells in line: the zero fill runs on the first device only; the closing waits on
    every device but the last. -/
theorem condFirst_iff : ∀ c : Dev nD, Scalar.cmpi .ne (Scalar.extui (wFirst c) : BitVec 32) 0#32 = 1#1 ↔ c.val = 0 := by decide +kernel
theorem condNotLast_iff : ∀ c : Dev nD,
    Scalar.cmpi .ne (Scalar.extui (Scalar.xori (wLast c) 1#1) : BitVec 32) 0#32 = 1#1 ↔ c.val ≠ 15 := by decide +kernel

/-- The devices the three addressed operations name: the entry signal and the credit signal go one device down the
    line, the transfer one device up. -/
theorem k0_dev1_eq : ∀ c : Dev nD, k0_cond1 c = 1#1 → k0_dev1 c = (prv c).val := by decide +kernel
theorem k0_dev2_eq : ∀ c : Dev nD, k0_cond2 c = 1#1 → k0_dev2 c = (nxt c).val := by decide +kernel
theorem k0_dev3_eq : ∀ c : Dev nD, k0_cond4 c = 1#1 → k0_dev3 c = (prv c).val := by decide +kernel

theorem dev1_eq (c : Dev nD) (h : k0_cond1 c = 1#1) : (⟨k0_dev1 c, k0_dev1_lt c h⟩ : Dev nD) = prv c := Fin.ext (k0_dev1_eq c h)
theorem dev2_eq (c : Dev nD) (h : k0_cond2 c = 1#1) : (⟨k0_dev2 c, k0_dev2_lt c h⟩ : Dev nD) = nxt c := Fin.ext (k0_dev2_eq c h)
theorem dev3_eq (c : Dev nD) (h : k0_cond4 c = 1#1) : (⟨k0_dev3 c, k0_dev3_lt c h⟩ : Dev nD) = prv c := Fin.ext (k0_dev3_eq c h)

end Cert.KernelProof
-- ==== Proof.Kernel.Contents.lean ====
/-
  What the kernel's buffers hold, as pure terms of a device's block `x` of the input, the taps `k` and the halo
  buffer `h`: the eight trailing rows of the block that a device sends up the line, the three trailing rows of the
  halo it reads, and the result block after the body's two stores. Each of the two stores rewrites a rectangle of
  whole packed rows — it reads the rectangle, replaces a slice of it and writes it back — so the buffer after both
  is a nested term over its arbitrary first contents; `outFn` is the function that term is, row by row: the first
  three rows from the halo part, the others from the main part.
-/
import proofs.«900434_g7700000000000435_dist_gconv1d_seqshard_i_b4_s512_c256_v7x_i16_bf16_1_alg».proof.Proof.Gen.Kernel.Skeleton

noncomputable section

namespace Cert.KernelProof

open Cert.Kernel Cert.Kernel.Gen
open Idealize.ShloMosaic

variable {F : FTy → Type} [FloatOps F]

/-! ## The memrefs the body is called with -/

/-- The staged block of `x`, the staged taps, the staged result block, the halo buffer and the send buffer. -/
abbrev xM : Memref sig .tc .vmem S4x512x256 .f32 := Memref.whole cc0_stg0_0
abbrev kM : Memref sig .tc .vmem S4x256 .f32 := Memref.whole cc0_stg1_0
abbrev oM : Memref sig .tc .vmem S4x512x256 .bf16 := Memref.whole cc0_stg2_0
abbrev hM : Memref sig .tc .vmem S4x8x256 .f32 := Memref.whole cc0_scratch0
abbrev bM : Memref sig .tc .vmem S4x8x256 .f32 := Memref.whole cc0_scratch1

/-! ## The rectangles the body loads and stores through -/

/-- Rows 504 … 511 of the block; a whole 4×8×256 buffer; rows 5 … 7 of the halo; the whole block and the whole taps;
    rows 3 … 511, rows 2 … 511, rows 0 … 2 and rows 0 … 3 of the result block. -/
abbrev rX504 : Rect S4x512x256 := Rect.unit (s := S4x512x256) ![0, 504, 0] S4x8x256.size inb_S4x512x256_S4x8x256_0_504_0
abbrev rB : Rect S4x8x256 := Rect.unit (s := S4x8x256) ![0, 0, 0] S4x8x256.size inb_S4x8x256_S4x8x256_0_0_0
abbrev rH5 : Rect S4x8x256 := Rect.unit (s := S4x8x256) ![0, 5, 0] S4x3x256.size inb_S4x8x256_S4x3x256_0_5_0
abbrev rX : Rect S4x512x256 := Rect.unit (s := S4x512x256) ![0, 0, 0] S4x512x256.size inb_S4x512x256_S4x512x256_0_0_0
abbrev rK : Rect S4x256 := Rect.unit (s := S4x256) ![0, 0] S4x256.size inb_S4x256_S4x256_0_0
abbrev rO3 : Rect S4x512x256 := Rect.unit (s := S4x512x256) ![0, 3, 0] S4x509x256.size inb_S4x512x256_S4x509x256_0_3_0
abbrev rO2 : Rect S4x512x256 := Rect.unit (s := S4x512x256) ![0, 2, 0] S4x510x256.size inb_S4x512x256_S4x510x256_0_2_0
abbrev rO0 : Rect S4x512x256 := Rect.unit (s := S4x512x256) ![0, 0, 0] S4x3x256.size inb_S4x512x256_S4x3x256_0_0_0
abbrev rO04 : Rect S4x512x256 := Rect.unit (s := S4x512x256) ![0, 0, 0] S4x4x256.size inb_S4x512x256_S4x4x256_0_0_0

/-! ## Contents -/

/-- What a device sends up the line: the last eight rows of its block. -/
def tailOf (x : (cc0_stg0_0 : Ref sig .tc).ty.Contents (Elt F)) : (cc0_scratch1 : Ref sig .tc).ty.Contents (Elt F) :=
  k0_pay2 (k0_pay1 ((xM : Memref sig .tc .vmem S4x512x256 .f32).view.readAt (Elt F) rX504.toLoadRect x))

/-- The zero fill of the first device's halo. -/
def zeroHalo : (cc0_scratch0 : Ref sig .tc).ty.Contents (Elt F) := k0_pay3 (F := F)

/-- The three rows of the halo buffer the body reads: its rows 5 … 7. -/
def haloRows (h : (cc0_scratch0 : Ref sig .tc).ty.Contents (Elt F)) : Vec F S4x3x256 .f32 :=
  (hM : Memref sig .tc .vmem S4x8x256 .f32).view.readAt (Elt F) rH5.toLoadRect h

/-- The main part of the result: rows 3 … 511, from the block and the taps alone. -/
def mainPart (x : (cc0_stg0_0 : Ref sig .tc).ty.Contents (Elt F)) (k : (cc0_stg1_0 : Ref sig .tc).ty.Contents (Elt F)) :
    FVec F S4x509x256 .bf16 :=
  k0_pay8
    (k0_pay6 ((xM : Memref sig .tc .vmem S4x512x256 .f32).view.readAt (Elt F) rX.toLoadRect x) ((kM : Memref sig .tc .vmem S4x256 .f32).view.readAt (Elt F) rK.toLoadRect k))
    (k0_pay7 ((xM : Memref sig .tc .vmem S4x512x256 .f32).view.readAt (Elt F) rX.toLoadRect x) ((kM : Memref sig .tc .vmem S4x256 .f32).view.readAt (Elt F) rK.toLoadRect k))

/-- The halo part of the result: rows 0 … 2, from the halo's last three rows and the block's first three. -/
def haloPart (x : (cc0_stg0_0 : Ref sig .tc).ty.Contents (Elt F)) (k : (cc0_stg1_0 : Ref sig .tc).ty.Contents (Elt F))
    (h : (cc0_scratch0 : Ref sig .tc).ty.Contents (Elt F)) : FVec F S4x3x256 .bf16 :=
  k0_pay9
    (k0_pay4 ((xM : Memref sig .tc .vmem S4x512x256 .f32).view.readAt (Elt F) rX.toLoadRect x))
    (k0_pay5 ((kM : Memref sig .tc .vmem S4x256 .f32).view.readAt (Elt F) rK.toLoadRect k))
    (haloRows h)

/-- One store of whole packed rows: the rectangle `R` of the result buffer `f` read, rewritten by `w`, written back. -/
def rewriteRows (R : Rect S4x512x256) (w : (R.shape.Idx → Elt F .bf16) → (R.shape.Idx → Elt F .bf16))
    (f : (cc0_stg2_0 : Ref sig .tc).ty.Contents (Elt F)) : (cc0_stg2_0 : Ref sig .tc).ty.Contents (Elt F) :=
  ((oM : Memref sig .tc .vmem S4x512x256 .bf16).access R : View sig .tc _ _ _).write (Elt F) f
    (w ((oM : Memref sig .tc .vmem S4x512x256 .bf16).view.readAt (Elt F) R.toLoadRect f)) Finset.univ

/-- The result buffer after the body's two stores, from its first contents `f`. -/
def outOf (f : (cc0_stg2_0 : Ref sig .tc).ty.Contents (Elt F)) (p8 : FVec F S4x509x256 .bf16) (p9 : FVec F S4x3x256 .bf16) :
    (cc0_stg2_0 : Ref sig .tc).ty.Contents (Elt F) :=
  rewriteRows rO04 (fun old => updateSlice old p9 ![0, 0, 0] slices_S4x4x256_S4x3x256_0_0_0)
    (rewriteRows rO2 (fun old => updateSlice old p8 ![0, 1, 0] slices_S4x510x256_S4x509x256_0_1_0) f)

end Cert.KernelProof

end
-- ==== Proof.Kernel.Schedule.lean ====
/-
  The protocol of the line, under the rounds discipline. Each device has four semaphore cells, each with at most one
  duty, all at round 0:
  * its BARRIER cell (the runtime's semaphore), on every device but the last: one unit from the device after it, sent
    at that device's entry; it hands over that device's halo buffer — what the transfer into it needs — and that the
    device's receive cell is at round 0;
  * its SEND cell, on every device but the last: the transfer's credit, paid by the device's own transfer once the
    send buffer is read; it hands the send buffer back, holding the block's last eight rows;
  * its RECEIVE cell, on every device but the first: the transfer's credit, paid by the transfer of the device before
    it; it hands the device its halo buffer holding that device's last eight rows;
  * its CREDIT cell (the scoped region's semaphore), on every device but the last: one unit from the device after it,
    sent after that device's receive wait; it hands over nothing.
  The first device has no left neighbour: nobody pays its receive cell, and it fills its halo with zeros itself. The
  last has no right neighbour: nobody pays its barrier, send and credit cells, which have no duty.
-/
import proofs.«900434_g7700000000000435_dist_gconv1d_seqshard_i_b4_s512_c256_v7x_i16_bf16_1_alg».proof.Proof.Kernel.Line
import proofs.«900434_g7700000000000435_dist_gconv1d_seqshard_i_b4_s512_c256_v7x_i16_bf16_1_alg».proof.Proof.Kernel.Contents
import proofs.«900434_g7700000000000435_dist_gconv1d_seqshard_i_b4_s512_c256_v7x_i16_bf16_1_alg».proof.Proof.Gen.Kernel.Launch
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the line's, both with duties `Unit` -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and cells -/

/-- The runtime's barrier semaphore of collective id 0 (unscoped); the send and receive DMA semaphores and the scoped
    region's credit semaphore (the kernel's own, scoped). -/
abbrev barS : Sem sig := (SemArray.scalar (sig.barrier 0 rfl) : Sems sig S_).sem
abbrev sendS : DmaSems sig S_ := cc0_scratch2
abbrev recvS : DmaSems sig S_ := cc0_scratch3
abbrev credS : Sems sig S_ := cc0_scoped0

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev credCell (c : Dev nD) : GSem nD τ sig := ((c : Thread nD τ), .reg credS.sem)

/-- The kernel's OWN (scoped) semaphores, as the launch indexes them: send, receive, credit; -/
abbrev osem : Fin 3 → SemLoc sig := fun | 0 => .dma sendS.sem | 1 => .dma recvS.sem | 2 => .reg credS.sem
/-- all four of the line's, as this proof indexes them: barrier, send, receive, credit. -/
abbrev csem : Fin 4 → SemLoc sig := fun | 0 => .reg barS | 1 => .dma sendS.sem | 2 => .dma recvS.sem | 3 => .reg credS.sem
abbrev kcell (ck : Dev nD × Fin 4) : GSem nD τ sig := ((ck.1 : Thread nD τ), csem ck.2)

/-- The credit of one transfer of the 4×8×256 halo. -/
abbrev N : ℕ := (hM : Memref sig .tc .vmem S4x8x256 .f32).view.dmaCredit
theorem N_pos : 0 < N := View.dmaCredit_pos _ (by decide)

/-! ## Contents -/

/-- Device `c`'s staged block of `x` and its staged taps: the blocks of its argument arrays as launched. -/
def xstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))

/-- What device `c` sends: the last eight rows of its block. -/
def sent (c : Dev nD) : (cc0_scratch1 : Ref sig .tc).ty.Contents (Elt F) := tailOf (xstg m ρ c)

/-- What device `c`'s halo holds when the body reads it: zeros on the first device, else what the device before sent. -/
def halo (c : Dev nD) : (cc0_scratch0 : Ref sig .tc).ty.Contents (Elt F) :=
  if c.val = 0 then zeroHalo else sent m ρ (prv c)

/-- Some contents of the result buffer, to start the two stores from: they overwrite every row. -/
def blank : (cc0_stg2_0 : Ref sig .tc).ty.Contents (Elt F) := fun _ => (Scalar.ofBits .bf16 0x0000#16 : F .bf16)

/-- The kernel's result block on device `c`. -/
def outAt (c : Dev nD) : (cc0_stg2_0 : Ref sig .tc).ty.Contents (Elt F) :=
  outOf (blank (F := F)) (mainPart (xstg m ρ c) (kstg m ρ c)) (haloPart (xstg m ρ c) (kstg m ρ c) (halo m ρ c))

omit [FloatOps F] in
/-- A whole 4×8×256 buffer written over by the whole of another holds the other's contents. -/
theorem landed_eq (c : Dev nD) (fd : Buf (Elt F) ((hM : Memref sig .tc .vmem S4x8x256 .f32).view.loc (c : Thread nD τ)))
    (fs : (cc0_scratch1 : Ref sig .tc).ty.Contents (Elt F)) :
    (hM : Memref sig .tc .vmem S4x8x256 .f32).view.write (Elt F) fd ((bM : Memref sig .tc .vmem S4x8x256 .f32).view.read (Elt F) fs) Finset.univ = fs := by
  show (View.whole cc0_scratch0).write (Elt F) fd ((View.whole cc0_scratch1).read (Elt F) fs) Finset.univ = fs
  rw [View.read_whole]
  exact View.write_whole_univ _ _ _

/-- The halo buffer and the send buffer of device `c`, whole, at contents `f`. -/
def haloPts (c : Dev nD) (f : Buf (Elt F) ((hM : Memref sig .tc .vmem S4x8x256 .f32).view.loc (c : Thread nD τ))) : sProp 𝕄 :=
  (hM : Memref sig .tc .vmem S4x8x256 .f32).view.loc (c : Thread nD τ) ↦[(hM : Memref sig .tc .vmem S4x8x256 .f32).view.set]{fullShare} f
def sendPts (c : Dev nD) (f : Buf (Elt F) ((bM : Memref sig .tc .vmem S4x8x256 .f32).view.loc (c : Thread nD τ))) : sProp 𝕄 :=
  (bM : Memref sig .tc .vmem S4x8x256 .f32).view.loc (c : Thread nD τ) ↦[(bM : Memref sig .tc .vmem S4x8x256 .f32).view.set]{fullShare} f

omit [FloatOps F] in
instance haloPts_storable (c : Dev nD) (f) : BI.Storable (upEmb : UEmb _ 𝕄) (haloPts (F := F) c f) := by unfold haloPts; infer_instance
omit [FloatOps F] in
instance sendPts_storable (c : Dev nD) (f) : BI.Storable (upEmb : UEmb _ 𝕄) (sendPts (F := F) c f) := by unfold sendPts; infer_instance

omit [FloatOps F] in
theorem halo_set : (hM : Memref sig .tc .vmem S4x8x256 .f32).view.set = Finset.univ := View.set_whole _
omit [FloatOps F] in
theorem send_set : (bM : Memref sig .tc .vmem S4x8x256 .f32).view.set = Finset.univ := View.set_whole _
omit [FloatOps F] in
theorem haloPts_eq (c : Dev nD) (f : Buf (Elt F) ((c : Thread nD τ).loc cc0_scratch0)) :
    haloPts c f = (((c : Thread nD τ).loc cc0_scratch0) ↦{fullShare} f : sProp 𝕄) := by unfold haloPts; rw [halo_set]
omit [FloatOps F] in
theorem sendPts_eq (c : Dev nD) (f : Buf (Elt F) ((c : Thread nD τ).loc cc0_scratch1)) :
    sendPts c f = (((c : Thread nD τ).loc cc0_scratch1) ↦{fullShare} f : sProp 𝕄) := by unfold sendPts; rw [send_set]

/-! ## The schedule -/

/-- What the entry signal of `nxt c` hands `c`: `nxt c`'s halo buffer and that its receive cell is at round 0. -/
def barPay (c : Dev nD) : sProp 𝕄 := iprop((∃ f, haloPts (nxt c) f) ∗ reached ER (recvCell (nxt c)) 0)
/-- What the landing of `prv c`'s transfer hands `c`: its halo buffer holding what `prv c` sent. -/
def recvPay (c : Dev nD) : sProp 𝕄 := haloPts c (sent m ρ (prv c))
/-- What the departure of `c`'s transfer hands `c`: its send buffer back. -/
def sendPay (c : Dev nD) : sProp 𝕄 := sendPts c (sent m ρ c)

/-- The cells that have a duty: a barrier, send or credit cell of a device other than the last, a receive cell of a
    device other than the first. -/
abbrev IsBar (g : GSem nD τ sig) : Prop := g.1.2 = .tc ∧ g.2 = .reg barS ∧ g.1.1.val ≠ 15
abbrev IsSend (g : GSem nD τ sig) : Prop := g.1.2 = .tc ∧ g.2 = .dma sendS.sem ∧ g.1.1.val ≠ 15
abbrev IsRecv (g : GSem nD τ sig) : Prop := g.1.2 = .tc ∧ g.2 = .dma recvS.sem ∧ g.1.1.val ≠ 0
abbrev IsCred (g : GSem nD τ sig) : Prop := g.1.2 = .tc ∧ g.2 = .reg credS.sem ∧ g.1.1.val ≠ 15
abbrev Active (g : GSem nD τ sig) : Prop := IsBar g ∨ IsSend g ∨ IsRecv g ∨ IsCred g

/-- One round, round 0: an active cell has the one duty; a barrier or credit cell's is one unit, a send or receive
    cell's the halo's transfer credit. -/
def lineRd : Rounds.Schedule (GSem nD τ sig) Unit 𝕄 where
  duties g r := if r = 0 ∧ Active g then {()} else ∅
  unitless _ := False
  amount g _ _ := if g.2 = .reg barS ∨ g.2 = .reg credS.sem then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS ∨ g.2 = .reg credS.sem
    · rw [if_pos h]; exact Nat.one_pos
    · rw [if_neg h]; exact N_pos

instance lineRd_payload_storable (g : GSem nD τ sig) (r : ℕ) (d : Unit) :
    BI.Storable (upEmb : UEmb _ 𝕄) ((lineRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_cred : (SemLoc.dma sendS.sem : SemLoc sig) ≠ .reg credS.sem := fun h => by cases h
theorem recv_ne_cred : (SemLoc.dma recvS.sem : SemLoc sig) ≠ .reg credS.sem := fun h => by cases h
theorem send_ne_recv : (SemLoc.dma sendS.sem : SemLoc sig) ≠ .dma recvS.sem := by decide
theorem recv_ne_send : (SemLoc.dma recvS.sem : SemLoc sig) ≠ .dma sendS.sem := by decide
theorem cred_ne_bar : (SemLoc.reg credS.sem : SemLoc sig) ≠ .reg barS := by decide
theorem bar_ne_cred : (SemLoc.reg barS : SemLoc sig) ≠ .reg credS.sem := by decide
theorem cred_ne_recv : (SemLoc.reg credS.sem : SemLoc sig) ≠ .dma recvS.sem := fun h => by cases h
theorem cred_ne_send : (SemLoc.reg credS.sem : SemLoc sig) ≠ .dma sendS.sem := fun h => by cases h

theorem active_bar (h : c.val ≠ 15) : Active (barCell c) := .inl ⟨rfl, rfl, h⟩
theorem active_send (h : c.val ≠ 15) : Active (sendCell c) := .inr (.inl ⟨rfl, rfl, h⟩)
theorem active_recv (h : c.val ≠ 0) : Active (recvCell c) := .inr (.inr (.inl ⟨rfl, rfl, h⟩))
theorem active_cred (h : c.val ≠ 15) : Active (credCell c) := .inr (.inr (.inr ⟨rfl, rfl, h⟩))
theorem not_active_bar (h : c.val = 15) : ¬ Active (barCell c) := by
  rintro (⟨-, -, h'⟩ | ⟨-, h', -⟩ | ⟨-, h', -⟩ | ⟨-, h', -⟩)
  · exact h' h
  · exact send_ne_bar h'.symm
  · exact recv_ne_bar h'.symm
  · exact cred_ne_bar h'.symm
theorem not_active_send (h : c.val = 15) : ¬ Active (sendCell c) := by
  rintro (⟨-, h', -⟩ | ⟨-, -, h'⟩ | ⟨-, h', -⟩ | ⟨-, h', -⟩)
  · exact send_ne_bar h'
  · exact h' h
  · exact send_ne_recv h'
  · exact send_ne_cred h'
theorem not_active_recv (h : c.val = 0) : ¬ Active (recvCell c) := by
  rintro (⟨-, h', -⟩ | ⟨-, h', -⟩ | ⟨-, -, h'⟩ | ⟨-, h', -⟩)
  · exact recv_ne_bar h'
  · exact recv_ne_send h'
  · exact h' h
  · exact recv_ne_cred h'
theorem not_active_cred (h : c.val = 15) : ¬ Active (credCell c) := by
  rintro (⟨-, h', -⟩ | ⟨-, h', -⟩ | ⟨-, h', -⟩ | ⟨-, -, h'⟩)
  · exact cred_ne_bar h'
  · exact cred_ne_send h'
  · exact cred_ne_recv h'
  · exact h' h

omit [FloatOps F] in
theorem duties_active {g : GSem nD τ sig} (h : Active g) : (lineRd (F := F) m ρ).duties g 0 = {()} := by
  dsimp only [lineRd]; exact if_pos ⟨rfl, h⟩
omit [FloatOps F] in
theorem duties_idle {g : GSem nD τ sig} (h : ¬ Active g) (r : ℕ) : (lineRd (F := F) m ρ).duties g r = ∅ := by
  dsimp only [lineRd]; exact if_neg fun h' => h h'.2
omit [FloatOps F] in
theorem duties_later (g : GSem nD τ sig) : ∀ r, 1 ≤ r → (lineRd (F := F) m ρ).duties g r = ∅ :=
  fun r hr => by dsimp only [lineRd]; rw [if_neg fun h => by omega]
omit [FloatOps F] in
theorem duties_idle_from (g : GSem nD τ sig) (h : ¬ Active g) : ∀ r, 0 ≤ r → (lineRd (F := F) m ρ).duties g r = ∅ :=
  fun r _ => duties_idle m ρ h r

omit [FloatOps F] in
theorem amount_bar (d : Unit) : (lineRd (F := F) m ρ).amount (barCell c) 0 d = 1 := by dsimp only [lineRd]; exact if_pos (.inl rfl)
omit [FloatOps F] in
theorem amount_cred (d : Unit) : (lineRd (F := F) m ρ).amount (credCell c) 0 d = 1 := by dsimp only [lineRd]; exact if_pos (.inr rfl)
omit [FloatOps F] in
theorem amount_send (d : Unit) : (lineRd (F := F) m ρ).amount (sendCell c) 0 d = N := by
  dsimp only [lineRd]; exact if_neg fun h => h.elim send_ne_bar send_ne_cred
omit [FloatOps F] in
theorem amount_recv (d : Unit) : (lineRd (F := F) m ρ).amount (recvCell c) 0 d = N := by
  dsimp only [lineRd]; exact if_neg fun h => h.elim recv_ne_bar recv_ne_cred

omit [FloatOps F] in
theorem expect_bar (h : c.val ≠ 15) : (lineRd (F := F) m ρ).expect (barCell c) 0 = 1 := by
  unfold Schedule.expect Schedule.amountOf; rw [duties_active m ρ (active_bar c h), Finset.sum_singleton, amount_bar]
omit [FloatOps F] in
theorem expect_cred (h : c.val ≠ 15) : (lineRd (F := F) m ρ).expect (credCell c) 0 = 1 := by
  unfold Schedule.expect Schedule.amountOf; rw [duties_active m ρ (active_cred c h), Finset.sum_singleton, amount_cred]
omit [FloatOps F] in
theorem expect_send (h : c.val ≠ 15) : (lineRd (F := F) m ρ).expect (sendCell c) 0 = N := by
  unfold Schedule.expect Schedule.amountOf; rw [duties_active m ρ (active_send c h), Finset.sum_singleton, amount_send]
omit [FloatOps F] in
theorem expect_recv (h : c.val ≠ 0) : (lineRd (F := F) m ρ).expect (recvCell c) 0 = N := by
  unfold Schedule.expect Schedule.amountOf; rw [duties_active m ρ (active_recv c h), Finset.sum_singleton, amount_recv]

omit [FloatOps F] in
theorem payload_bar (d : Unit) : (lineRd (F := F) m ρ).payload (barCell c) 0 d = barPay c := by dsimp only [lineRd]; rw [if_pos rfl]
omit [FloatOps F] in
theorem payload_recv (d : Unit) : (lineRd (F := F) m ρ).payload (recvCell c) 0 d = recvPay m ρ c := by
  dsimp only [lineRd]; rw [if_neg recv_ne_bar, if_pos rfl]
omit [FloatOps F] in
theorem payload_send (d : Unit) : (lineRd (F := F) m ρ).payload (sendCell c) 0 d = sendPay m ρ c := by
  dsimp only [lineRd]; rw [if_neg send_ne_bar, if_neg send_ne_recv, if_pos rfl]
omit [FloatOps F] in
theorem payload_cred (d : Unit) : (lineRd (F := F) m ρ).payload (credCell c) 0 d = iprop(emp) := by
  dsimp only [lineRd]; rw [if_neg cred_ne_bar, if_neg cred_ne_recv, if_neg cred_ne_send]

omit [FloatOps F] in
/-- The rest of an active cell's round, no duty taken: its one payload. -/
theorem rest_bar (h : c.val ≠ 15) : bigSep ((lineRd (F := F) m ρ).duties (barCell c) 0 \ ∅) (fun d => (lineRd (F := F) m ρ).payload (barCell c) 0 d) = barPay c := by
  rw [Finset.sdiff_empty, duties_active m ρ (active_bar c h), bigSep_singleton, payload_bar]
omit [FloatOps F] in
theorem rest_send (h : c.val ≠ 15) : bigSep ((lineRd (F := F) m ρ).duties (sendCell c) 0 \ ∅) (fun d => (lineRd (F := F) m ρ).payload (sendCell c) 0 d) = sendPay m ρ c := by
  rw [Finset.sdiff_empty, duties_active m ρ (active_send c h), bigSep_singleton, payload_send]
omit [FloatOps F] in
theorem rest_recv (h : c.val ≠ 0) : bigSep ((lineRd (F := F) m ρ).duties (recvCell c) 0 \ ∅) (fun d => (lineRd (F := F) m ρ).payload (recvCell c) 0 d) = recvPay m ρ c := by
  rw [Finset.sdiff_empty, duties_active m ρ (active_recv c h), bigSep_singleton, payload_recv]
omit [FloatOps F] in
theorem rest_cred (h : c.val ≠ 15) : bigSep ((lineRd (F := F) m ρ).duties (credCell c) 0 \ ∅) (fun d => (lineRd (F := F) m ρ).payload (credCell c) 0 d) = iprop(emp) := by
  rw [Finset.sdiff_empty, duties_active m ρ (active_cred c h), bigSep_singleton, payload_cred]

end Sched

end Cert.KernelProof

end
-- ==== Proof.Kernel.Ledger.lean ====
/-
  What each device owes at launch, the levels that order the waits, and the proof data of the launch.
  A device other than the first owes the device before it one barrier unit and one credit unit; a device other than
  the last owes the device after it the transfer's credit on its receive cell. Levels: barrier cells 1, receive cells
  2, credit cells 3, every other cell 0. A device waits on its barrier cell while it owes a receive credit and a
  credit unit (both above 1), on its receive cell while it owes a credit unit (above 2), and on its send and credit
  cells while it owes nothing: every wait is below everything the waiter still owes.
-/
import proofs.«900434_g7700000000000435_dist_gconv1d_seqshard_i_b4_s512_c256_v7x_i16_bf16_1_alg».proof.Proof.Kernel.Schedule

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch -/

/-- To the receive cell of the device after it, the transfer's credit; to the credit and barrier cells of the device
    before it, one unit each. -/
def oRecv (c : Dev nD) : CellTallies nD τ sig Unit := if c.val ≠ 15 then tallyAt (recvCell (nxt c)) () N else 0
def oCred (c : Dev nD) : CellTallies nD τ sig Unit := if c.val ≠ 0 then tallyAt (credCell (prv c)) () 1 else 0
def oBar (c : Dev nD) : CellTallies nD τ sig Unit := if c.val ≠ 0 then tallyAt (barCell (prv c)) () 1 else 0

/-- Summed so that the entry signal peels the last summand, then the transfer the last of what is left, then the
    credit signal. -/
def O₁ (c : Dev nD) : CellTallies nD τ sig Unit := oCred c + oRecv c
def O₀ (c : Dev nD) : CellTallies nD τ sig Unit := O₁ c + oBar c

theorem oRecv_pos {c : Dev nD} {g : GSem nD τ sig} {u : Unit} (h : 0 < oRecv c g u) : g = recvCell (nxt c) := by
  unfold oRecv at h
  split at h
  · rw [tallyAt_apply] at h
    by_contra hn
    rw [if_neg (fun h' => hn h'.1)] at h
    exact Nat.lt_irrefl 0 h
  · exact absurd h (Nat.lt_irrefl 0)
theorem oCred_pos {c : Dev nD} {g : GSem nD τ sig} {u : Unit} (h : 0 < oCred c g u) : g = credCell (prv c) := by
  unfold oCred at h
  split at h
  · rw [tallyAt_apply] at h
    by_contra hn
    rw [if_neg (fun h' => hn h'.1)] at h
    exact Nat.lt_irrefl 0 h
  · exact absurd h (Nat.lt_irrefl 0)
theorem oBar_pos {c : Dev nD} {g : GSem nD τ sig} {u : Unit} (h : 0 < oBar c g u) : g = barCell (prv c) := by
  unfold oBar at h
  split at h
  · rw [tallyAt_apply] at h
    by_contra hn
    rw [if_neg (fun h' => hn h'.1)] at h
    exact Nat.lt_irrefl 0 h
  · exact absurd h (Nat.lt_irrefl 0)

theorem O₁_pos {c : Dev nD} {g : GSem nD τ sig} {u : Unit} (h : 0 < O₁ c g u) : g = credCell (prv c) ∨ g = recvCell (nxt c) := by
  unfold O₁ at h
  rw [Pi.add_apply, Finsupp.add_apply] at h
  rcases Nat.add_pos_iff_pos_or_pos.mp h with h1 | h2
  · exact .inl (oCred_pos h1)
  · exact .inr (oRecv_pos h2)
theorem O₀_pos {c : Dev nD} {g : GSem nD τ sig} {u : Unit} (h : 0 < O₀ c g u) :
    g = credCell (prv c) ∨ g = recvCell (nxt c) ∨ g = barCell (prv c) := by
  unfold O₀ at h
  rw [Pi.add_apply, Finsupp.add_apply] at h
  rcases Nat.add_pos_iff_pos_or_pos.mp h with h1 | h2
  · rcases O₁_pos h1 with h | h
    · exact .inl h
    · exact .inr (.inl h)
  · exact .inr (.inr (oBar_pos h2))

/-! ## The levels -/

def L (g : GSem nD τ sig) : Finset Unit := if g.1.2 = .tc then {()} else ∅
/-- barrier cells at 1, receive cells at 2, credit cells at 3, everything else (staging, send) at 0. -/
def lv (g : GSem nD τ sig) (_ : Unit) : ℕ :=
  if g.2 = .reg barS then 1 else if g.2 = .dma recvS.sem then 2 else if g.2 = .reg credS.sem then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (u : Unit) : lv (recvCell c) u = 2 := by dsimp only [lv]; rw [if_neg recv_ne_bar, if_pos rfl]
theorem lv_cred (c : Dev nD) (u : Unit) : lv (credCell c) u = 3 := by
  dsimp only [lv]; rw [if_neg cred_ne_bar, if_neg cred_ne_recv, if_pos rfl]

omit [FloatOps F] in
/-- A wait on a staging cell or on the send cell (level 0), owing what the device owes at launch, or nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg hq, if_neg (fun h => by cases h)])
      (fun g u hg => by
        rcases O₀_pos hg with rfl | rfl | rfl
        · rw [lv_cred]; decide
        · rw [lv_recv]; decide
        · rw [lv_bar]; decide)
  · rw [MayWait_zero]; iintro -; iempintro

omit [FloatOps F] in
/-- At its barrier wait a device owes a credit unit and a receive credit: both above the barrier's level. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_cred]; decide
      · rw [lv_recv]; decide)

omit [FloatOps F] in
/-- At its receive wait a device owes a credit unit only: above the receive cell's level. -/
theorem mayWait_recv (c : Dev nD) :
    (levAts L lv : sProp 𝕄) ⊢ MayWait (c : Thread nD τ) (.dma recvS.sem) () (oCred c) :=
  MayOwe.of_cut (L := L) (lev := lv) 2 (fun p hp => by rw [Finset.mem_singleton.mp hp, L_tc]; exact Finset.mem_singleton_self _)
    (fun g u hg => by rw [oCred_pos hg]; exact Finset.mem_singleton_self _)
    (fun p hp => by rw [Finset.mem_singleton.mp hp]; exact le_of_eq (lv_recv c ()))
    (fun g u hg => by rw [oCred_pos hg, lv_cred]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own four; the
    barrier and credit cells of the device before it (its signals); the receive cell of the device after it (its
    transfer). -/
def invs (K : Dev nD × Fin 4 → ℕ) (c : Dev nD) : sProp 𝕄 :=
  iprop(cellInv ER (lineRd m ρ) (K (c, 0)) (barCell c) ∗ cellInv ER (lineRd m ρ) (K (c, 1)) (sendCell c)
    ∗ cellInv ER (lineRd m ρ) (K (c, 2)) (recvCell c) ∗ cellInv ER (lineRd m ρ) (K (c, 3)) (credCell c)
    ∗ cellInv ER (lineRd m ρ) (K (prv c, 0)) (barCell (prv c)) ∗ cellInv ER (lineRd m ρ) (K (prv c, 3)) (credCell (prv c))
    ∗ cellInv ER (lineRd m ρ) (K (nxt c, 2)) (recvCell (nxt c)))

instance invs_persistent (K : Dev nD × Fin 4 → ℕ) (c : Dev nD) : BI.Persistent (invs m ρ K c) := by unfold invs; infer_instance

/-- The tokens of the duties device `c` pays: the barrier and credit duties of the device before it (if there is
    one), the receive duty of the device after it and its own send duty (if there is one). -/
def tokBar (c : Dev nD) : sProp 𝕄 := if c.val ≠ 0 then dutyTok ER (barCell (prv c)) 0 () else iprop(emp)
def tokCred (c : Dev nD) : sProp 𝕄 := if c.val ≠ 0 then dutyTok ER (credCell (prv c)) 0 () else iprop(emp)
def tokRecv (c : Dev nD) : sProp 𝕄 := if c.val ≠ 15 then dutyTok ER (recvCell (nxt c)) 0 () else iprop(emp)
def tokSend (c : Dev nD) : sProp 𝕄 := if c.val ≠ 15 then dutyTok ER (sendCell c) 0 () else iprop(emp)
def payToks (c : Dev nD) : sProp 𝕄 := iprop(tokBar (F := F) c ∗ tokCred (F := F) c ∗ tokRecv (F := F) c ∗ tokSend (F := F) c)

/-- The line's ghost state device `c` starts from: the invariants; its positions at round 0 of its four cells; that
    round 0 is reached of the cells it pays and of its own send and receive cells; the tokens it pays with. -/
def ghost (K : Dev nD × Fin 4 → ℕ) (c : Dev nD) : sProp 𝕄 :=
  iprop(invs m ρ K c
    ∗ atPos ER (barCell c) 0 ∅ 0 ∗ atPos ER (sendCell c) 0 ∅ 0 ∗ atPos ER (recvCell c) 0 ∅ 0 ∗ atPos ER (credCell c) 0 ∅ 0
    ∗ reached ER (barCell (prv c)) 0 ∗ reached ER (credCell (prv c)) 0 ∗ reached ER (recvCell (nxt c)) 0
    ∗ reached ER (sendCell c) 0 ∗ reached ER (recvCell c) 0
    ∗ payToks (F := F) c)

/-- The credit tokens device `c` waits with: one barrier unit and one credit unit unless it is the last, the
    transfer's credit on its receive cell unless it is the first. -/
def credBar (c : Dev nD) : sProp 𝕄 := if c.val ≠ 15 then cred (tallyAt (barCell c) () 1) else iprop(emp)
def credRecv (c : Dev nD) : sProp 𝕄 := if c.val ≠ 0 then cred (tallyAt (recvCell c) () N) else iprop(emp)
def credCred (c : Dev nD) : sProp 𝕄 := if c.val ≠ 15 then cred (tallyAt (credCell c) () 1) else iprop(emp)
def creds (c : Dev nD) : sProp 𝕄 := iprop(credBar (F := F) c ∗ credRecv (F := F) c ∗ credCred (F := F) c)

/-- What device `c`'s body starts from: the ghost state at some names, its credit tokens and the level facts. -/
def start (c : Dev nD) : sProp 𝕄 :=
  iprop((∃ K, ghost m ρ K c) ∗ creds (F := F) c ∗ levAts L lv)

/-- Before the point: that, and the two scoped buffers at any contents. -/
def Φ₀ (c : Dev nD) : sProp 𝕄 := iprop(start m ρ c ∗ (∃ f, haloPts c f) ∗ (∃ f, sendPts c f))
/-- After the point: the two scoped buffers at some contents, the three OWN cells at zero, closed (the barrier cell is
    the runtime's: nothing to hand back). -/
def Φ₁ (c : Dev nD) : sProp 𝕄 :=
  iprop((∃ f, haloPts c f) ∗ (∃ f, sendPts c f) ∗ semVal (sendCell c) 0 ∗ semVal (recvCell c) 0 ∗ semVal (credCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

end Cert.KernelProof

end
-- ==== Proof.Kernel.Launch.lean ====
/-
  The launch of the line. The library's launch theorem for TensorCores that owe units at launch, the runtime's barrier
  semaphore among the cells (Lib/Pipeline/Launch.lean, `θ_run_region_owing_glob_pf`), applied to this program over the
  schedule, the levels and the proof data of the two modules before this one; the body obligation is a hypothesis.

  The launch element mints ONE duty token for each of the sixty-four cells (sixteen devices, four cells each) and deals
  them around the RING of sixteen devices: a barrier's and a credit cell's token to the device after its owner (the one
  that signals it), a receive cell's to the device before its owner (the one whose transfer lands on it), a send cell's
  to its owner. The line has no edge between the last device and the first: the four cells that edge would feed (the
  last device's barrier, send and credit cells, the first device's receive cell) have no duty in the schedule, no
  rule can spend their tokens, and the device they are dealt to lets them go before its body starts. The launch
  credit is conditional for the same reason: a cell nobody owes gets no credit token.
-/
import proofs.«900434_g7700000000000435_dist_gconv1d_seqshard_i_b4_s512_c256_v7x_i16_bf16_1_alg».proof.Proof.Kernel.Ledger
import proofs.«900434_g7700000000000435_dist_gconv1d_seqshard_i_b4_s512_c256_v7x_i16_bf16_1_alg».proof.Proof.Gen.Kernel.Points

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def lineCells : Finset (GSem nD τ sig) := Finset.univ.map ⟨kcell, kcell_injective⟩

/-- One token a cell: the one duty its round 0 can have. -/
abbrev tokOf (ck : Dev nD × Fin 4) : GSem nD τ sig × ℕ × Unit := (kcell ck, 0, ())
theorem tokOf_injective : Function.Injective (tokOf : Dev nD × Fin 4 → GSem nD τ sig × ℕ × Unit) :=
  fun _ _ h => kcell_injective (congrArg Prod.fst h)
def lineToks : Finset (GSem nD τ sig × ℕ × Unit) := Finset.univ.map ⟨tokOf, tokOf_injective⟩

def u₀ : UU :=
  (initOf (Pipeline.cells cfgs cellOf_inj) (Pipeline.launchToks cfgs cellOf_inj), initOf lineCells lineToks)

/-- The duty tokens of device c's own four cells. -/
def toks (c : Dev nD) : sProp 𝕄 :=
  iprop(dutyTok ER (barCell c) 0 () ∗ dutyTok ER (sendCell c) 0 () ∗ dutyTok ER (recvCell c) 0 () ∗ dutyTok ER (credCell c) 0 ())

/-- What the launch element deals device c. -/
def G (c : Dev nD) : sProp 𝕄 :=
  iprop((bigSep Finset.univ fun k : Fin 4 => roundState ER (lineRd m ρ) (kcell (c, k)) 0)
    ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_line : BI.own (ER (initOf lineCells lineToks)) ⊢ (|==> bigSep Finset.univ (G m ρ) : sProp 𝕄) := by
  have hX (Φ : GSem nD τ sig → sProp 𝕄) : bigSep lineCells Φ = bigSep Finset.univ fun c : Dev nD => bigSep Finset.univ fun k : Fin 4 => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [bigSep_fin4]; rfl
  iintro HX
  imod (Rounds.fund ER (lineRd m ρ) lineCells lineToks) $$ HX with ⟨Hst, Hr, Hat, Htok⟩
  imodintro
  ihave Hst' := (Entails.of_eq (hX fun g => roundState ER (lineRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send, receive and credit semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (credCell c) 0) := by
  rw [Pipeline.ownSems0_eq_of_list c osem [0, 1, 2] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HS, HV, HC⟩, HB⟩
  isplitl [HB]; · iexact HB
  isplitl [HS]; · iexact HS
  isplitl [HV] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (lineRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (lineRd m ρ) (kcell (c, k)) 0)
      ⊢ (|={Set.univ}=> bigSep Finset.univ fun k => iprop(∃ κ : ℕ, cellInv ER (lineRd m ρ) κ (kcell (c, k))) : sProp 𝕄) from by
        rw [← bigSep_sep']
        exact (bigSep_mono fun k _ => (Rounds.body_intro ER (lineRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (lineRd m ρ) (K ck) (kcell ck))
    ∗ bigSep Finset.univ fun ck : Dev nD × Fin 4 => reached ER (kcell ck) 0)

instance records_persistent (K : Dev nD × Fin 4 → ℕ) : BI.Persistent (records m ρ K) := by unfold records; infer_instance

theorem inv_at (K : Dev nD × Fin 4 → ℕ) (ck : Dev nD × Fin 4) :
    (bigSep Finset.univ fun ck : Dev nD × Fin 4 => (cellInv ER (lineRd m ρ) (K ck) (kcell ck) : sProp 𝕄)) ⊢ cellInv ER (lineRd m ρ) (K ck) (kcell ck) :=
  bigSep_elim (Finset.mem_univ ck)
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device c: its positions, and the tokens dealt to it around the ring of sixteen — its left
    neighbour's barrier and credit tokens, its own send token, its right neighbour's receive token. At the two ends
    of the line the token that came over the edge between the last device and the first is of a cell with no duty. -/
def dealt (c : Dev nD) : sProp 𝕄 :=
  iprop(dutyTok ER (barCell (prv c)) 0 () ∗ dutyTok ER (credCell (prv c)) 0 () ∗ dutyTok ER (recvCell (nxt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0 ∗ atPos ER (credCell c) 0 ∅ 0) ∗ dealt c)

/-- A token kept where its edge exists, let go where it does not. -/
theorem keep_if (p : Prop) [Decidable p] (P : sProp 𝕄) : P ⊢ (if p then P else iprop(emp)) := by
  by_cases h : p
  · exact Entails.of_eq (if_pos h).symm
  · rw [if_neg h]; iintro -; iempintro

theorem ghost_intro (K : Dev nD × Fin 4 → ℕ) (c : Dev nD) : iprop(records m ρ K ∗ linear c) ⊢ G' m ρ c := by
  unfold records linear dealt G' ghost invs payToks tokBar tokCred tokRecv tokSend
  iintro ⟨⟨#HI, #HR⟩, ⟨HaB, HaS, HaV, HaC⟩, HtB, HtC, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (prv c, 0)); iexact HI
    isplitr; · iapply (inv_at m ρ K (prv c, 3)); iexact HI
    iapply (inv_at m ρ K (nxt c, 2)); iexact HI
  isplitl [HaB]; · iexact HaB
  isplitl [HaS]; · iexact HaS
  isplitl [HaV]; · iexact HaV
  isplitl [HaC]; · iexact HaC
  isplitr; · iapply (reached_at (F := F) (prv c, 0)); iexact HR
  isplitr; · iapply (reached_at (F := F) (prv c, 3)); iexact HR
  isplitr; · iapply (reached_at (F := F) (nxt c, 2)); iexact HR
  isplitr; · iapply (reached_at (F := F) (c, 1)); iexact HR
  isplitr; · iapply (reached_at (F := F) (c, 2)); iexact HR
  isplitl [HtB]; · iapply (keep_if (F := F) _ _); iexact HtB
  isplitl [HtC]; · iapply (keep_if (F := F) _ _); iexact HtC
  isplitl [HtV]; · iapply (keep_if (F := F) _ _); iexact HtV
  iapply (keep_if (F := F) _ _); iexact HtS

def ring : Dev nD ≃ Dev nD := ⟨nxt, prv, prv_nxt, nxt_prv⟩

/-- The tokens dealt around the ring of sixteen: a barrier's and a credit cell's one device up (to the device after
    its owner, whose left neighbour the owner is), a receive cell's one device down; a send cell's stays. -/
theorem toks_around : (bigSep Finset.univ fun c : Dev nD => (toks c : sProp 𝕄)) ⊢ bigSep Finset.univ fun c : Dev nD => dealt c := by
  unfold toks dealt
  rw [bigSep_sep', bigSep_sep', bigSep_sep', bigSep_sep', bigSep_sep', bigSep_sep',
    bigSep_univ_equiv ring.symm (fun c : Dev nD => (dutyTok ER (barCell c) 0 () : sProp 𝕄)),
    bigSep_univ_equiv ring (fun c : Dev nD => (dutyTok ER (recvCell c) 0 () : sProp 𝕄)),
    bigSep_univ_equiv ring.symm (fun c : Dev nD => (dutyTok ER (credCell c) 0 () : sProp 𝕄))]
  iintro ⟨HB, HS, HV, HC⟩
  isplitl [HB]; · iexact HB
  isplitl [HC]; · iexact HC
  isplitl [HV]; · iexact HV
  iexact HS

theorem regroup :
    (bigSep Finset.univ fun c : Dev nD => iprop((bigSep Finset.univ fun k => iprop(∃ κ : ℕ, cellInv ER (lineRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 4 => iprop(∃ κ : ℕ, cellInv ER (lineRd m ρ) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (lineRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) dealt).symm).trans
      (bigSep_mono fun c _ => show _ ⊢ linear c from Entails.of_eq (by unfold linear; rw [bigSep_fin4])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem prv_val_ne (c : Dev nD) : (prv c).val ≠ 15 ↔ c.val ≠ 0 := by revert c; decide
theorem nxt_val_ne (c : Dev nD) : (nxt c).val ≠ 0 ↔ c.val ≠ 15 := by revert c; decide

/-- Every device d of which p holds owing one tally on semaphore sm of device f d, f a bijection of the devices
    with inverse finv: the launch deals device c the matching credit token on its own sm exactly when p holds of the
    device that owes it, finv c, and no token otherwise. -/
theorem launchCred_tallyAt_if (sm : SemLoc sig) (f finv : Dev nD → Dev nD) (h1 : ∀ c, f (finv c) = c) (h2 : ∀ d, finv (f d) = d)
    (p : Dev nD → Prop) [DecidablePred p] (n : ℕ) (c : Dev nD) :
    (Pipeline.launchCred (fun d => if p d then tallyAt (((f d) : Thread nD τ), sm) () n else (0 : CellTallies nD τ sig Unit)) c : sProp 𝕄)
      ⊢ (if p (finv c) then cred (tallyAt ((c : Thread nD τ), sm) () n) else iprop(emp)) := by
  refine (Pipeline.launchCred_elim _ c sm).trans ?_
  rw [Pipeline.tallyOn_launchCredit_owing]
  have key : (∑ d : Dev nD, (if p d then tallyAt (((f d) : Thread nD τ), sm) () n else (0 : CellTallies nD τ sig Unit))) ((c : Thread nD τ), sm)
      = if p (finv c) then Finsupp.single () n else 0 := by
    rw [Finset.sum_apply, Finset.sum_eq_single (finv c)]
    · rw [h1]; split
      · unfold tallyAt tallyOn; rw [Pi.single_eq_same]
      · rfl
    · intro d _ hd; split
      · unfold tallyAt tallyOn
        refine Pi.single_eq_of_ne (fun h => hd ?_) _
        have h3 : c = f d := congrArg (fun g : GSem nD τ sig => g.1.1) h
        rw [h3, h2]
      · rfl
    · intro h; exact absurd (Finset.mem_univ _) h
  rw [key]
  split
  · exact .rfl
  · exact Entails.of_eq (by rw [tallyOn_zero, cred_zero])

/-- The barrier unit the device after c owes it, if there is one; -/
theorem launch_credBar (c : Dev nD) : (Pipeline.launchCred oBar c : sProp 𝕄) ⊢ credBar (F := F) c := by
  unfold credBar
  by_cases h : c.val ≠ 15
  · have hh := launchCred_tallyAt_if (F := F) (.reg barS) prv nxt prv_nxt nxt_prv (fun d => d.val ≠ 0) 1 c
    rw [if_pos ((nxt_val_ne c).mpr h)] at hh
    rw [if_pos h]; exact hh
  · rw [if_neg h]; iintro -; iempintro
/-- the credit unit it owes it; -/
theorem launch_credCred (c : Dev nD) : (Pipeline.launchCred oCred c : sProp 𝕄) ⊢ credCred (F := F) c := by
  unfold credCred
  by_cases h : c.val ≠ 15
  · have hh := launchCred_tallyAt_if (F := F) (.reg credS.sem) prv nxt prv_nxt nxt_prv (fun d => d.val ≠ 0) 1 c
    rw [if_pos ((nxt_val_ne c).mpr h)] at hh
    rw [if_pos h]; exact hh
  · rw [if_neg h]; iintro -; iempintro
/-- the transfer's credit the device before c owes its receive cell, if there is one. -/
theorem launch_credRecv (c : Dev nD) : (Pipeline.launchCred oRecv c : sProp 𝕄) ⊢ credRecv (F := F) c := by
  unfold credRecv
  by_cases h : c.val ≠ 0
  · have hh := launchCred_tallyAt_if (F := F) (.dma recvS.sem) nxt prv nxt_prv prv_nxt (fun d => d.val ≠ 15) N c
    rw [if_pos ((prv_val_ne c).mpr h)] at hh
    rw [if_pos h]; exact hh
  · rw [if_neg h]; iintro -; iempintro

theorem launch_creds (c : Dev nD) : (Pipeline.launchCred O₀ c : sProp 𝕄) ⊢ creds (F := F) c := by
  have hO : (O₀ : Dev nD → CellTallies nD τ sig Unit) = fun d => (fun d => oCred d + oRecv d) d + oBar d := rfl
  rw [hO, Pipeline.launchCred_add (fun d => oCred d + oRecv d) oBar c, Pipeline.launchCred_add oCred oRecv c]
  unfold creds
  iintro ⟨⟨HC, HV⟩, HB⟩
  isplitl [HB]; · iapply (launch_credBar (F := F) c); iexact HB
  isplitl [HV]; · iapply (launch_credRecv (F := F) c); iexact HV
  iapply (launch_credCred (F := F) c); iexact HC

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hh⟩, ⟨%g, Hb⟩⟩
  isplitl [Hs]; · iexact Hs
  isplitl [Hh]
  · iexists f; rw [haloPts_eq]; iexact Hh
  · iexists g; rw [sendPts_eq]; iexact Hb

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hh⟩, ⟨%g, Hb⟩, HzS, HzV, HzC⟩
  isplitr; · iempintro
  isplitl [HzS HzV HzC]
  · isplitl [HzS]; · iexact HzS
    isplitl [HzV] <;> iassumption
  isplitl [Hh]
  · iexists f; rw [← haloPts_eq]; iexact Hh
  · iexists g; rw [← sendPts_eq]; iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Device c's windowed arrays after the run, as the proof data computes them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices in a line, for any float values, from any memory with zero counters, given
    the body obligation on every device: every weakly fair execution of @main terminates, nothing faulting, and every
    final state has each windowed array of each device at the contents the proof data computes. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_line m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main_of' depends on axioms: [propext, Classical.choice, Quot.sound] -/
#guard_msgs in #print axioms run_main_of

/-! ### The final arrays -/

/-- The two argument arrays end as launched: an input window's array is never written back. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_k (c : Dev nD) : finalA m ρ c (1 : Fin 3) = (s₀ m ρ).mem (win0_1.arr.view.loc (c : Thread nD τ)) :=
  (dats (F := F) m ρ 0 c).arrAt_in (1 : Fin 3) rfl _

/-- The result array ends with its one block, all of it, written over by what the body left in the result's staging
    buffer: the one point writes the block back. -/
theorem finalA_out (c : Dev nD) :
    finalA m ρ c (2 : Fin 3)
      = (win0_2.blk t₀).view.write (Elt F) ((s₀ m ρ).mem (win0_2.arr.view.loc (c : Thread nD τ))) (outAt m ρ c) Finset.univ := by
  unfold finalA
  have h := (dats (F := F) m ρ 0 c).arrAt_succ (2 : Fin 3) t₀
  rw [if_pos (flush0_2 t₀)] at h
  exact h

/-- Read back through the block, the result array holds the result block. -/
theorem read_finalA_out (c : Dev nD) : (win0_2.blk t₀).view.read (Elt F) (finalA m ρ c (2 : Fin 3)) = outAt m ρ c := by
  rw [finalA_out, View.read_write_univ]

/-- A whole result array read through its one block is the array. -/
theorem read_blk_out (c : Dev nD) (f : Buf (Elt F) ((c : Thread nD τ).loc main_v1)) :
    (win0_2.blk t₀).view.read (Elt F) f = f :=
  Memref.read_access_unit_zero (Elt F) main_v1 (off := fun a => win0_2.index t₀ a * win0_2.size a)
    (funext fun a => Nat.zero_mul _) _ f

/-- The result array ends holding the result block. -/
theorem finalA_out_eq (c : Dev nD) : finalA m ρ c (2 : Fin 3) = outAt m ρ c :=
  (read_blk_out c _).symm.trans (read_finalA_out m ρ c)

/-! ### What the claims read off the run -/

/-- THE FRAME: the run's post read at the two argument arrays, in the frame claim's shape. -/
theorem frame_post_of (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (finalA_x m ρ c), (h c 1).trans (finalA_k m ρ c)⟩) (run_main_of m ρ hbody)

/-- THE VALUE: every device's result array ends holding its result block, and its argument arrays unchanged. -/
theorem value_post_of (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 2).trans (finalA_out_eq m ρ c), (h c 0).trans (finalA_x m ρ c), (h c 1).trans (finalA_k m ρ c)⟩)
    (run_main_of m ρ hbody)

/-- info: 'Cert.KernelProof.value_post_of' depends on axioms: [propext, Classical.choice, Quot.sound] -/
#guard_msgs in #print axioms value_post_of

end Cert.KernelProof

end
-- ==== Proof.KernelIdeal.Line.lean ====
/-
  The mesh is a LINE of sixteen devices: device `c` sends to `c + 1` and receives from `c - 1`; device 0 has no
  left neighbour and device 15 no right one. This module decides, once over the sixteen devices, what the program's
  integer chains compute: which of its conditional blocks a device runs, and which device each addressed operation
  names. `nxt` and `prv` are the successor and predecessor modulo 16; they are used only where the edge exists.
-/
import proofs.«900434_g7700000000000435_dist_gconv1d_seqshard_i_b4_s512_c256_v7x_i16_bf16_1_alg».proof.Proof.Gen.KernelIdeal

namespace Cert.KernelIdealProof

open Cert.KernelIdeal Cert.KernelIdeal.Gen
open Idealize.ShloMosaic

/-- The device after `c` on the line (modulo 16). -/
def nxt (c : Dev nD) : Dev nD := ⟨(c.val + 1) % 16, Nat.mod_lt _ (by decide)⟩
/-- The device before `c` on the line (modulo 16). -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide
theorem nxt_ne_self (c : Dev nD) : nxt c ≠ c := by revert c; decide
theorem prv_ne_self (c : Dev nD) : prv c ≠ c := by revert c; decide
theorem nxt_ne_prv (c : Dev nD) : nxt c ≠ prv c := by revert c; decide

/-- The successor of a device other than the last is not the first; the predecessor of one other than the first is
    not the last. -/
theorem nxt_val_ne_zero (c : Dev nD) (h : c.val ≠ 15) : (nxt c).val ≠ 0 := by revert c; decide
theorem prv_val_ne_last (c : Dev nD) (h : c.val ≠ 0) : (prv c).val ≠ 15 := by revert c; decide
theorem nxt_val (c : Dev nD) (h : c.val ≠ 15) : (nxt c).val = c.val + 1 := by revert c; decide
theorem prv_val (c : Dev nD) (h : c.val ≠ 0) : (prv c).val + 1 = c.val := by revert c; decide

/-- "This device is the first" and "this device is the last", as the words the body computes and carries. -/
def wFirst (c : Dev nD) : BitVec 1 := Scalar.cmpi .eq (Scalar.remsi (Scalar.divsi (Dev.word c) 1#32) 16#32) 0#32
def wLast (c : Dev nD) : BitVec 1 := Scalar.cmpi .eq (Scalar.remsi (Scalar.divsi (Dev.word c) 1#32) 16#32) 15#32

/-- The three printed conditions, per device: the entry signal and the receive block run on every device but the
    first; the barrier wait with the transfer on every device but the last. -/
theorem cond1_iff : ∀ c : Dev nD, k0_cond1 c = 1#1 ↔ c.val ≠ 0 := by decide +kernel
theorem cond2_iff : ∀ c : Dev nD, k0_cond2 c = 1#1 ↔ c.val ≠ 15 := by decide +kernel
theorem cond4_iff : ∀ c : Dev nD, k0_cond4 c = 1#1 ↔ c.val ≠ 0 := by decide +kernel
/-- The two conditions the body spells in line: the zero fill runs on the first device only; the closing waits on
    every device but the last. -/
theorem condFirst_iff : ∀ c : Dev nD, Scalar.cmpi .ne (Scalar.extui (wFirst c) : BitVec 32) 0#32 = 1#1 ↔ c.val = 0 := by decide +kernel
theorem condNotLast_iff : ∀ c : Dev nD,
    Scalar.cmpi .ne (Scalar.extui (Scalar.xori (wLast c) 1#1) : BitVec 32) 0#32 = 1#1 ↔ c.val ≠ 15 := by decide +kernel

/-- The devices the three addressed operations name: the entry signal and the credit signal go one device down the
    line, the transfer one device up. -/
theorem k0_dev1_eq : ∀ c : Dev nD, k0_cond1 c = 1#1 → k0_dev1 c = (prv c).val := by decide +kernel
theorem k0_dev2_eq : ∀ c : Dev nD, k0_cond2 c = 1#1 → k0_dev2 c = (nxt c).val := by decide +kernel
theorem k0_dev3_eq : ∀ c : Dev nD, k0_cond4 c = 1#1 → k0_dev3 c = (prv c).val := by decide +kernel

theorem dev1_eq (c : Dev nD) (h : k0_cond1 c = 1#1) : (⟨k0_dev1 c, k0_dev1_lt c h⟩ : Dev nD) = prv c := Fin.ext (k0_dev1_eq c h)
theorem dev2_eq (c : Dev nD) (h : k0_cond2 c = 1#1) : (⟨k0_dev2 c, k0_dev2_lt c h⟩ : Dev nD) = nxt c := Fin.ext (k0_dev2_eq c h)
theorem dev3_eq (c : Dev nD) (h : k0_cond4 c = 1#1) : (⟨k0_dev3 c, k0_dev3_lt c h⟩ : Dev nD) = prv c := Fin.ext (k0_dev3_eq c h)

end Cert.KernelIdealProof
-- ==== Proof.KernelIdeal.Contents.lean ====
/-
  What the kernel's buffers hold, as pure terms of a device's block `x` of the input, the taps `k` and the halo
  buffer `h`: the eight trailing rows of the block that a device sends up the line, the three trailing rows of the
  halo it reads, and the result block after the body's two stores. Each of the two stores rewrites a rectangle of
  whole packed rows — it reads the rectangle, replaces a slice of it and writes it back — so the buffer after both
  is a nested term over its arbitrary first contents; `outFn` is the function that term is, row by row: the first
  three rows from the halo part, the others from the main part.
-/
import proofs.«900434_g7700000000000435_dist_gconv1d_seqshard_i_b4_s512_c256_v7x_i16_bf16_1_alg».proof.Proof.Gen.KernelIdeal.Skeleton

noncomputable section

namespace Cert.KernelIdealProof

open Cert.KernelIdeal Cert.KernelIdeal.Gen
open Idealize.ShloMosaic

variable {F : FTy → Type} [FloatOps F]

/-! ## The memrefs the body is called with -/

/-- The staged block of `x`, the staged taps, the staged result block, the halo buffer and the send buffer. -/
abbrev xM : Memref sig .tc .vmem S4x512x256 .f32 := Memref.whole cc0_stg0_0
abbrev kM : Memref sig .tc .vmem S4x256 .f32 := Memref.whole cc0_stg1_0
abbrev oM : Memref sig .tc .vmem S4x512x256 .bf16 := Memref.whole cc0_stg2_0
abbrev hM : Memref sig .tc .vmem S4x8x256 .f32 := Memref.whole cc0_scratch0
abbrev bM : Memref sig .tc .vmem S4x8x256 .f32 := Memref.whole cc0_scratch1

/-! ## The rectangles the body loads and stores through -/

/-- Rows 504 … 511 of the block; a whole 4×8×256 buffer; rows 5 … 7 of the halo; the whole block and the whole taps;
    rows 3 … 511, rows 2 … 511, rows 0 … 2 and rows 0 … 3 of the result block. -/
abbrev rX504 : Rect S4x512x256 := Rect.unit (s := S4x512x256) ![0, 504, 0] S4x8x256.size inb_S4x512x256_S4x8x256_0_504_0
abbrev rB : Rect S4x8x256 := Rect.unit (s := S4x8x256) ![0, 0, 0] S4x8x256.size inb_S4x8x256_S4x8x256_0_0_0
abbrev rH5 : Rect S4x8x256 := Rect.unit (s := S4x8x256) ![0, 5, 0] S4x3x256.size inb_S4x8x256_S4x3x256_0_5_0
abbrev rX : Rect S4x512x256 := Rect.unit (s := S4x512x256) ![0, 0, 0] S4x512x256.size inb_S4x512x256_S4x512x256_0_0_0
abbrev rK : Rect S4x256 := Rect.unit (s := S4x256) ![0, 0] S4x256.size inb_S4x256_S4x256_0_0
abbrev rO3 : Rect S4x512x256 := Rect.unit (s := S4x512x256) ![0, 3, 0] S4x509x256.size inb_S4x512x256_S4x509x256_0_3_0
abbrev rO2 : Rect S4x512x256 := Rect.unit (s := S4x512x256) ![0, 2, 0] S4x510x256.size inb_S4x512x256_S4x510x256_0_2_0
abbrev rO0 : Rect S4x512x256 := Rect.unit (s := S4x512x256) ![0, 0, 0] S4x3x256.size inb_S4x512x256_S4x3x256_0_0_0
abbrev rO04 : Rect S4x512x256 := Rect.unit (s := S4x512x256) ![0, 0, 0] S4x4x256.size inb_S4x512x256_S4x4x256_0_0_0

/-! ## Contents -/

/-- What a device sends up the line: the last eight rows of its block. -/
def tailOf (x : (cc0_stg0_0 : Ref sig .tc).ty.Contents (Elt F)) : (cc0_scratch1 : Ref sig .tc).ty.Contents (Elt F) :=
  k0_pay2 (k0_pay1 ((xM : Memref sig .tc .vmem S4x512x256 .f32).view.readAt (Elt F) rX504.toLoadRect x))

/-- The zero fill of the first device's halo. -/
def zeroHalo : (cc0_scratch0 : Ref sig .tc).ty.Contents (Elt F) := k0_pay3 (F := F)

/-- The three rows of the halo buffer the body reads: its rows 5 … 7. -/
def haloRows (h : (cc0_scratch0 : Ref sig .tc).ty.Contents (Elt F)) : Vec F S4x3x256 .f32 :=
  (hM : Memref sig .tc .vmem S4x8x256 .f32).view.readAt (Elt F) rH5.toLoadRect h

/-- The main part of the result: rows 3 … 511, from the block and the taps alone. -/
def mainPart (x : (cc0_stg0_0 : Ref sig .tc).ty.Contents (Elt F)) (k : (cc0_stg1_0 : Ref sig .tc).ty.Contents (Elt F)) :
    FVec F S4x509x256 .bf16 :=
  k0_pay8
    (k0_pay6 ((xM : Memref sig .tc .vmem S4x512x256 .f32).view.readAt (Elt F) rX.toLoadRect x) ((kM : Memref sig .tc .vmem S4x256 .f32).view.readAt (Elt F) rK.toLoadRect k))
    (k0_pay7 ((xM : Memref sig .tc .vmem S4x512x256 .f32).view.readAt (Elt F) rX.toLoadRect x) ((kM : Memref sig .tc .vmem S4x256 .f32).view.readAt (Elt F) rK.toLoadRect k))

/-- The halo part of the result: rows 0 … 2, from the halo's last three rows and the block's first three. -/
def haloPart (x : (cc0_stg0_0 : Ref sig .tc).ty.Contents (Elt F)) (k : (cc0_stg1_0 : Ref sig .tc).ty.Contents (Elt F))
    (h : (cc0_scratch0 : Ref sig .tc).ty.Contents (Elt F)) : FVec F S4x3x256 .bf16 :=
  k0_pay9
    (k0_pay4 ((xM : Memref sig .tc .vmem S4x512x256 .f32).view.readAt (Elt F) rX.toLoadRect x))
    (k0_pay5 ((kM : Memref sig .tc .vmem S4x256 .f32).view.readAt (Elt F) rK.toLoadRect k))
    (haloRows h)

/-- One store of whole packed rows: the rectangle `R` of the result buffer `f` read, rewritten by `w`, written back. -/
def rewriteRows (R : Rect S4x512x256) (w : (R.shape.Idx → Elt F .bf16) → (R.shape.Idx → Elt F .bf16))
    (f : (cc0_stg2_0 : Ref sig .tc).ty.Contents (Elt F)) : (cc0_stg2_0 : Ref sig .tc).ty.Contents (Elt F) :=
  ((oM : Memref sig .tc .vmem S4x512x256 .bf16).access R : View sig .tc _ _ _).write (Elt F) f
    (w ((oM : Memref sig .tc .vmem S4x512x256 .bf16).view.readAt (Elt F) R.toLoadRect f)) Finset.univ

/-- The result buffer after the body's two stores, from its first contents `f`. -/
def outOf (f : (cc0_stg2_0 : Ref sig .tc).ty.Contents (Elt F)) (p8 : FVec F S4x509x256 .bf16) (p9 : FVec F S4x3x256 .bf16) :
    (cc0_stg2_0 : Ref sig .tc).ty.Contents (Elt F) :=
  rewriteRows rO04 (fun old => updateSlice old p9 ![0, 0, 0] slices_S4x4x256_S4x3x256_0_0_0)
    (rewriteRows rO2 (fun old => updateSlice old p8 ![0, 1, 0] slices_S4x510x256_S4x509x256_0_1_0) f)

end Cert.KernelIdealProof

end
-- ==== Proof.KernelIdeal.Schedule.lean ====
/-
  The protocol of the line, under the rounds discipline. Each device has four semaphore cells, each with at most one
  duty, all at round 0:
  * its BARRIER cell (the runtime's semaphore), on every device but the last: one unit from the device after it, sent
    at that device's entry; it hands over that device's halo buffer — what the transfer into it needs — and that the
    device's receive cell is at round 0;
  * its SEND cell, on every device but the last: the transfer's credit, paid by the device's own transfer once the
    send buffer is read; it hands the send buffer back, holding the block's last eight rows;
  * its RECEIVE cell, on every device but the first: the transfer's credit, paid by the transfer of the device before
    it; it hands the device its halo buffer holding that device's last eight rows;
  * its CREDIT cell (the scoped region's semaphore), on every device but the last: one unit from the device after it,
    sent after that device's receive wait; it hands over nothing.
  The first device has no left neighbour: nobody pays its receive cell, and it fills its halo with zeros itself. The
  last has no right neighbour: nobody pays its barrier, send and credit cells, which have no duty.
-/
import proofs.«900434_g7700000000000435_dist_gconv1d_seqshard_i_b4_s512_c256_v7x_i16_bf16_1_alg».proof.Proof.KernelIdeal.Line
import proofs.«900434_g7700000000000435_dist_gconv1d_seqshard_i_b4_s512_c256_v7x_i16_bf16_1_alg».proof.Proof.KernelIdeal.Contents
import proofs.«900434_g7700000000000435_dist_gconv1d_seqshard_i_b4_s512_c256_v7x_i16_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the line's, both with duties `Unit` -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and cells -/

/-- The runtime's barrier semaphore of collective id 0 (unscoped); the send and receive DMA semaphores and the scoped
    region's credit semaphore (the kernel's own, scoped). -/
abbrev barS : Sem sig := (SemArray.scalar (sig.barrier 0 rfl) : Sems sig S_).sem
abbrev sendS : DmaSems sig S_ := cc0_scratch2
abbrev recvS : DmaSems sig S_ := cc0_scratch3
abbrev credS : Sems sig S_ := cc0_scoped0

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev credCell (c : Dev nD) : GSem nD τ sig := ((c : Thread nD τ), .reg credS.sem)

/-- The kernel's OWN (scoped) semaphores, as the launch indexes them: send, receive, credit; -/
abbrev osem : Fin 3 → SemLoc sig := fun | 0 => .dma sendS.sem | 1 => .dma recvS.sem | 2 => .reg credS.sem
/-- all four of the line's, as this proof indexes them: barrier, send, receive, credit. -/
abbrev csem : Fin 4 → SemLoc sig := fun | 0 => .reg barS | 1 => .dma sendS.sem | 2 => .dma recvS.sem | 3 => .reg credS.sem
abbrev kcell (ck : Dev nD × Fin 4) : GSem nD τ sig := ((ck.1 : Thread nD τ), csem ck.2)

/-- The credit of one transfer of the 4×8×256 halo. -/
abbrev N : ℕ := (hM : Memref sig .tc .vmem S4x8x256 .f32).view.dmaCredit
theorem N_pos : 0 < N := View.dmaCredit_pos _ (by decide)

/-! ## Contents -/

/-- Device `c`'s staged block of `x` and its staged taps: the blocks of its argument arrays as launched. -/
def xstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))

/-- What device `c` sends: the last eight rows of its block. -/
def sent (c : Dev nD) : (cc0_scratch1 : Ref sig .tc).ty.Contents (Elt F) := tailOf (xstg m ρ c)

/-- What device `c`'s halo holds when the body reads it: zeros on the first device, else what the device before sent. -/
def halo (c : Dev nD) : (cc0_scratch0 : Ref sig .tc).ty.Contents (Elt F) :=
  if c.val = 0 then zeroHalo else sent m ρ (prv c)

/-- Some contents of the result buffer, to start the two stores from: they overwrite every row. -/
def blank : (cc0_stg2_0 : Ref sig .tc).ty.Contents (Elt F) := fun _ => (Scalar.ofBits .bf16 0x0000#16 : F .bf16)

/-- The kernel's result block on device `c`. -/
def outAt (c : Dev nD) : (cc0_stg2_0 : Ref sig .tc).ty.Contents (Elt F) :=
  outOf (blank (F := F)) (mainPart (xstg m ρ c) (kstg m ρ c)) (haloPart (xstg m ρ c) (kstg m ρ c) (halo m ρ c))

omit [FloatOps F] in
/-- A whole 4×8×256 buffer written over by the whole of another holds the other's contents. -/
theorem landed_eq (c : Dev nD) (fd : Buf (Elt F) ((hM : Memref sig .tc .vmem S4x8x256 .f32).view.loc (c : Thread nD τ)))
    (fs : (cc0_scratch1 : Ref sig .tc).ty.Contents (Elt F)) :
    (hM : Memref sig .tc .vmem S4x8x256 .f32).view.write (Elt F) fd ((bM : Memref sig .tc .vmem S4x8x256 .f32).view.read (Elt F) fs) Finset.univ = fs := by
  show (View.whole cc0_scratch0).write (Elt F) fd ((View.whole cc0_scratch1).read (Elt F) fs) Finset.univ = fs
  rw [View.read_whole]
  exact View.write_whole_univ _ _ _

/-- The halo buffer and the send buffer of device `c`, whole, at contents `f`. -/
def haloPts (c : Dev nD) (f : Buf (Elt F) ((hM : Memref sig .tc .vmem S4x8x256 .f32).view.loc (c : Thread nD τ))) : sProp 𝕄 :=
  (hM : Memref sig .tc .vmem S4x8x256 .f32).view.loc (c : Thread nD τ) ↦[(hM : Memref sig .tc .vmem S4x8x256 .f32).view.set]{fullShare} f
def sendPts (c : Dev nD) (f : Buf (Elt F) ((bM : Memref sig .tc .vmem S4x8x256 .f32).view.loc (c : Thread nD τ))) : sProp 𝕄 :=
  (bM : Memref sig .tc .vmem S4x8x256 .f32).view.loc (c : Thread nD τ) ↦[(bM : Memref sig .tc .vmem S4x8x256 .f32).view.set]{fullShare} f

omit [FloatOps F] in
instance haloPts_storable (c : Dev nD) (f) : BI.Storable (upEmb : UEmb _ 𝕄) (haloPts (F := F) c f) := by unfold haloPts; infer_instance
omit [FloatOps F] in
instance sendPts_storable (c : Dev nD) (f) : BI.Storable (upEmb : UEmb _ 𝕄) (sendPts (F := F) c f) := by unfold sendPts; infer_instance

omit [FloatOps F] in
theorem halo_set : (hM : Memref sig .tc .vmem S4x8x256 .f32).view.set = Finset.univ := View.set_whole _
omit [FloatOps F] in
theorem send_set : (bM : Memref sig .tc .vmem S4x8x256 .f32).view.set = Finset.univ := View.set_whole _
omit [FloatOps F] in
theorem haloPts_eq (c : Dev nD) (f : Buf (Elt F) ((c : Thread nD τ).loc cc0_scratch0)) :
    haloPts c f = (((c : Thread nD τ).loc cc0_scratch0) ↦{fullShare} f : sProp 𝕄) := by unfold haloPts; rw [halo_set]
omit [FloatOps F] in
theorem sendPts_eq (c : Dev nD) (f : Buf (Elt F) ((c : Thread nD τ).loc cc0_scratch1)) :
    sendPts c f = (((c : Thread nD τ).loc cc0_scratch1) ↦{fullShare} f : sProp 𝕄) := by unfold sendPts; rw [send_set]

/-! ## The schedule -/

/-- What the entry signal of `nxt c` hands `c`: `nxt c`'s halo buffer and that its receive cell is at round 0. -/
def barPay (c : Dev nD) : sProp 𝕄 := iprop((∃ f, haloPts (nxt c) f) ∗ reached ER (recvCell (nxt c)) 0)
/-- What the landing of `prv c`'s transfer hands `c`: its halo buffer holding what `prv c` sent. -/
def recvPay (c : Dev nD) : sProp 𝕄 := haloPts c (sent m ρ (prv c))
/-- What the departure of `c`'s transfer hands `c`: its send buffer back. -/
def sendPay (c : Dev nD) : sProp 𝕄 := sendPts c (sent m ρ c)

/-- The cells that have a duty: a barrier, send or credit cell of a device other than the last, a receive cell of a
    device other than the first. -/
abbrev IsBar (g : GSem nD τ sig) : Prop := g.1.2 = .tc ∧ g.2 = .reg barS ∧ g.1.1.val ≠ 15
abbrev IsSend (g : GSem nD τ sig) : Prop := g.1.2 = .tc ∧ g.2 = .dma sendS.sem ∧ g.1.1.val ≠ 15
abbrev IsRecv (g : GSem nD τ sig) : Prop := g.1.2 = .tc ∧ g.2 = .dma recvS.sem ∧ g.1.1.val ≠ 0
abbrev IsCred (g : GSem nD τ sig) : Prop := g.1.2 = .tc ∧ g.2 = .reg credS.sem ∧ g.1.1.val ≠ 15
abbrev Active (g : GSem nD τ sig) : Prop := IsBar g ∨ IsSend g ∨ IsRecv g ∨ IsCred g

/-- One round, round 0: an active cell has the one duty; a barrier or credit cell's is one unit, a send or receive
    cell's the halo's transfer credit. -/
def lineRd : Rounds.Schedule (GSem nD τ sig) Unit 𝕄 where
  duties g r := if r = 0 ∧ Active g then {()} else ∅
  unitless _ := False
  amount g _ _ := if g.2 = .reg barS ∨ g.2 = .reg credS.sem then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS ∨ g.2 = .reg credS.sem
    · rw [if_pos h]; exact Nat.one_pos
    · rw [if_neg h]; exact N_pos

instance lineRd_payload_storable (g : GSem nD τ sig) (r : ℕ) (d : Unit) :
    BI.Storable (upEmb : UEmb _ 𝕄) ((lineRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_cred : (SemLoc.dma sendS.sem : SemLoc sig) ≠ .reg credS.sem := fun h => by cases h
theorem recv_ne_cred : (SemLoc.dma recvS.sem : SemLoc sig) ≠ .reg credS.sem := fun h => by cases h
theorem send_ne_recv : (SemLoc.dma sendS.sem : SemLoc sig) ≠ .dma recvS.sem := by decide
theorem recv_ne_send : (SemLoc.dma recvS.sem : SemLoc sig) ≠ .dma sendS.sem := by decide
theorem cred_ne_bar : (SemLoc.reg credS.sem : SemLoc sig) ≠ .reg barS := by decide
theorem bar_ne_cred : (SemLoc.reg barS : SemLoc sig) ≠ .reg credS.sem := by decide
theorem cred_ne_recv : (SemLoc.reg credS.sem : SemLoc sig) ≠ .dma recvS.sem := fun h => by cases h
theorem cred_ne_send : (SemLoc.reg credS.sem : SemLoc sig) ≠ .dma sendS.sem := fun h => by cases h

theorem active_bar (h : c.val ≠ 15) : Active (barCell c) := .inl ⟨rfl, rfl, h⟩
theorem active_send (h : c.val ≠ 15) : Active (sendCell c) := .inr (.inl ⟨rfl, rfl, h⟩)
theorem active_recv (h : c.val ≠ 0) : Active (recvCell c) := .inr (.inr (.inl ⟨rfl, rfl, h⟩))
theorem active_cred (h : c.val ≠ 15) : Active (credCell c) := .inr (.inr (.inr ⟨rfl, rfl, h⟩))
theorem not_active_bar (h : c.val = 15) : ¬ Active (barCell c) := by
  rintro (⟨-, -, h'⟩ | ⟨-, h', -⟩ | ⟨-, h', -⟩ | ⟨-, h', -⟩)
  · exact h' h
  · exact send_ne_bar h'.symm
  · exact recv_ne_bar h'.symm
  · exact cred_ne_bar h'.symm
theorem not_active_send (h : c.val = 15) : ¬ Active (sendCell c) := by
  rintro (⟨-, h', -⟩ | ⟨-, -, h'⟩ | ⟨-, h', -⟩ | ⟨-, h', -⟩)
  · exact send_ne_bar h'
  · exact h' h
  · exact send_ne_recv h'
  · exact send_ne_cred h'
theorem not_active_recv (h : c.val = 0) : ¬ Active (recvCell c) := by
  rintro (⟨-, h', -⟩ | ⟨-, h', -⟩ | ⟨-, -, h'⟩ | ⟨-, h', -⟩)
  · exact recv_ne_bar h'
  · exact recv_ne_send h'
  · exact h' h
  · exact recv_ne_cred h'
theorem not_active_cred (h : c.val = 15) : ¬ Active (credCell c) := by
  rintro (⟨-, h', -⟩ | ⟨-, h', -⟩ | ⟨-, h', -⟩ | ⟨-, -, h'⟩)
  · exact cred_ne_bar h'
  · exact cred_ne_send h'
  · exact cred_ne_recv h'
  · exact h' h

omit [FloatOps F] in
theorem duties_active {g : GSem nD τ sig} (h : Active g) : (lineRd (F := F) m ρ).duties g 0 = {()} := by
  dsimp only [lineRd]; exact if_pos ⟨rfl, h⟩
omit [FloatOps F] in
theorem duties_idle {g : GSem nD τ sig} (h : ¬ Active g) (r : ℕ) : (lineRd (F := F) m ρ).duties g r = ∅ := by
  dsimp only [lineRd]; exact if_neg fun h' => h h'.2
omit [FloatOps F] in
theorem duties_later (g : GSem nD τ sig) : ∀ r, 1 ≤ r → (lineRd (F := F) m ρ).duties g r = ∅ :=
  fun r hr => by dsimp only [lineRd]; rw [if_neg fun h => by omega]
omit [FloatOps F] in
theorem duties_idle_from (g : GSem nD τ sig) (h : ¬ Active g) : ∀ r, 0 ≤ r → (lineRd (F := F) m ρ).duties g r = ∅ :=
  fun r _ => duties_idle m ρ h r

omit [FloatOps F] in
theorem amount_bar (d : Unit) : (lineRd (F := F) m ρ).amount (barCell c) 0 d = 1 := by dsimp only [lineRd]; exact if_pos (.inl rfl)
omit [FloatOps F] in
theorem amount_cred (d : Unit) : (lineRd (F := F) m ρ).amount (credCell c) 0 d = 1 := by dsimp only [lineRd]; exact if_pos (.inr rfl)
omit [FloatOps F] in
theorem amount_send (d : Unit) : (lineRd (F := F) m ρ).amount (sendCell c) 0 d = N := by
  dsimp only [lineRd]; exact if_neg fun h => h.elim send_ne_bar send_ne_cred
omit [FloatOps F] in
theorem amount_recv (d : Unit) : (lineRd (F := F) m ρ).amount (recvCell c) 0 d = N := by
  dsimp only [lineRd]; exact if_neg fun h => h.elim recv_ne_bar recv_ne_cred

omit [FloatOps F] in
theorem expect_bar (h : c.val ≠ 15) : (lineRd (F := F) m ρ).expect (barCell c) 0 = 1 := by
  unfold Schedule.expect Schedule.amountOf; rw [duties_active m ρ (active_bar c h), Finset.sum_singleton, amount_bar]
omit [FloatOps F] in
theorem expect_cred (h : c.val ≠ 15) : (lineRd (F := F) m ρ).expect (credCell c) 0 = 1 := by
  unfold Schedule.expect Schedule.amountOf; rw [duties_active m ρ (active_cred c h), Finset.sum_singleton, amount_cred]
omit [FloatOps F] in
theorem expect_send (h : c.val ≠ 15) : (lineRd (F := F) m ρ).expect (sendCell c) 0 = N := by
  unfold Schedule.expect Schedule.amountOf; rw [duties_active m ρ (active_send c h), Finset.sum_singleton, amount_send]
omit [FloatOps F] in
theorem expect_recv (h : c.val ≠ 0) : (lineRd (F := F) m ρ).expect (recvCell c) 0 = N := by
  unfold Schedule.expect Schedule.amountOf; rw [duties_active m ρ (active_recv c h), Finset.sum_singleton, amount_recv]

omit [FloatOps F] in
theorem payload_bar (d : Unit) : (lineRd (F := F) m ρ).payload (barCell c) 0 d = barPay c := by dsimp only [lineRd]; rw [if_pos rfl]
omit [FloatOps F] in
theorem payload_recv (d : Unit) : (lineRd (F := F) m ρ).payload (recvCell c) 0 d = recvPay m ρ c := by
  dsimp only [lineRd]; rw [if_neg recv_ne_bar, if_pos rfl]
omit [FloatOps F] in
theorem payload_send (d : Unit) : (lineRd (F := F) m ρ).payload (sendCell c) 0 d = sendPay m ρ c := by
  dsimp only [lineRd]; rw [if_neg send_ne_bar, if_neg send_ne_recv, if_pos rfl]
omit [FloatOps F] in
theorem payload_cred (d : Unit) : (lineRd (F := F) m ρ).payload (credCell c) 0 d = iprop(emp) := by
  dsimp only [lineRd]; rw [if_neg cred_ne_bar, if_neg cred_ne_recv, if_neg cred_ne_send]

omit [FloatOps F] in
/-- The rest of an active cell's round, no duty taken: its one payload. -/
theorem rest_bar (h : c.val ≠ 15) : bigSep ((lineRd (F := F) m ρ).duties (barCell c) 0 \ ∅) (fun d => (lineRd (F := F) m ρ).payload (barCell c) 0 d) = barPay c := by
  rw [Finset.sdiff_empty, duties_active m ρ (active_bar c h), bigSep_singleton, payload_bar]
omit [FloatOps F] in
theorem rest_send (h : c.val ≠ 15) : bigSep ((lineRd (F := F) m ρ).duties (sendCell c) 0 \ ∅) (fun d => (lineRd (F := F) m ρ).payload (sendCell c) 0 d) = sendPay m ρ c := by
  rw [Finset.sdiff_empty, duties_active m ρ (active_send c h), bigSep_singleton, payload_send]
omit [FloatOps F] in
theorem rest_recv (h : c.val ≠ 0) : bigSep ((lineRd (F := F) m ρ).duties (recvCell c) 0 \ ∅) (fun d => (lineRd (F := F) m ρ).payload (recvCell c) 0 d) = recvPay m ρ c := by
  rw [Finset.sdiff_empty, duties_active m ρ (active_recv c h), bigSep_singleton, payload_recv]
omit [FloatOps F] in
theorem rest_cred (h : c.val ≠ 15) : bigSep ((lineRd (F := F) m ρ).duties (credCell c) 0 \ ∅) (fun d => (lineRd (F := F) m ρ).payload (credCell c) 0 d) = iprop(emp) := by
  rw [Finset.sdiff_empty, duties_active m ρ (active_cred c h), bigSep_singleton, payload_cred]

end Sched

end Cert.KernelIdealProof

end
-- ==== Proof.KernelIdeal.Ledger.lean ====
/-
  What each device owes at launch, the levels that order the waits, and the proof data of the launch.
  A device other than the first owes the device before it one barrier unit and one credit unit; a device other than
  the last owes the device after it the transfer's credit on its receive cell. Levels: barrier cells 1, receive cells
  2, credit cells 3, every other cell 0. A device waits on its barrier cell while it owes a receive credit and a
  credit unit (both above 1), on its receive cell while it owes a credit unit (above 2), and on its send and credit
  cells while it owes nothing: every wait is below everything the waiter still owes.
-/
import proofs.«900434_g7700000000000435_dist_gconv1d_seqshard_i_b4_s512_c256_v7x_i16_bf16_1_alg».proof.Proof.KernelIdeal.Schedule

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch -/

/-- To the receive cell of the device after it, the transfer's credit; to the credit and barrier cells of the device
    before it, one unit each. -/
def oRecv (c : Dev nD) : CellTallies nD τ sig Unit := if c.val ≠ 15 then tallyAt (recvCell (nxt c)) () N else 0
def oCred (c : Dev nD) : CellTallies nD τ sig Unit := if c.val ≠ 0 then tallyAt (credCell (prv c)) () 1 else 0
def oBar (c : Dev nD) : CellTallies nD τ sig Unit := if c.val ≠ 0 then tallyAt (barCell (prv c)) () 1 else 0

/-- Summed so that the entry signal peels the last summand, then the transfer the last of what is left, then the
    credit signal. -/
def O₁ (c : Dev nD) : CellTallies nD τ sig Unit := oCred c + oRecv c
def O₀ (c : Dev nD) : CellTallies nD τ sig Unit := O₁ c + oBar c

theorem oRecv_pos {c : Dev nD} {g : GSem nD τ sig} {u : Unit} (h : 0 < oRecv c g u) : g = recvCell (nxt c) := by
  unfold oRecv at h
  split at h
  · rw [tallyAt_apply] at h
    by_contra hn
    rw [if_neg (fun h' => hn h'.1)] at h
    exact Nat.lt_irrefl 0 h
  · exact absurd h (Nat.lt_irrefl 0)
theorem oCred_pos {c : Dev nD} {g : GSem nD τ sig} {u : Unit} (h : 0 < oCred c g u) : g = credCell (prv c) := by
  unfold oCred at h
  split at h
  · rw [tallyAt_apply] at h
    by_contra hn
    rw [if_neg (fun h' => hn h'.1)] at h
    exact Nat.lt_irrefl 0 h
  · exact absurd h (Nat.lt_irrefl 0)
theorem oBar_pos {c : Dev nD} {g : GSem nD τ sig} {u : Unit} (h : 0 < oBar c g u) : g = barCell (prv c) := by
  unfold oBar at h
  split at h
  · rw [tallyAt_apply] at h
    by_contra hn
    rw [if_neg (fun h' => hn h'.1)] at h
    exact Nat.lt_irrefl 0 h
  · exact absurd h (Nat.lt_irrefl 0)

theorem O₁_pos {c : Dev nD} {g : GSem nD τ sig} {u : Unit} (h : 0 < O₁ c g u) : g = credCell (prv c) ∨ g = recvCell (nxt c) := by
  unfold O₁ at h
  rw [Pi.add_apply, Finsupp.add_apply] at h
  rcases Nat.add_pos_iff_pos_or_pos.mp h with h1 | h2
  · exact .inl (oCred_pos h1)
  · exact .inr (oRecv_pos h2)
theorem O₀_pos {c : Dev nD} {g : GSem nD τ sig} {u : Unit} (h : 0 < O₀ c g u) :
    g = credCell (prv c) ∨ g = recvCell (nxt c) ∨ g = barCell (prv c) := by
  unfold O₀ at h
  rw [Pi.add_apply, Finsupp.add_apply] at h
  rcases Nat.add_pos_iff_pos_or_pos.mp h with h1 | h2
  · rcases O₁_pos h1 with h | h
    · exact .inl h
    · exact .inr (.inl h)
  · exact .inr (.inr (oBar_pos h2))

/-! ## The levels -/

def L (g : GSem nD τ sig) : Finset Unit := if g.1.2 = .tc then {()} else ∅
/-- barrier cells at 1, receive cells at 2, credit cells at 3, everything else (staging, send) at 0. -/
def lv (g : GSem nD τ sig) (_ : Unit) : ℕ :=
  if g.2 = .reg barS then 1 else if g.2 = .dma recvS.sem then 2 else if g.2 = .reg credS.sem then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (u : Unit) : lv (recvCell c) u = 2 := by dsimp only [lv]; rw [if_neg recv_ne_bar, if_pos rfl]
theorem lv_cred (c : Dev nD) (u : Unit) : lv (credCell c) u = 3 := by
  dsimp only [lv]; rw [if_neg cred_ne_bar, if_neg cred_ne_recv, if_pos rfl]

omit [FloatOps F] in
/-- A wait on a staging cell or on the send cell (level 0), owing what the device owes at launch, or nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg hq, if_neg (fun h => by cases h)])
      (fun g u hg => by
        rcases O₀_pos hg with rfl | rfl | rfl
        · rw [lv_cred]; decide
        · rw [lv_recv]; decide
        · rw [lv_bar]; decide)
  · rw [MayWait_zero]; iintro -; iempintro

omit [FloatOps F] in
/-- At its barrier wait a device owes a credit unit and a receive credit: both above the barrier's level. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_cred]; decide
      · rw [lv_recv]; decide)

omit [FloatOps F] in
/-- At its receive wait a device owes a credit unit only: above the receive cell's level. -/
theorem mayWait_recv (c : Dev nD) :
    (levAts L lv : sProp 𝕄) ⊢ MayWait (c : Thread nD τ) (.dma recvS.sem) () (oCred c) :=
  MayOwe.of_cut (L := L) (lev := lv) 2 (fun p hp => by rw [Finset.mem_singleton.mp hp, L_tc]; exact Finset.mem_singleton_self _)
    (fun g u hg => by rw [oCred_pos hg]; exact Finset.mem_singleton_self _)
    (fun p hp => by rw [Finset.mem_singleton.mp hp]; exact le_of_eq (lv_recv c ()))
    (fun g u hg => by rw [oCred_pos hg, lv_cred]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own four; the
    barrier and credit cells of the device before it (its signals); the receive cell of the device after it (its
    transfer). -/
def invs (K : Dev nD × Fin 4 → ℕ) (c : Dev nD) : sProp 𝕄 :=
  iprop(cellInv ER (lineRd m ρ) (K (c, 0)) (barCell c) ∗ cellInv ER (lineRd m ρ) (K (c, 1)) (sendCell c)
    ∗ cellInv ER (lineRd m ρ) (K (c, 2)) (recvCell c) ∗ cellInv ER (lineRd m ρ) (K (c, 3)) (credCell c)
    ∗ cellInv ER (lineRd m ρ) (K (prv c, 0)) (barCell (prv c)) ∗ cellInv ER (lineRd m ρ) (K (prv c, 3)) (credCell (prv c))
    ∗ cellInv ER (lineRd m ρ) (K (nxt c, 2)) (recvCell (nxt c)))

instance invs_persistent (K : Dev nD × Fin 4 → ℕ) (c : Dev nD) : BI.Persistent (invs m ρ K c) := by unfold invs; infer_instance

/-- The tokens of the duties device `c` pays: the barrier and credit duties of the device before it (if there is
    one), the receive duty of the device after it and its own send duty (if there is one). -/
def tokBar (c : Dev nD) : sProp 𝕄 := if c.val ≠ 0 then dutyTok ER (barCell (prv c)) 0 () else iprop(emp)
def tokCred (c : Dev nD) : sProp 𝕄 := if c.val ≠ 0 then dutyTok ER (credCell (prv c)) 0 () else iprop(emp)
def tokRecv (c : Dev nD) : sProp 𝕄 := if c.val ≠ 15 then dutyTok ER (recvCell (nxt c)) 0 () else iprop(emp)
def tokSend (c : Dev nD) : sProp 𝕄 := if c.val ≠ 15 then dutyTok ER (sendCell c) 0 () else iprop(emp)
def payToks (c : Dev nD) : sProp 𝕄 := iprop(tokBar (F := F) c ∗ tokCred (F := F) c ∗ tokRecv (F := F) c ∗ tokSend (F := F) c)

/-- The line's ghost state device `c` starts from: the invariants; its positions at round 0 of its four cells; that
    round 0 is reached of the cells it pays and of its own send and receive cells; the tokens it pays with. -/
def ghost (K : Dev nD × Fin 4 → ℕ) (c : Dev nD) : sProp 𝕄 :=
  iprop(invs m ρ K c
    ∗ atPos ER (barCell c) 0 ∅ 0 ∗ atPos ER (sendCell c) 0 ∅ 0 ∗ atPos ER (recvCell c) 0 ∅ 0 ∗ atPos ER (credCell c) 0 ∅ 0
    ∗ reached ER (barCell (prv c)) 0 ∗ reached ER (credCell (prv c)) 0 ∗ reached ER (recvCell (nxt c)) 0
    ∗ reached ER (sendCell c) 0 ∗ reached ER (recvCell c) 0
    ∗ payToks (F := F) c)

/-- The credit tokens device `c` waits with: one barrier unit and one credit unit unless it is the last, the
    transfer's credit on its receive cell unless it is the first. -/
def credBar (c : Dev nD) : sProp 𝕄 := if c.val ≠ 15 then cred (tallyAt (barCell c) () 1) else iprop(emp)
def credRecv (c : Dev nD) : sProp 𝕄 := if c.val ≠ 0 then cred (tallyAt (recvCell c) () N) else iprop(emp)
def credCred (c : Dev nD) : sProp 𝕄 := if c.val ≠ 15 then cred (tallyAt (credCell c) () 1) else iprop(emp)
def creds (c : Dev nD) : sProp 𝕄 := iprop(credBar (F := F) c ∗ credRecv (F := F) c ∗ credCred (F := F) c)

/-- What device `c`'s body starts from: the ghost state at some names, its credit tokens and the level facts. -/
def start (c : Dev nD) : sProp 𝕄 :=
  iprop((∃ K, ghost m ρ K c) ∗ creds (F := F) c ∗ levAts L lv)

/-- Before the point: that, and the two scoped buffers at any contents. -/
def Φ₀ (c : Dev nD) : sProp 𝕄 := iprop(start m ρ c ∗ (∃ f, haloPts c f) ∗ (∃ f, sendPts c f))
/-- After the point: the two scoped buffers at some contents, the three OWN cells at zero, closed (the barrier cell is
    the runtime's: nothing to hand back). -/
def Φ₁ (c : Dev nD) : sProp 𝕄 :=
  iprop((∃ f, haloPts c f) ∗ (∃ f, sendPts c f) ∗ semVal (sendCell c) 0 ∗ semVal (recvCell c) 0 ∗ semVal (credCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

end Cert.KernelIdealProof

end
-- ==== Proof.KernelIdeal.Launch.lean ====
/-
  The launch of the line. The library's launch theorem for TensorCores that owe units at launch, the runtime's barrier
  semaphore among the cells (Lib/Pipeline/Launch.lean, `θ_run_region_owing_glob_pf`), applied to this program over the
  schedule, the levels and the proof data of the two modules before this one; the body obligation is a hypothesis.

  The launch element mints ONE duty token for each of the sixty-four cells (sixteen devices, four cells each) and deals
  them around the RING of sixteen devices: a barrier's and a credit cell's token to the device after its owner (the one
  that signals it), a receive cell's to the device before its owner (the one whose transfer lands on it), a send cell's
  to its owner. The line has no edge between the last device and the first: the four cells that edge would feed (the
  last device's barrier, send and credit cells, the first device's receive cell) have no duty in the schedule, no
  rule can spend their tokens, and the device they are dealt to lets them go before its body starts. The launch
  credit is conditional for the same reason: a cell nobody owes gets no credit token.
-/
import proofs.«900434_g7700000000000435_dist_gconv1d_seqshard_i_b4_s512_c256_v7x_i16_bf16_1_alg».proof.Proof.KernelIdeal.Ledger
import proofs.«900434_g7700000000000435_dist_gconv1d_seqshard_i_b4_s512_c256_v7x_i16_bf16_1_alg».proof.Proof.Gen.KernelIdeal.Points

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def lineCells : Finset (GSem nD τ sig) := Finset.univ.map ⟨kcell, kcell_injective⟩

/-- One token a cell: the one duty its round 0 can have. -/
abbrev tokOf (ck : Dev nD × Fin 4) : GSem nD τ sig × ℕ × Unit := (kcell ck, 0, ())
theorem tokOf_injective : Function.Injective (tokOf : Dev nD × Fin 4 → GSem nD τ sig × ℕ × Unit) :=
  fun _ _ h => kcell_injective (congrArg Prod.fst h)
def lineToks : Finset (GSem nD τ sig × ℕ × Unit) := Finset.univ.map ⟨tokOf, tokOf_injective⟩

def u₀ : UU :=
  (initOf (Pipeline.cells cfgs cellOf_inj) (Pipeline.launchToks cfgs cellOf_inj), initOf lineCells lineToks)

/-- The duty tokens of device c's own four cells. -/
def toks (c : Dev nD) : sProp 𝕄 :=
  iprop(dutyTok ER (barCell c) 0 () ∗ dutyTok ER (sendCell c) 0 () ∗ dutyTok ER (recvCell c) 0 () ∗ dutyTok ER (credCell c) 0 ())

/-- What the launch element deals device c. -/
def G (c : Dev nD) : sProp 𝕄 :=
  iprop((bigSep Finset.univ fun k : Fin 4 => roundState ER (lineRd m ρ) (kcell (c, k)) 0)
    ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_line : BI.own (ER (initOf lineCells lineToks)) ⊢ (|==> bigSep Finset.univ (G m ρ) : sProp 𝕄) := by
  have hX (Φ : GSem nD τ sig → sProp 𝕄) : bigSep lineCells Φ = bigSep Finset.univ fun c : Dev nD => bigSep Finset.univ fun k : Fin 4 => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [bigSep_fin4]; rfl
  iintro HX
  imod (Rounds.fund ER (lineRd m ρ) lineCells lineToks) $$ HX with ⟨Hst, Hr, Hat, Htok⟩
  imodintro
  ihave Hst' := (Entails.of_eq (hX fun g => roundState ER (lineRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send, receive and credit semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (credCell c) 0) := by
  rw [Pipeline.ownSems0_eq_of_list c osem [0, 1, 2] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HS, HV, HC⟩, HB⟩
  isplitl [HB]; · iexact HB
  isplitl [HS]; · iexact HS
  isplitl [HV] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (lineRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (lineRd m ρ) (kcell (c, k)) 0)
      ⊢ (|={Set.univ}=> bigSep Finset.univ fun k => iprop(∃ κ : ℕ, cellInv ER (lineRd m ρ) κ (kcell (c, k))) : sProp 𝕄) from by
        rw [← bigSep_sep']
        exact (bigSep_mono fun k _ => (Rounds.body_intro ER (lineRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (lineRd m ρ) (K ck) (kcell ck))
    ∗ bigSep Finset.univ fun ck : Dev nD × Fin 4 => reached ER (kcell ck) 0)

instance records_persistent (K : Dev nD × Fin 4 → ℕ) : BI.Persistent (records m ρ K) := by unfold records; infer_instance

theorem inv_at (K : Dev nD × Fin 4 → ℕ) (ck : Dev nD × Fin 4) :
    (bigSep Finset.univ fun ck : Dev nD × Fin 4 => (cellInv ER (lineRd m ρ) (K ck) (kcell ck) : sProp 𝕄)) ⊢ cellInv ER (lineRd m ρ) (K ck) (kcell ck) :=
  bigSep_elim (Finset.mem_univ ck)
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device c: its positions, and the tokens dealt to it around the ring of sixteen — its left
    neighbour's barrier and credit tokens, its own send token, its right neighbour's receive token. At the two ends
    of the line the token that came over the edge between the last device and the first is of a cell with no duty. -/
def dealt (c : Dev nD) : sProp 𝕄 :=
  iprop(dutyTok ER (barCell (prv c)) 0 () ∗ dutyTok ER (credCell (prv c)) 0 () ∗ dutyTok ER (recvCell (nxt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0 ∗ atPos ER (credCell c) 0 ∅ 0) ∗ dealt c)

/-- A token kept where its edge exists, let go where it does not. -/
theorem keep_if (p : Prop) [Decidable p] (P : sProp 𝕄) : P ⊢ (if p then P else iprop(emp)) := by
  by_cases h : p
  · exact Entails.of_eq (if_pos h).symm
  · rw [if_neg h]; iintro -; iempintro

theorem ghost_intro (K : Dev nD × Fin 4 → ℕ) (c : Dev nD) : iprop(records m ρ K ∗ linear c) ⊢ G' m ρ c := by
  unfold records linear dealt G' ghost invs payToks tokBar tokCred tokRecv tokSend
  iintro ⟨⟨#HI, #HR⟩, ⟨HaB, HaS, HaV, HaC⟩, HtB, HtC, HtV, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (prv c, 0)); iexact HI
    isplitr; · iapply (inv_at m ρ K (prv c, 3)); iexact HI
    iapply (inv_at m ρ K (nxt c, 2)); iexact HI
  isplitl [HaB]; · iexact HaB
  isplitl [HaS]; · iexact HaS
  isplitl [HaV]; · iexact HaV
  isplitl [HaC]; · iexact HaC
  isplitr; · iapply (reached_at (F := F) (prv c, 0)); iexact HR
  isplitr; · iapply (reached_at (F := F) (prv c, 3)); iexact HR
  isplitr; · iapply (reached_at (F := F) (nxt c, 2)); iexact HR
  isplitr; · iapply (reached_at (F := F) (c, 1)); iexact HR
  isplitr; · iapply (reached_at (F := F) (c, 2)); iexact HR
  isplitl [HtB]; · iapply (keep_if (F := F) _ _); iexact HtB
  isplitl [HtC]; · iapply (keep_if (F := F) _ _); iexact HtC
  isplitl [HtV]; · iapply (keep_if (F := F) _ _); iexact HtV
  iapply (keep_if (F := F) _ _); iexact HtS

def ring : Dev nD ≃ Dev nD := ⟨nxt, prv, prv_nxt, nxt_prv⟩

/-- The tokens dealt around the ring of sixteen: a barrier's and a credit cell's one device up (to the device after
    its owner, whose left neighbour the owner is), a receive cell's one device down; a send cell's stays. -/
theorem toks_around : (bigSep Finset.univ fun c : Dev nD => (toks c : sProp 𝕄)) ⊢ bigSep Finset.univ fun c : Dev nD => dealt c := by
  unfold toks dealt
  rw [bigSep_sep', bigSep_sep', bigSep_sep', bigSep_sep', bigSep_sep', bigSep_sep',
    bigSep_univ_equiv ring.symm (fun c : Dev nD => (dutyTok ER (barCell c) 0 () : sProp 𝕄)),
    bigSep_univ_equiv ring (fun c : Dev nD => (dutyTok ER (recvCell c) 0 () : sProp 𝕄)),
    bigSep_univ_equiv ring.symm (fun c : Dev nD => (dutyTok ER (credCell c) 0 () : sProp 𝕄))]
  iintro ⟨HB, HS, HV, HC⟩
  isplitl [HB]; · iexact HB
  isplitl [HC]; · iexact HC
  isplitl [HV]; · iexact HV
  iexact HS

theorem regroup :
    (bigSep Finset.univ fun c : Dev nD => iprop((bigSep Finset.univ fun k => iprop(∃ κ : ℕ, cellInv ER (lineRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 4 => iprop(∃ κ : ℕ, cellInv ER (lineRd m ρ) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (lineRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) dealt).symm).trans
      (bigSep_mono fun c _ => show _ ⊢ linear c from Entails.of_eq (by unfold linear; rw [bigSep_fin4])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem prv_val_ne (c : Dev nD) : (prv c).val ≠ 15 ↔ c.val ≠ 0 := by revert c; decide
theorem nxt_val_ne (c : Dev nD) : (nxt c).val ≠ 0 ↔ c.val ≠ 15 := by revert c; decide

/-- Every device d of which p holds owing one tally on semaphore sm of device f d, f a bijection of the devices
    with inverse finv: the launch deals device c the matching credit token on its own sm exactly when p holds of the
    device that owes it, finv c, and no token otherwise. -/
theorem launchCred_tallyAt_if (sm : SemLoc sig) (f finv : Dev nD → Dev nD) (h1 : ∀ c, f (finv c) = c) (h2 : ∀ d, finv (f d) = d)
    (p : Dev nD → Prop) [DecidablePred p] (n : ℕ) (c : Dev nD) :
    (Pipeline.launchCred (fun d => if p d then tallyAt (((f d) : Thread nD τ), sm) () n else (0 : CellTallies nD τ sig Unit)) c : sProp 𝕄)
      ⊢ (if p (finv c) then cred (tallyAt ((c : Thread nD τ), sm) () n) else iprop(emp)) := by
  refine (Pipeline.launchCred_elim _ c sm).trans ?_
  rw [Pipeline.tallyOn_launchCredit_owing]
  have key : (∑ d : Dev nD, (if p d then tallyAt (((f d) : Thread nD τ), sm) () n else (0 : CellTallies nD τ sig Unit))) ((c : Thread nD τ), sm)
      = if p (finv c) then Finsupp.single () n else 0 := by
    rw [Finset.sum_apply, Finset.sum_eq_single (finv c)]
    · rw [h1]; split
      · unfold tallyAt tallyOn; rw [Pi.single_eq_same]
      · rfl
    · intro d _ hd; split
      · unfold tallyAt tallyOn
        refine Pi.single_eq_of_ne (fun h => hd ?_) _
        have h3 : c = f d := congrArg (fun g : GSem nD τ sig => g.1.1) h
        rw [h3, h2]
      · rfl
    · intro h; exact absurd (Finset.mem_univ _) h
  rw [key]
  split
  · exact .rfl
  · exact Entails.of_eq (by rw [tallyOn_zero, cred_zero])

/-- The barrier unit the device after c owes it, if there is one; -/
theorem launch_credBar (c : Dev nD) : (Pipeline.launchCred oBar c : sProp 𝕄) ⊢ credBar (F := F) c := by
  unfold credBar
  by_cases h : c.val ≠ 15
  · have hh := launchCred_tallyAt_if (F := F) (.reg barS) prv nxt prv_nxt nxt_prv (fun d => d.val ≠ 0) 1 c
    rw [if_pos ((nxt_val_ne c).mpr h)] at hh
    rw [if_pos h]; exact hh
  · rw [if_neg h]; iintro -; iempintro
/-- the credit unit it owes it; -/
theorem launch_credCred (c : Dev nD) : (Pipeline.launchCred oCred c : sProp 𝕄) ⊢ credCred (F := F) c := by
  unfold credCred
  by_cases h : c.val ≠ 15
  · have hh := launchCred_tallyAt_if (F := F) (.reg credS.sem) prv nxt prv_nxt nxt_prv (fun d => d.val ≠ 0) 1 c
    rw [if_pos ((nxt_val_ne c).mpr h)] at hh
    rw [if_pos h]; exact hh
  · rw [if_neg h]; iintro -; iempintro
/-- the transfer's credit the device before c owes its receive cell, if there is one. -/
theorem launch_credRecv (c : Dev nD) : (Pipeline.launchCred oRecv c : sProp 𝕄) ⊢ credRecv (F := F) c := by
  unfold credRecv
  by_cases h : c.val ≠ 0
  · have hh := launchCred_tallyAt_if (F := F) (.dma recvS.sem) nxt prv nxt_prv prv_nxt (fun d => d.val ≠ 15) N c
    rw [if_pos ((prv_val_ne c).mpr h)] at hh
    rw [if_pos h]; exact hh
  · rw [if_neg h]; iintro -; iempintro

theorem launch_creds (c : Dev nD) : (Pipeline.launchCred O₀ c : sProp 𝕄) ⊢ creds (F := F) c := by
  have hO : (O₀ : Dev nD → CellTallies nD τ sig Unit) = fun d => (fun d => oCred d + oRecv d) d + oBar d := rfl
  rw [hO, Pipeline.launchCred_add (fun d => oCred d + oRecv d) oBar c, Pipeline.launchCred_add oCred oRecv c]
  unfold creds
  iintro ⟨⟨HC, HV⟩, HB⟩
  isplitl [HB]; · iapply (launch_credBar (F := F) c); iexact HB
  isplitl [HV]; · iapply (launch_credRecv (F := F) c); iexact HV
  iapply (launch_credCred (F := F) c); iexact HC

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hh⟩, ⟨%g, Hb⟩⟩
  isplitl [Hs]; · iexact Hs
  isplitl [Hh]
  · iexists f; rw [haloPts_eq]; iexact Hh
  · iexists g; rw [sendPts_eq]; iexact Hb

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hh⟩, ⟨%g, Hb⟩, HzS, HzV, HzC⟩
  isplitr; · iempintro
  isplitl [HzS HzV HzC]
  · isplitl [HzS]; · iexact HzS
    isplitl [HzV] <;> iassumption
  isplitl [Hh]
  · iexists f; rw [← haloPts_eq]; iexact Hh
  · iexists g; rw [← sendPts_eq]; iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Device c's windowed arrays after the run, as the proof data computes them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices in a line, for any float values, from any memory with zero counters, given
    the body obligation on every device: every weakly fair execution of @main terminates, nothing faulting, and every
    final state has each windowed array of each device at the contents the proof data computes. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_line m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main_of' depends on axioms: [propext, Classical.choice, Quot.sound] -/
#guard_msgs in #print axioms run_main_of

/-! ### The final arrays -/

/-- The two argument arrays end as launched: an input window's array is never written back. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_k (c : Dev nD) : finalA m ρ c (1 : Fin 3) = (s₀ m ρ).mem (win0_1.arr.view.loc (c : Thread nD τ)) :=
  (dats (F := F) m ρ 0 c).arrAt_in (1 : Fin 3) rfl _

/-- The result array ends with its one block, all of it, written over by what the body left in the result's staging
    buffer: the one point writes the block back. -/
theorem finalA_out (c : Dev nD) :
    finalA m ρ c (2 : Fin 3)
      = (win0_2.blk t₀).view.write (Elt F) ((s₀ m ρ).mem (win0_2.arr.view.loc (c : Thread nD τ))) (outAt m ρ c) Finset.univ := by
  unfold finalA
  have h := (dats (F := F) m ρ 0 c).arrAt_succ (2 : Fin 3) t₀
  rw [if_pos (flush0_2 t₀)] at h
  exact h

/-- Read back through the block, the result array holds the result block. -/
theorem read_finalA_out (c : Dev nD) : (win0_2.blk t₀).view.read (Elt F) (finalA m ρ c (2 : Fin 3)) = outAt m ρ c := by
  rw [finalA_out, View.read_write_univ]

/-- A whole result array read through its one block is the array. -/
theorem read_blk_out (c : Dev nD) (f : Buf (Elt F) ((c : Thread nD τ).loc main_v1)) :
    (win0_2.blk t₀).view.read (Elt F) f = f :=
  Memref.read_access_unit_zero (Elt F) main_v1 (off := fun a => win0_2.index t₀ a * win0_2.size a)
    (funext fun a => Nat.zero_mul _) _ f

/-- The result array ends holding the result block. -/
theorem finalA_out_eq (c : Dev nD) : finalA m ρ c (2 : Fin 3) = outAt m ρ c :=
  (read_blk_out c _).symm.trans (read_finalA_out m ρ c)

/-! ### What the claims read off the run -/

/-- THE FRAME: the run's post read at the two argument arrays, in the frame claim's shape. -/
theorem frame_post_of (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (finalA_x m ρ c), (h c 1).trans (finalA_k m ρ c)⟩) (run_main_of m ρ hbody)

/-- THE VALUE: every device's result array ends holding its result block, and its argument arrays unchanged. -/
theorem value_post_of (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 2).trans (finalA_out_eq m ρ c), (h c 0).trans (finalA_x m ρ c), (h c 1).trans (finalA_k m ρ c)⟩)
    (run_main_of m ρ hbody)

/-- info: 'Cert.KernelIdealProof.value_post_of' depends on axioms: [propext, Classical.choice, Quot.sound] -/
#guard_msgs in #print axioms value_post_of

end Cert.KernelIdealProof

end
-- ==== Proof.RefFrame.lean ====
/-
  The one-device program runs and leaves its argument arrays as they were: its generated run, which also names the
  result, with the result dropped.
-/
import proofs.«900434_g7700000000000435_dist_gconv1d_seqshard_i_b4_s512_c256_v7x_i16_bf16_1_alg».proof.Defs
import proofs.«900434_g7700000000000435_dist_gconv1d_seqshard_i_b4_s512_c256_v7x_i16_bf16_1_alg».proof.Proof.Gen.ReferenceIdeal.Run
import proofs.«900434_g7700000000000435_dist_gconv1d_seqshard_i_b4_s512_c256_v7x_i16_bf16_1_alg».proof.Proof.Gen.Pre_finite_inputs_ReferenceIdeal

noncomputable section

namespace Cert.Conv

open Idealize.ShloMosaic Idealize.SL.Sem

/-- The one-device program terminates without fault on every memory and its two arguments end unchanged. -/
theorem frame_ri : Cert.frame_ReferenceIdeal := fun m ρ _ =>
  (θ_run Cert.ReferenceIdeal.defs _ _).mono (fun _ h c => (h c).2) (Cert.ReferenceIdeal.Value.run (F := Ideal) m ρ)

/-- info: 'Cert.Conv.frame_ri' depends on axioms: [propext, Classical.choice, Quot.sound] -/
#guard_msgs in #print axioms frame_ri

end Cert.Conv

end
-- ==== Proof.Assembly.lean ====
/-
  The claims assembled. Each printed program's frame is the launch's run read at the two argument arrays
  (the frame needs nothing of the precondition); the one-device program's frame is its generated run with the result dropped;
  nothing was rewritten between the word-level program and its idealization, so `preserves` is trivial; the value claim
  is handed in. The two body obligations, one per instance, and the value claim are hypotheses here.
-/
import proofs.«900434_g7700000000000435_dist_gconv1d_seqshard_i_b4_s512_c256_v7x_i16_bf16_1_alg».proof.Defs
import proofs.«900434_g7700000000000435_dist_gconv1d_seqshard_i_b4_s512_c256_v7x_i16_bf16_1_alg».proof.Proof.Kernel.Launch
import proofs.«900434_g7700000000000435_dist_gconv1d_seqshard_i_b4_s512_c256_v7x_i16_bf16_1_alg».proof.Proof.KernelIdeal.Launch
import proofs.«900434_g7700000000000435_dist_gconv1d_seqshard_i_b4_s512_c256_v7x_i16_bf16_1_alg».proof.Proof.RefFrame
import proofs.«900434_g7700000000000435_dist_gconv1d_seqshard_i_b4_s512_c256_v7x_i16_bf16_1_alg».proof.Proof.Gen.Pre_finite_inputs_Kernel
import proofs.«900434_g7700000000000435_dist_gconv1d_seqshard_i_b4_s512_c256_v7x_i16_bf16_1_alg».proof.Proof.Gen.Pre_finite_inputs_ReferenceIdeal

noncomputable section

namespace Cert.Proof

open Idealize.ShloMosaic Idealize.SL.Sem
open Idealize.ShloMosaic.Pipeline (BodyObligation)

/-- The five claims from the two body obligations and the value claim. -/
theorem claims_of
    (hbK : ∀ (m : (ℓ : Loc Cert.Kernel.nD Cert.Kernel.τ Cert.Kernel.sig) → Buf (Elt Bits) ℓ) (ρ : Dev Cert.Kernel.nD → PrngReg) (c : Dev Cert.Kernel.nD),
      BodyObligation (Cert.KernelProof.dats (F := Bits) m ρ 0 c) (Cert.Kernel.defs₀ (F := Bits)) Cert.KernelProof.𝒱₀ () Set.univ)
    (hbI : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      BodyObligation (Cert.KernelIdealProof.dats (F := Ideal) m ρ 0 c) (Cert.KernelIdeal.defs₀ (F := Ideal)) Cert.KernelIdealProof.𝒱₀ () Set.univ)
    (halg : Cert.algebraic_KernelIdeal_ReferenceIdeal) :
    Cert.frame_Kernel ∧ Cert.frame_KernelIdeal ∧ Cert.frame_ReferenceIdeal ∧ Cert.preserves_Kernel_KernelIdeal ∧ Cert.algebraic_KernelIdeal_ReferenceIdeal :=
  ⟨fun m g _ => Cert.KernelProof.frame_post_of m g (hbK m g),
   fun m g _ => Cert.KernelIdealProof.frame_post_of m g (hbI m g),
   Cert.Conv.frame_ri, trivial, halg⟩

/-- The certificate's claim, under the witnesses of the programs' stated facts. -/
theorem claim_of
    (hbK : ∀ (m : (ℓ : Loc Cert.Kernel.nD Cert.Kernel.τ Cert.Kernel.sig) → Buf (Elt Bits) ℓ) (ρ : Dev Cert.Kernel.nD → PrngReg) (c : Dev Cert.Kernel.nD),
      BodyObligation (Cert.KernelProof.dats (F := Bits) m ρ 0 c) (Cert.Kernel.defs₀ (F := Bits)) Cert.KernelProof.𝒱₀ () Set.univ)
    (hbI : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      BodyObligation (Cert.KernelIdealProof.dats (F := Ideal) m ρ 0 c) (Cert.KernelIdeal.defs₀ (F := Ideal)) Cert.KernelIdealProof.𝒱₀ () Set.univ)
    (halg : Cert.algebraic_KernelIdeal_ReferenceIdeal) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, claims_of hbK hbI halg⟩

/-- info: 'Cert.Proof.claim_of' depends on axioms: [propext, Classical.choice, Quot.sound] -/
#guard_msgs in #print axioms claim_of

end Cert.Proof

end
-- ==== Proof.Kernel.StoreLayout.lean ====
/-
  What the body's loads read and what its stores leave, index by index, for any float values.

  LOADS. A load through the rectangle of a whole buffer's own sizes at zero offsets reads the buffer itself. The rows a
  device sends up the line are rows 504 … 511 of its block: row `j` of what it sends is row `504 + j` of the block. The
  three halo rows the body convolves are rows 5 … 7 of the halo buffer: row `j` of them is row `5 + j` of the buffer.
  The first device's halo is filled with the zero pattern everywhere.

  STORES. The result block is a bf16 buffer whose rows are packed in pairs, so a store of rows that does not start and
  end on a pair boundary reads the enclosing rectangle of whole pairs, replaces the stored rows inside it and writes
  the rectangle back. The body stores its main part (509 rows, meant for rows 3 … 511) through the rectangle of rows
  2 … 511 at row offset 1 inside it, and then its halo part (3 rows, meant for rows 0 … 2) through the rectangle of rows
  0 … 3 at row offset 0. Row 2 is rewritten by the first store with what the buffer held, and then overwritten by the
  second; row 3 is rewritten by the second store with what the first left there. So whatever the buffer held first,
  afterwards row `r` holds the halo part's row `r` for `r < 3` and the main part's row `r - 3` otherwise.

  A write of every element through a unit-stride rectangle of a whole buffer is `updateSlice` at the rectangle's
  offsets, a load through such a rectangle reads the buffer at the offsets plus the index, and `updateSlice` at an
  index is decided by whether the row lies in the updated rows.
-/
import proofs.«900434_g7700000000000435_dist_gconv1d_seqshard_i_b4_s512_c256_v7x_i16_bf16_1_alg».proof.Proof.Kernel.Contents
import Idealize.ShloMosaic.Lib.Pipeline.Value
import Idealize.ShloMosaic.Lib.ValueIdx

noncomputable section

namespace Cert.KernelProof

open Idealize.ShloMosaic Idealize.ShloMosaic.ValueIdx Cert.Kernel Cert.Kernel.Gen

/-! ## Loads -/

/-- The three zero offsets, as the constant-zero function. -/
theorem zeros3 : (![0, 0, 0] : Fin 3 → Nat) = fun _ => 0 := by
  funext a
  match a with
  | ⟨0, _⟩ => rfl
  | ⟨1, _⟩ => rfl
  | ⟨2, _⟩ => rfl

/-- The two zero offsets, as the constant-zero function. -/
theorem zeros2 : (![0, 0] : Fin 2 → Nat) = fun _ => 0 := by
  funext a
  match a with
  | ⟨0, _⟩ => rfl
  | ⟨1, _⟩ => rfl

/-- The whole-block load of the input block reads the block. -/
theorem read_x {F : FTy → Type} [FloatOps F] (x : (cc0_stg0_0 : Ref sig .tc).ty.Contents (Elt F)) :
    (xM : Memref sig .tc .vmem S4x512x256 .f32).view.readAt (Elt F) rX.toLoadRect x = x :=
  Memref.readAt_unit_zero (Elt F) (cc0_stg0_0 : Ref sig .tc) zeros3 inb_S4x512x256_S4x512x256_0_0_0 x

/-- The whole-array load of the taps reads the taps. -/
theorem read_k {F : FTy → Type} [FloatOps F] (k : (cc0_stg1_0 : Ref sig .tc).ty.Contents (Elt F)) :
    (kM : Memref sig .tc .vmem S4x256 .f32).view.readAt (Elt F) rK.toLoadRect k = k :=
  Memref.readAt_unit_zero (Elt F) (cc0_stg1_0 : Ref sig .tc) zeros2 inb_S4x256_S4x256_0_0 k

/-- So the main part is the main payload of the block and the taps themselves, -/
theorem mainPart_eq {F : FTy → Type} [FloatOps F] (x : (cc0_stg0_0 : Ref sig .tc).ty.Contents (Elt F))
    (k : (cc0_stg1_0 : Ref sig .tc).ty.Contents (Elt F)) :
    mainPart (F := F) x k = k0_pay8 (k0_pay6 x k) (k0_pay7 x k) := by
  unfold mainPart
  rw [read_x, read_k]

/-- and the halo part the halo payload of them and of the halo buffer's last three rows. -/
theorem haloPart_eq {F : FTy → Type} [FloatOps F] (x : (cc0_stg0_0 : Ref sig .tc).ty.Contents (Elt F))
    (k : (cc0_stg1_0 : Ref sig .tc).ty.Contents (Elt F)) (h : (cc0_scratch0 : Ref sig .tc).ty.Contents (Elt F)) :
    haloPart (F := F) x k h = k0_pay9 (k0_pay4 x) (k0_pay5 k) (haloRows h) := by
  unfold haloPart
  rw [read_x, read_k]

/-- Row `j` of what a device sends is row `504 + j` of its block. -/
theorem tailOf_apply {F : FTy → Type} [FloatOps F] (x : (cc0_stg0_0 : Ref sig .tc).ty.Contents (Elt F))
    (b : Fin 4) (j : Fin 8) (ch : Fin 256) :
    tailOf (F := F) x (ix3 b j ch) = x (ix3 b ⟨504 + j.val, by omega⟩ ch) := by
  unfold tailOf k0_pay2 k0_pay1
  rw [shapeCast_self, shapeCast_self]
  show x _ = x _
  refine congrArg x (funext fun a => Fin.ext ?_)
  match a with
  | ⟨0, _⟩ => show 0 + 1 * b.val = b.val; omega
  | ⟨1, _⟩ => show 504 + 1 * j.val = 504 + j.val; omega
  | ⟨2, _⟩ => show 0 + 1 * ch.val = ch.val; omega

/-- Row `j` of the three halo rows is row `5 + j` of the halo buffer. -/
theorem haloRows_apply {F : FTy → Type} [FloatOps F] (h : (cc0_scratch0 : Ref sig .tc).ty.Contents (Elt F))
    (b : Fin 4) (j : Fin 3) (ch : Fin 256) :
    haloRows (F := F) h (ix3 b j ch) = h (ix3 b ⟨5 + j.val, by omega⟩ ch) := by
  unfold haloRows
  show h _ = h _
  refine congrArg h (funext fun a => Fin.ext ?_)
  match a with
  | ⟨0, _⟩ => show 0 + 1 * b.val = b.val; omega
  | ⟨1, _⟩ => show 5 + 1 * j.val = 5 + j.val; omega
  | ⟨2, _⟩ => show 0 + 1 * ch.val = ch.val; omega

/-- The first device's halo is the zero pattern at every index. -/
theorem zeroHalo_apply {F : FTy → Type} [FloatOps F] (b : Fin 4) (j : Fin 8) (ch : Fin 256) :
    zeroHalo (F := F) (ix3 b j ch) = Scalar.ofBits .f32 0x00000000#32 := by
  unfold zeroHalo k0_pay3
  rw [shapeCast_self]
  rfl

/-! ## Stores -/

/-- Two indices with the same coordinates are the same index (the row given by two spellings of one number). -/
theorem ix3_row_congr {n0 n1 n2 : Nat} (b : Fin n0) (r r' : Fin n1) (ch : Fin n2) (h : r.val = r'.val) :
    ix3 b r ch = ix3 b r' ch := by
  rw [Fin.ext h]

/-- `updateSlice` along the rows, at a row inside the updated rows: the update, at the row less the offset. -/
theorem updateSlice_rows_in {α : Type} {N n : Nat} (x : (⟨3, ![4, N, 256]⟩ : Shape).Idx → α)
    (upd : (⟨3, ![4, n, 256]⟩ : Shape).Idx → α) (o : Nat)
    (h : (⟨3, ![4, N, 256]⟩ : Shape).Slices ![0, o, 0] ⟨3, ![4, n, 256]⟩) (b : Fin 4) (r : Fin N) (ch : Fin 256)
    (h1 : o ≤ r.val) (h2 : r.val < o + n) :
    updateSlice x upd ![0, o, 0] h (ix3 b r ch) = upd (ix3 b ⟨r.val - o, by omega⟩ ch) := by
  unfold updateSlice
  split
  · next hin =>
    refine congrArg upd (funext fun a => ?_)
    match a with
    | ⟨0, _⟩ => rfl
    | ⟨1, _⟩ => rfl
    | ⟨2, _⟩ => rfl
  · next hout =>
    refine absurd (fun a => ?_) hout
    match a with
    | ⟨0, _⟩ => exact ⟨Nat.zero_le _, by show b.val < 0 + 4; omega⟩
    | ⟨1, _⟩ => exact ⟨h1, h2⟩
    | ⟨2, _⟩ => exact ⟨Nat.zero_le _, by show ch.val < 0 + 256; omega⟩

/-- `updateSlice` along the rows, at a row outside the updated rows: the operand. -/
theorem updateSlice_rows_out {α : Type} {N n : Nat} (x : (⟨3, ![4, N, 256]⟩ : Shape).Idx → α)
    (upd : (⟨3, ![4, n, 256]⟩ : Shape).Idx → α) (o : Nat)
    (h : (⟨3, ![4, N, 256]⟩ : Shape).Slices ![0, o, 0] ⟨3, ![4, n, 256]⟩) (b : Fin 4) (r : Fin N) (ch : Fin 256)
    (h1 : r.val < o ∨ o + n ≤ r.val) :
    updateSlice x upd ![0, o, 0] h (ix3 b r ch) = x (ix3 b r ch) := by
  unfold updateSlice
  split
  · next hin =>
    have h0 := hin ⟨1, by show 1 < 3; omega⟩
    have h3 : o ≤ r.val ∧ r.val < o + n := h0
    omega
  · rfl

/-- One read-modify-write store of rows `o … o + n - 1` of the result block is `updateSlice` at row `o` of the
    rewritten rectangle. -/
theorem rewriteRows_eq {F : FTy → Type} [FloatOps F] (o : Nat) (n : Nat)
    (inb : ∀ a, (![0, o, 0] : Fin 3 → Nat) a + (![4, n, 256] : Fin 3 → Nat) a ≤ S4x512x256.size a)
    (w : ((Rect.unit (s := S4x512x256) ![0, o, 0] ![4, n, 256] inb).shape.Idx → Elt F .bf16)
      → ((Rect.unit (s := S4x512x256) ![0, o, 0] ![4, n, 256] inb).shape.Idx → Elt F .bf16))
    (f : (cc0_stg2_0 : Ref sig .tc).ty.Contents (Elt F)) :
    rewriteRows (F := F) (Rect.unit (s := S4x512x256) ![0, o, 0] ![4, n, 256] inb) w f
      = updateSlice f (w ((oM : Memref sig .tc .vmem S4x512x256 .bf16).view.readAt (Elt F)
          (Rect.unit (s := S4x512x256) ![0, o, 0] ![4, n, 256] inb).toLoadRect f)) ![0, o, 0] ⟨rfl, inb⟩ := by
  unfold rewriteRows
  exact View.write_whole_slice_unit (cc0_stg2_0 : Ref sig .tc) ![0, o, 0] ![4, n, 256] inb f _

/-- A load of rows `o … o + n - 1` of the result block reads, at `(b, j, ch)`, the block at `(b, o + j, ch)`. -/
theorem readAt_out_rows {F : FTy → Type} [FloatOps F] (o : Nat) (n : Nat)
    (inb : ∀ a, (![0, o, 0] : Fin 3 → Nat) a + (![4, n, 256] : Fin 3 → Nat) a ≤ S4x512x256.size a)
    (f : (cc0_stg2_0 : Ref sig .tc).ty.Contents (Elt F)) (b : Fin 4) (j : Fin n) (ch : Fin 256) (hj : o + j.val < 512) :
    (oM : Memref sig .tc .vmem S4x512x256 .bf16).view.readAt (Elt F)
        (Rect.unit (s := S4x512x256) ![0, o, 0] ![4, n, 256] inb).toLoadRect f (ix3 b j ch)
      = f (ix3 b ⟨o + j.val, hj⟩ ch) := by
  show f _ = f _
  refine congrArg f (funext fun a => Fin.ext ?_)
  match a with
  | ⟨0, _⟩ => show 0 + 1 * b.val = b.val; omega
  | ⟨1, _⟩ => show o + 1 * j.val = o + j.val; omega
  | ⟨2, _⟩ => show 0 + 1 * ch.val = ch.val; omega

/-- After the FIRST store (the main part, through rows 2 … 511 at row offset 1): a row from 3 on holds the main part's
    row three less, whatever the buffer held. -/
theorem mainStore_apply {F : FTy → Type} [FloatOps F] (f : (cc0_stg2_0 : Ref sig .tc).ty.Contents (Elt F))
    (p8 : FVec F S4x509x256 .bf16) (b : Fin 4) (r : Fin 512) (ch : Fin 256) (hr : 3 ≤ r.val) :
    rewriteRows (F := F) rO2 (fun old => updateSlice old p8 ![0, 1, 0] slices_S4x510x256_S4x509x256_0_1_0) f (ix3 b r ch)
      = p8 (ix3 b ⟨r.val - 3, by omega⟩ ch) := by
  refine (congrFun (rewriteRows_eq (F := F) 2 510 inb_S4x512x256_S4x510x256_0_2_0 _ f) _).trans ?_
  refine (updateSlice_rows_in (N := 512) (n := 510) f _ 2 _ b r ch (by omega) (by omega)).trans ?_
  refine (updateSlice_rows_in (N := 510) (n := 509) _ p8 1 slices_S4x510x256_S4x509x256_0_1_0 b ⟨r.val - 2, by omega⟩ ch
    (by show 1 ≤ r.val - 2; omega) (by show r.val - 2 < 1 + 509; omega)).trans ?_
  exact congrArg p8 (ix3_row_congr b _ _ ch (by show r.val - 2 - 1 = r.val - 3; omega))

/-- THE RESULT BLOCK AFTER BOTH STORES, at `(b, r, ch)`: the halo part's row `r` below three, else the main part's row
    `r - 3` — for every first contents `f` of the buffer. -/
theorem outOf_apply {F : FTy → Type} [FloatOps F] (f : (cc0_stg2_0 : Ref sig .tc).ty.Contents (Elt F))
    (p8 : FVec F S4x509x256 .bf16) (p9 : FVec F S4x3x256 .bf16) (b : Fin 4) (r : Fin 512) (ch : Fin 256) :
    outOf (F := F) f p8 p9 (ix3 b r ch)
      = if hr : r.val < 3 then p9 (ix3 b ⟨r.val, hr⟩ ch) else p8 (ix3 b ⟨r.val - 3, by omega⟩ ch) := by
  unfold outOf
  refine (congrFun (rewriteRows_eq (F := F) 0 4 inb_S4x512x256_S4x4x256_0_0_0 _ _) _).trans ?_
  by_cases hr : r.val < 3
  · rw [dif_pos hr]
    refine (updateSlice_rows_in (N := 512) (n := 4) _ _ 0 _ b r ch (by omega) (by omega)).trans ?_
    refine (updateSlice_rows_in (N := 4) (n := 3) _ p9 0 slices_S4x4x256_S4x3x256_0_0_0 b ⟨r.val - 0, by omega⟩ ch
      (by omega) (by show r.val - 0 < 0 + 3; omega)).trans ?_
    exact congrArg p9 (ix3_row_congr b _ _ ch (by show r.val - 0 - 0 = r.val; omega))
  · rw [dif_neg hr]
    by_cases h3 : r.val = 3
    · refine (updateSlice_rows_in (N := 512) (n := 4) _ _ 0 _ b r ch (by omega) (by omega)).trans ?_
      refine (updateSlice_rows_out (N := 4) (n := 3) _ p9 0 slices_S4x4x256_S4x3x256_0_0_0 b ⟨r.val - 0, by omega⟩ ch
        (Or.inr (by show 0 + 3 ≤ r.val - 0; omega))).trans ?_
      refine (readAt_out_rows (F := F) 0 4 inb_S4x512x256_S4x4x256_0_0_0 _ b ⟨r.val - 0, by omega⟩ ch
        (by show 0 + (r.val - 0) < 512; omega)).trans ?_
      refine (mainStore_apply f p8 b ⟨0 + (r.val - 0), by omega⟩ ch (by show 3 ≤ 0 + (r.val - 0); omega)).trans ?_
      exact congrArg p8 (ix3_row_congr b _ _ ch (by show 0 + (r.val - 0) - 3 = r.val - 3; omega))
    · refine (updateSlice_rows_out (N := 512) (n := 4) _ _ 0 _ b r ch (Or.inr (by omega))).trans ?_
      exact mainStore_apply f p8 b r ch (by omega)

/-- So the result block does not depend on what the buffer held first. -/
theorem outOf_congr {F : FTy → Type} [FloatOps F] (f f' : (cc0_stg2_0 : Ref sig .tc).ty.Contents (Elt F))
    (p8 : FVec F S4x509x256 .bf16) (p9 : FVec F S4x3x256 .bf16) :
    outOf (F := F) f p8 p9 = outOf (F := F) f' p8 p9 := by
  funext i
  obtain ⟨b, r, ch, rfl⟩ : ∃ (b : Fin 4) (r : Fin 512) (ch : Fin 256), i = ix3 b r ch := ⟨i 0, i 1, i 2, eq_ix3 i⟩
  rw [outOf_apply, outOf_apply]

/-- info: 'Cert.KernelProof.outOf_apply' depends on axioms: [propext, Classical.choice, Quot.sound] -/
#guard_msgs in #print axioms outOf_apply
/-- info: 'Cert.KernelProof.tailOf_apply' depends on axioms: [propext, Classical.choice, Quot.sound] -/
#guard_msgs in #print axioms tailOf_apply

end Cert.KernelProof

end
-- ==== Proof.Kernel.BodyBase.lean ====
/-
  One device's body, the common part. The schedule's tables are restated here the way the symbolic run reads them:
  the table entry on the left and the neighbour already resolved (the barrier duty a device pays is that of the
  device before it, whose payload is the payer's OWN halo buffer; the receive duty it pays is that of the device
  after it, whose payload is that halo holding what the payer sent). Then what the body starts from and ends with at
  the one grid point — the line's ghost state, the credit tokens, the level facts, the two scoped buffers and the
  three staging buffers before; the scoped buffers, the three own cells closed at zero and the staging buffers
  after, the result block holding rows 0 … 2 from the halo and rows 3 … 511 from the block — and three small
  restatements: the send buffer after its store holds the block's last eight rows; a buffer at contents equal to a
  named value is the buffer at that value.
-/
import proofs.«900434_g7700000000000435_dist_gconv1d_seqshard_i_b4_s512_c256_v7x_i16_bf16_1_alg».proof.Proof.Kernel.Ledger
import proofs.«900434_g7700000000000435_dist_gconv1d_seqshard_i_b4_s512_c256_v7x_i16_bf16_1_alg».proof.Proof.Kernel.StoreLayout
import proofs.«900434_g7700000000000435_dist_gconv1d_seqshard_i_b4_s512_c256_v7x_i16_bf16_1_alg».proof.Proof.Gen.Kernel.Skeleton
import proofs.«900434_g7700000000000435_dist_gconv1d_seqshard_i_b4_s512_c256_v7x_i16_bf16_1_alg».proof.Proof.Gen.Kernel.Points

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tables, with the entry on the left and the neighbour resolved -/

section Tables
variable (c : Dev nD)

omit [FloatOps F] in
theorem dutiesT_bar (h : c.val ≠ 15) : (lineRd (F := F) m ρ).duties (barCell c) 0 = {()} := duties_active m ρ (active_bar c h)
omit [FloatOps F] in
theorem dutiesT_send (h : c.val ≠ 15) : (lineRd (F := F) m ρ).duties (sendCell c) 0 = {()} := duties_active m ρ (active_send c h)
omit [FloatOps F] in
theorem dutiesT_recv (h : c.val ≠ 0) : (lineRd (F := F) m ρ).duties (recvCell c) 0 = {()} := duties_active m ρ (active_recv c h)
omit [FloatOps F] in
theorem dutiesT_cred (h : c.val ≠ 15) : (lineRd (F := F) m ρ).duties (credCell c) 0 = {()} := duties_active m ρ (active_cred c h)

omit [FloatOps F] in
theorem payT_bar : (lineRd (F := F) m ρ).payload (barCell c) 0 () =
    iprop((∃ f, haloPts (F := F) (nxt c) f) ∗ reached ER (recvCell (nxt c)) 0) := by
  rw [payload_bar]; rfl
omit [FloatOps F] in
theorem payT_bar_prv : (lineRd (F := F) m ρ).payload (barCell (prv c)) 0 () =
    iprop((∃ f, haloPts (F := F) c f) ∗ reached ER (recvCell c) 0) := by
  have key : ∀ d : Dev nD, d = c → (iprop((∃ f, haloPts d f) ∗ reached ER (recvCell d) 0) : sProp 𝕄)
      = iprop((∃ f, haloPts (F := F) c f) ∗ reached ER (recvCell c) 0) := by
    intro d hd; subst hd; rfl
  rw [payload_bar]; exact key _ (nxt_prv c)
omit [FloatOps F] in
theorem payT_recv : (lineRd (F := F) m ρ).payload (recvCell c) 0 () =
    haloPts (F := F) c (sent m ρ (prv c)) := by
  rw [payload_recv]; rfl
omit [FloatOps F] in
theorem payT_recv_nxt : (lineRd (F := F) m ρ).payload (recvCell (nxt c)) 0 () =
    haloPts (F := F) (nxt c) (sent m ρ c) := by
  rw [payload_recv]; unfold recvPay; rw [prv_nxt]
omit [FloatOps F] in
theorem payT_send : (lineRd (F := F) m ρ).payload (sendCell c) 0 () =
    sendPts (F := F) c (sent m ρ c) := by
  rw [payload_send]; rfl

theorem O₀_mid (h0 : c.val ≠ 0) (h15 : c.val ≠ 15) :
    O₀ c = tallyAt (credCell (prv c)) () 1 + tallyAt (recvCell (nxt c)) () N + tallyAt (barCell (prv c)) () 1 := by
  unfold O₀ O₁ oCred oRecv oBar; rw [if_pos h0, if_pos h15, if_pos h0]

end Tables

section Body
variable (K : Dev nD × Fin 4 → ℕ)

abbrev stg (c : Dev nD) (b : Ref sig .tc) (X : b.ty.Contents (Elt F)) : sProp 𝕄 :=
  iprop(∃ f : Buf (Elt F) ((Memref.whole b : Memref sig .tc _ _ _).view.loc (c : Thread nD τ)), ⌜f = X⌝
    ∗ ((Memref.whole b : Memref sig .tc _ _ _).view.loc (c : Thread nD τ) ↦[(Memref.whole b : Memref sig .tc _ _ _).view.set]{fullShare} f))

def bodyPre (c : Dev nD) : sProp 𝕄 :=
  iprop((ghost m ρ K c ∗ creds (F := F) c ∗ levAts L lv ∗ (∃ f, haloPts c f) ∗ (∃ f, sendPts c f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (kstg m ρ c)
    ∗ stg c cc0_stg2_0 (outAt m ρ c))

/-- The send buffer at contents equal to what the device sends, restated at that name: the form the transfer's
    departure and arrival payloads are stated in. -/
theorem send_restate (c : Dev nD) (f : Buf (Elt F) ((bM : Memref sig .tc .vmem S4x8x256 .f32).view.loc (c : Thread nD τ)))
    (hf : f = sent m ρ c) :
    ((bM : Memref sig .tc .vmem S4x8x256 .f32).view.loc (c : Thread nD τ) ↦[(bM : Memref sig .tc .vmem S4x8x256 .f32).view.set]{fullShare} f : sProp 𝕄)
      ⊢ ((bM : Memref sig .tc .vmem S4x8x256 .f32).view.loc (c : Thread nD τ) ↦[(bM : Memref sig .tc .vmem S4x8x256 .f32).view.set]{fullShare} sent m ρ c) := by
  subst hf; exact BI.Entails.refl _

/-- The result buffer at contents equal to the kernel's result block is the obligation's post for the output window. -/
theorem stg_out_of (c : Dev nD) (f : Buf (Elt F) ((oM : Memref sig .tc .vmem S4x512x256 .bf16).view.loc (c : Thread nD τ)))
    (hf : f = outAt m ρ c) :
    ((oM : Memref sig .tc .vmem S4x512x256 .bf16).view.loc (c : Thread nD τ) ↦[(oM : Memref sig .tc .vmem S4x512x256 .bf16).view.set]{fullShare} f : sProp 𝕄)
      ⊢ stg c cc0_stg2_0 (outAt m ρ c) := by
  subst hf
  iintro H
  iexists _; isplitr; · (ipureintro; rfl)
  iexact H

theorem halo_of_ne (c : Dev nD) (h0 : c.val ≠ 0) : halo m ρ c = sent m ρ (prv c) := if_neg h0

omit [FloatOps F] in
/-- One store of a whole 4×8×256 value into the send buffer leaves that value, whatever the buffer held. -/
theorem send_writes (c : Dev nD) (f : Buf (Elt F) ((bM : Memref sig .tc .vmem S4x8x256 .f32).view.loc (c : Thread nD τ)))
    (w : rB.shape.Idx → Elt F .f32) :
    (bM : Memref sig .tc .vmem S4x8x256 .f32).view.writes (Elt F) f [⟨rB, w⟩] = w := by
  rw [View.writes_singleton]; exact Memref.write_access_unit_zero_univ (Elt F) cc0_scratch1 zeros3 _ f w

omit [FloatOps F] in
/-- The same for the halo buffer (the first device's zero fill). -/
theorem halo_writes (c : Dev nD) (f : Buf (Elt F) ((hM : Memref sig .tc .vmem S4x8x256 .f32).view.loc (c : Thread nD τ)))
    (w : rB.shape.Idx → Elt F .f32) :
    (hM : Memref sig .tc .vmem S4x8x256 .f32).view.writes (Elt F) f [⟨rB, w⟩] = w := by
  rw [View.writes_singleton]; exact Memref.write_access_unit_zero_univ (Elt F) cc0_scratch0 zeros3 _ f w

omit [FloatOps F] in
/-- A whole staging buffer owned at contents `X` is the buffer at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  simp only [show ∀ f : Buf (Elt F) ((Memref.whole b : Memref sig .tc _ _ _).view.loc (c : Thread nD τ)),
    (Memref.whole b : Memref sig .tc _ _ _).view.read (Elt F) f = f from fun f => View.read_whole _ _]

end Body

end Cert.KernelProof

end
-- ==== Proof.Kernel.BodyFirst.lean ====
/-
  The body on the first device of the line. It has no device before it: it signals nobody at entry, nobody copies into
  its halo, and it grants no credit. It stores the block's last eight rows in its send buffer; waits on its own
  barrier — the device after it is inside the kernel and has handed over its halo — and copies the send buffer into
  that halo; fills its own halo with zeros, the three zero rows that precede the whole sequence; computes rows
  3 … 511; computes rows 0 … 2 from the zero halo's last three rows and the block's first three; waits for its own
  copy to have left and for the credit of the device after it. Its receive cell never had a duty and is closed at
  round 0; its send and credit cells are at round 1, past their one duty, and are closed.
-/
import proofs.«900434_g7700000000000435_dist_gconv1d_seqshard_i_b4_s512_c256_v7x_i16_bf16_1_alg».proof.Proof.Kernel.BodyBase

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] dutiesT_bar dutiesT_send dutiesT_recv dutiesT_cred amount_bar amount_cred amount_send amount_recv
  payT_bar payT_recv payT_send payload_cred expect_bar expect_cred expect_send expect_recv haloPts sendPts
attribute [local sl_rounds high] payT_bar_prv payT_recv_nxt

/-- The first device owes, at launch, only the transfer's credit on the receive cell of the device after it. -/
theorem O₀_first (c : Dev nD) (h0 : c.val = 0) : O₀ c = tallyAt (recvCell (nxt c)) () N := by
  have h15 : c.val ≠ 15 := by omega
  unfold O₀ O₁ oCred oRecv oBar
  rw [if_neg (not_not.mpr h0), if_pos h15, if_neg (not_not.mpr h0), zero_add, add_zero]

/-- The halo rows read back after the zero fill are the zero halo's last three rows. -/
theorem zeroRows_eq :
    (hM : Memref sig .tc .vmem S4x8x256 .f32).view.readCov [⟨rB, k0_pay3 (F := F)⟩] rH5.toLoadRect = haloRows (zeroHalo (F := F)) := by
  unfold View.readCov haloRows zeroHalo
  rw [View.writes_singleton]
  exact congrArg ((hM : Memref sig .tc .vmem S4x8x256 .f32).view.readAt (Elt F) rH5.toLoadRect)
    (Memref.write_access_unit_zero_univ (Elt F) cc0_scratch0 zeros3 _ _ _)

section Body
variable (K : Dev nD × Fin 4 → ℕ)

set_option maxHeartbeats 1600000 in
theorem sound_body_first (c : Dev nD) (h0 : c.val = 0) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) Kt := by
  have h15 : c.val ≠ 15 := by omega
  have hn0 : ¬ (c.val ≠ 0) := not_not.mpr h0
  have hc1 : ¬ k0_cond1 c = 1#1 := fun h => (cond1_iff c).mp h h0
  have hc2 : k0_cond2 c = 1#1 := (cond2_iff c).mpr h15
  have hc4 : ¬ k0_cond4 c = 1#1 := fun h => (cond4_iff c).mp h h0
  unfold bodyPre ghost invs payToks tokBar tokCred tokRecv tokSend creds credBar credRecv credCred
  rw [if_neg hn0, if_neg hn0, if_pos h15, if_pos h15, if_pos h15, if_neg hn0, if_pos h15]
  iintro ⟨⟨⟨⟨⟨#HIbar, #HIsnd, #HIrcv, #HIcrd, #HIbarP, #HIcrdP, #HIrcvN⟩, HatB, HatS, HatV, HatC, #HrBP, #HrCP, #HrVN, #HrS, #HrV, -, -, HtVN, HtS⟩,
      ⟨HcB, -, HcC⟩, #Hlev, ⟨%fh, Hhalo⟩, ⟨%fb, Hsend⟩⟩,
    Ho, ⟨%d0, %g0, %hg0, Hx⟩, ⟨%d1, %g1, %hg1, Hk⟩, ⟨%d2, %g2, %hg2, Hout⟩⟩, Hpost⟩
  have hnx : (nxt c).val ≠ 0 := nxt_val_ne_zero c h15
  have hx : g0 = xstg m ρ c := by rw [hg0]; unfold Dat.before; rw [if_pos (fetch0_0 t₀)]; rfl
  have hk : g1 = kstg m ρ c := by rw [hg1]; unfold Dat.before; rw [if_pos (fetch0_1 t₀)]; rfl
  subst hx; subst hk
  unfold Dat.owesAt Pipeline.owesWithin
  icases Ho with ⟨%W, %hW, HO⟩
  rw [show (dats m ρ 0 c).owed t₀.castSucc = O₀ c from rfl, O₀_first c h0]
  unfold haloPts sendPts
  have hd2 : (⟨k0_dev2 c, k0_dev2_lt c hc2⟩ : Dev nD) = nxt c := dev2_eq c hc2
  -- at its barrier wait the device owes the receive credit only: above the barrier's level
  have hmwB : (levAts L lv : sProp 𝕄) ⊢ MayWait (c : Thread nD τ) (.reg barS) () (tallyAt (recvCell (nxt c)) () N) := by
    have h := mayWait_bar (F := F) c
    unfold O₁ oCred oRecv at h
    rwa [if_neg hn0, if_pos h15, zero_add] at h
  sl_unfold [cc0_body]
  have hf : Scalar.cmpi .ne (Scalar.extui (wFirst c) : BitVec 32) 0#32 = 1#1 := (condFirst_iff c).mpr h0
  have hnl : Scalar.cmpi .ne (Scalar.extui (Scalar.xori (wLast c) 1#1) : BitVec 32) 0#32 = 1#1 := (condNotLast_iff c).mpr h15
  -- up to the store of the send buffer; then the send buffer named as what the device sends
  set_option sl_exec.maxSteps 10 in sl_exec
  rw [send_writes]
  ihave Hsend' := (send_restate m ρ c _ ?hs) $$ Hsend
  case hs => rfl
  sl_exec
  sl_unfold_run_names
  -- the three own cells close: the receive cell at round 0, where it never had a duty; the other two past their one duty
  imod (Rounds.cell_close ER (lineRd m ρ) (Set.mem_univ (K (c, 1))) (fun h => h) (R := 1) (duties_later m ρ (sendCell c))) $$ [HatS] with HzS
  · isplitr; · iexact HIsnd
    iexact HatS
  imod (Rounds.cell_close ER (lineRd m ρ) (Set.mem_univ (K (c, 2))) (fun h => h) (R := 0)
    (duties_idle_from m ρ (recvCell c) (not_active_recv c h0))) $$ [HatV] with HzV
  · isplitr; · iexact HIrcv
    iexact HatV
  imod (Rounds.cell_close ER (lineRd m ρ) (Set.mem_univ (K (c, 3))) (fun h => h) (R := 1) (duties_later m ρ (credCell c))) $$ [HatC] with HzC
  · isplitr; · iexact HIcrd
    iexact HatC
  rw [wp_ret]; imodintro
  iapply Hpost
  unfold bodyPost Φ₁ Dat.owesAt Pipeline.owesWithin haloPts sendPts
  rw [show (dats m ρ 0 c).owed t₀.succ = 0 from rfl]
  isplitl [Hhalo HatS_pay1 HzS HzV HzC]
  · isplitl [Hhalo]; · iexists _; iexact Hhalo
    isplitl [HatS_pay1]; · iexists _; iexact HatS_pay1
    isplitl [HzS]; · iexact HzS
    isplitl [HzV]; · iexact HzV
    iexact HzC
  isplitl [HO]
  · iexists _
    isplitr
    rotate_left
    · iexact HO
    · ipureintro; exact fun _ _ => Or.inl trivial
  isplitl [Hx]
  · iexists _; isplitr; · (ipureintro; rfl)
    iexact Hx
  isplitl [Hk]
  · iexists _; isplitr; · (ipureintro; rfl)
    iexact Hk
  -- the result buffer after the two stores is the device's result block: the halo rows read are the zero halo's
  iapply (stg_out_of m ρ c _ ?hout) $$ Hout
  case hout =>
    rw [zeroRows_eq]
    refine Eq.trans (b := outOf g2 (mainPart (xstg m ρ c) (kstg m ρ c)) (haloPart (xstg m ρ c) (kstg m ρ c) (zeroHalo (F := F)))) rfl ?_
    unfold outAt halo
    rw [if_pos h0]
    exact outOf_congr _ _ _ _

/-- info: 'Cert.KernelProof.sound_body_first' depends on axioms: [propext, Classical.choice, Quot.sound] -/
#guard_msgs in #print axioms sound_body_first

end Body

end Cert.KernelProof

end
-- ==== Proof.Kernel.BodyMid.lean ====
/-
  The body on a device strictly inside the line: it signals the barrier of the device before it; stores the block's
  last eight rows in its send buffer; waits on its own barrier — the device after it is inside the kernel and has
  handed over its halo — and copies the send buffer into that halo; computes rows 3 … 511; waits for the copy from
  the device before it, whose last eight rows its halo now holds, and grants that device its credit; computes rows
  0 … 2 from the halo's last three rows and the block's first three; waits for its own copy to have left and for
  the credit of the device after it. The three own cells are then at round 1, past their one duty, and are closed.
-/
import proofs.«900434_g7700000000000435_dist_gconv1d_seqshard_i_b4_s512_c256_v7x_i16_bf16_1_alg».proof.Proof.Kernel.BodyBase

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] dutiesT_bar dutiesT_send dutiesT_recv dutiesT_cred amount_bar amount_cred amount_send amount_recv
  payT_bar payT_recv payT_send payload_cred expect_bar expect_cred expect_send expect_recv haloPts sendPts
attribute [local sl_rounds high] payT_bar_prv payT_recv_nxt

section Body
variable (K : Dev nD × Fin 4 → ℕ)

set_option maxHeartbeats 1600000 in
theorem sound_body_mid (c : Dev nD) (h0 : c.val ≠ 0) (h15 : c.val ≠ 15) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) Kt := by
  have hc1 : k0_cond1 c = 1#1 := (cond1_iff c).mpr h0
  have hc2 : k0_cond2 c = 1#1 := (cond2_iff c).mpr h15
  have hc4 : k0_cond4 c = 1#1 := (cond4_iff c).mpr h0
  unfold bodyPre ghost invs payToks tokBar tokCred tokRecv tokSend creds credBar credRecv credCred
  rw [if_pos h0, if_pos h0, if_pos h15, if_pos h15, if_pos h15, if_pos h0, if_pos h15]
  iintro ⟨⟨⟨⟨⟨#HIbar, #HIsnd, #HIrcv, #HIcrd, #HIbarP, #HIcrdP, #HIrcvN⟩, HatB, HatS, HatV, HatC, #HrBP, #HrCP, #HrVN, #HrS, #HrV, HtBP, HtCP, HtVN, HtS⟩,
      ⟨HcB, HcV, HcC⟩, #Hlev, ⟨%fh, Hhalo⟩, ⟨%fb, Hsend⟩⟩,
    Ho, ⟨%d0, %g0, %hg0, Hx⟩, ⟨%d1, %g1, %hg1, Hk⟩, ⟨%d2, %g2, %hg2, Hout⟩⟩, Hpost⟩
  have hp15 : (prv c).val ≠ 15 := prv_val_ne_last c h0
  have hn0 : (nxt c).val ≠ 0 := nxt_val_ne_zero c h15
  have hx : g0 = xstg m ρ c := by rw [hg0]; unfold Dat.before; rw [if_pos (fetch0_0 t₀)]; rfl
  have hk : g1 = kstg m ρ c := by rw [hg1]; unfold Dat.before; rw [if_pos (fetch0_1 t₀)]; rfl
  subst hx; subst hk
  unfold Dat.owesAt Pipeline.owesWithin
  icases Ho with ⟨%W, %hW, HO⟩
  rw [show (dats m ρ 0 c).owed t₀.castSucc = O₀ c from rfl, O₀_mid c h0 h15]
  unfold haloPts sendPts
  have hd1 : (⟨k0_dev1 c, k0_dev1_lt c hc1⟩ : Dev nD) = prv c := dev1_eq c hc1
  have hd2 : (⟨k0_dev2 c, k0_dev2_lt c hc2⟩ : Dev nD) = nxt c := dev2_eq c hc2
  have hd3 : (⟨k0_dev3 c, k0_dev3_lt c hc4⟩ : Dev nD) = prv c := dev3_eq c hc4
  have hmwB : (levAts L lv : sProp 𝕄) ⊢ MayWait (c : Thread nD τ) (.reg barS) ()
      (tallyAt (credCell (prv c)) () 1 + tallyAt (recvCell (nxt c)) () N) := by
    have h := mayWait_bar (F := F) c
    unfold O₁ oCred oRecv at h
    rwa [if_pos h0, if_pos h15] at h
  have hmwV : (levAts L lv : sProp 𝕄) ⊢ MayWait (c : Thread nD τ) (.dma recvS.sem) () (tallyAt (credCell (prv c)) () 1) := by
    have h := mayWait_recv (F := F) c
    unfold oCred at h
    rwa [if_pos h0] at h
  sl_unfold [cc0_body]
  have hnf : ¬ (Scalar.cmpi .ne (Scalar.extui (wFirst c) : BitVec 32) 0#32 = 1#1) := fun h => h0 ((condFirst_iff c).mp h)
  have hnl : Scalar.cmpi .ne (Scalar.extui (Scalar.xori (wLast c) 1#1) : BitVec 32) 0#32 = 1#1 := (condNotLast_iff c).mpr h15
  set_option sl_exec.maxSteps 16 in sl_exec
  rw [send_writes]
  ihave Hsend' := (send_restate m ρ c _ ?hs) $$ Hsend
  case hs => rfl
  sl_exec
  -- the three own cells close: their counters at zero are the device's again
  imod (Rounds.cell_close ER (lineRd m ρ) (Set.mem_univ (K (c, 1))) (fun h => h) (R := 1) (duties_later m ρ (sendCell c))) $$ [HatS] with HzS
  · isplitr; · iexact HIsnd
    iexact HatS
  imod (Rounds.cell_close ER (lineRd m ρ) (Set.mem_univ (K (c, 2))) (fun h => h) (R := 1) (duties_later m ρ (recvCell c))) $$ [HatV] with HzV
  · isplitr; · iexact HIrcv
    iexact HatV
  imod (Rounds.cell_close ER (lineRd m ρ) (Set.mem_univ (K (c, 3))) (fun h => h) (R := 1) (duties_later m ρ (credCell c))) $$ [HatC] with HzC
  · isplitr; · iexact HIcrd
    iexact HatC
  rw [wp_ret]; imodintro
  iapply Hpost
  unfold bodyPost Φ₁ Dat.owesAt Pipeline.owesWithin haloPts sendPts
  rw [show (dats m ρ 0 c).owed t₀.succ = 0 from rfl]
  isplitl [HatV_pay1 HatS_pay1 HzS HzV HzC]
  · isplitl [HatV_pay1]; · iexists _; iexact HatV_pay1
    isplitl [HatS_pay1]; · iexists _; iexact HatS_pay1
    isplitl [HzS]; · iexact HzS
    isplitl [HzV]; · iexact HzV
    iexact HzC
  isplitl [HO]
  · iexists _
    isplitr
    rotate_left
    · iexact HO
    · ipureintro; exact fun _ _ => Or.inl trivial
  isplitl [Hx]
  · iexists _; isplitr; · (ipureintro; rfl)
    iexact Hx
  isplitl [Hk]
  · iexists _; isplitr; · (ipureintro; rfl)
    iexact Hk
  iapply (stg_out_of m ρ c _ ?hout) $$ Hout
  case hout =>
    refine Eq.trans (b := outOf g2 (mainPart (xstg m ρ c) (kstg m ρ c)) (haloPart (xstg m ρ c) (kstg m ρ c) (sent m ρ (prv c)))) rfl ?_
    unfold outAt; rw [halo_of_ne m ρ c h0]
    exact outOf_congr _ _ _ _

/-- info: 'Cert.KernelProof.sound_body_mid' depends on axioms: [propext, Classical.choice, Quot.sound] -/
#guard_msgs in #print axioms sound_body_mid

end Body

end Cert.KernelProof

end
-- ==== Proof.Kernel.BodyLast.lean ====
/-
  The body on the LAST device of the line. It has no right neighbour: it does not wait on its barrier, copies
  nothing, and neither its send cell nor its credit cell is ever paid. It signals the barrier of the device before
  it — handing over its halo buffer and that its receive cell is at round 0 —; stores the block's last eight rows in
  its send buffer (nobody reads them); computes rows 3 … 511 of the result; waits for the copy from the device before
  it, owing only that device's credit unit, and finds that device's last eight rows in its halo; grants the credit;
  computes rows 0 … 2 from the halo's last three rows and the block's first three. At the end its receive cell is at
  round 1, past its one duty, and its send and credit cells, which have no duty at all on this device, still at
  round 0: all three are closed, their counters at zero the device's again.
-/
import proofs.«900434_g7700000000000435_dist_gconv1d_seqshard_i_b4_s512_c256_v7x_i16_bf16_1_alg».proof.Proof.Kernel.BodyBase

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] dutiesT_bar dutiesT_send dutiesT_recv dutiesT_cred amount_bar amount_cred amount_send amount_recv
  payT_bar payT_recv payT_send payload_cred expect_bar expect_cred expect_send expect_recv haloPts sendPts
attribute [local sl_rounds high] payT_bar_prv payT_recv_nxt

section Body
variable (K : Dev nD × Fin 4 → ℕ)

omit [FloatOps F] in
/-- What the last device owes at launch: one credit unit and one barrier unit to the device before it (it sends nothing). -/
theorem O₀_last (c : Dev nD) (h15 : c.val = 15) :
    O₀ c = tallyAt (credCell (prv c)) () 1 + tallyAt (barCell (prv c)) () 1 := by
  have h0 : c.val ≠ 0 := by omega
  have hn15 : ¬ c.val ≠ 15 := fun h => h h15
  unfold O₀ O₁ oCred oRecv oBar; rw [if_pos h0, if_neg hn15, if_pos h0, add_zero]

set_option maxHeartbeats 1600000 in
theorem sound_body_last (c : Dev nD) (h15 : c.val = 15) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) Kt := by
  have h0 : c.val ≠ 0 := by omega
  have hn15 : ¬ c.val ≠ 15 := fun h => h h15
  have hc1 : k0_cond1 c = 1#1 := (cond1_iff c).mpr h0
  have hc2 : ¬ k0_cond2 c = 1#1 := fun h => (cond2_iff c).mp h h15
  have hc4 : k0_cond4 c = 1#1 := (cond4_iff c).mpr h0
  unfold bodyPre ghost invs payToks tokBar tokCred tokRecv tokSend creds credBar credRecv credCred
  rw [if_pos h0, if_pos h0, if_pos h0, if_neg hn15, if_neg hn15, if_neg hn15, if_neg hn15]
  iintro ⟨⟨⟨⟨⟨#HIbar, #HIsnd, #HIrcv, #HIcrd, #HIbarP, #HIcrdP, #HIrcvN⟩, HatB, HatS, HatV, HatC, #HrBP, #HrCP, #HrVN, #HrS, #HrV, HtBP, HtCP, -, -⟩,
      ⟨-, HcV, -⟩, #Hlev, ⟨%fh, Hhalo⟩, ⟨%fb, Hsend⟩⟩,
    Ho, ⟨%d0, %g0, %hg0, Hx⟩, ⟨%d1, %g1, %hg1, Hk⟩, ⟨%d2, %g2, %hg2, Hout⟩⟩, Hpost⟩
  have hp15 : (prv c).val ≠ 15 := prv_val_ne_last c h0
  have hx : g0 = xstg m ρ c := by rw [hg0]; unfold Dat.before; rw [if_pos (fetch0_0 t₀)]; rfl
  have hk : g1 = kstg m ρ c := by rw [hg1]; unfold Dat.before; rw [if_pos (fetch0_1 t₀)]; rfl
  subst hx; subst hk
  unfold Dat.owesAt Pipeline.owesWithin
  icases Ho with ⟨%W, %hW, HO⟩
  rw [show (dats m ρ 0 c).owed t₀.castSucc = O₀ c from rfl, O₀_last c h15]
  unfold haloPts sendPts
  have hd1 : (⟨k0_dev1 c, k0_dev1_lt c hc1⟩ : Dev nD) = prv c := dev1_eq c hc1
  have hd3 : (⟨k0_dev3 c, k0_dev3_lt c hc4⟩ : Dev nD) = prv c := dev3_eq c hc4
  have hmwV : (levAts L lv : sProp 𝕄) ⊢ MayWait (c : Thread nD τ) (.dma recvS.sem) () (tallyAt (credCell (prv c)) () 1) := by
    have h := mayWait_recv (F := F) c
    unfold oCred at h
    rwa [if_pos h0] at h
  sl_unfold [cc0_body]
  have hnf : ¬ (Scalar.cmpi .ne (Scalar.extui (wFirst c) : BitVec 32) 0#32 = 1#1) := fun h => h0 ((condFirst_iff c).mp h)
  have hnl : ¬ (Scalar.cmpi .ne (Scalar.extui (Scalar.xori (wLast c) 1#1) : BitVec 32) 0#32 = 1#1) := fun h => (condNotLast_iff c).mp h h15
  sl_exec
  -- the three own cells are closed: the send and credit cells of the last device have no duty at all, the receive cell none after round 0
  imod (Rounds.cell_close ER (lineRd m ρ) (κ := K (c, 1)) (Set.mem_univ _) (fun h => h)
      (duties_idle_from m ρ (sendCell c) (not_active_send c h15))) $$ [HatS] with HzS
  · isplitr; · iexact HIsnd
    iexact HatS
  imod (Rounds.cell_close ER (lineRd m ρ) (κ := K (c, 2)) (R := 1) (Set.mem_univ _) (fun h => h)
      (duties_later m ρ (recvCell c))) $$ [HatV] with HzV
  · isplitr; · iexact HIrcv
    iexact HatV
  imod (Rounds.cell_close ER (lineRd m ρ) (κ := K (c, 3)) (Set.mem_univ _) (fun h => h)
      (duties_idle_from m ρ (credCell c) (not_active_cred c h15))) $$ [HatC] with HzC
  · isplitr; · iexact HIcrd
    iexact HatC
  sl_step
  iapply Hpost
  unfold bodyPost Φ₁
  isplitl [HatV_pay1 Hsend HzS HzV HzC]
  · isplitl [HatV_pay1]; · iexists _; unfold haloPts; iexact HatV_pay1
    isplitl [Hsend]; · iexists _; unfold sendPts; iexact Hsend
    isplitl [HzS]; · iexact HzS
    isplitl [HzV] <;> iassumption
  isplitl [HO]
  · unfold Dat.owesAt Pipeline.owesWithin
    iexists (insert (SemLoc.dma (SemArray.sem cc0_scratch3), ()) W)
    isplitr; · ipureintro; exact fun _ _ => Set.mem_union_left _ (Set.mem_univ _)
    iexact HO
  isplitl [Hx]; · iexists _; isplitr; · (ipureintro; rfl)
                  iexact Hx
  isplitl [Hk]; · iexists _; isplitr; · (ipureintro; rfl)
                  iexact Hk
  iexists _
  isplitr
  swap
  · iexact Hout
  · ipureintro
    unfold outAt
    rw [halo_of_ne m ρ c h0, outOf_congr (blank (F := F)) g2]
    rfl

/-- info: 'Cert.KernelProof.sound_body_last' depends on axioms: [propext, Classical.choice, Quot.sound] -/
#guard_msgs in #print axioms sound_body_last

end Body

end Cert.KernelProof

end
-- ==== Proof.Kernel.Body.lean ====
/-
  The body on every device, and the library's body obligation.

  A device of the line is the first (no left neighbour), the last (no right neighbour) or strictly inside; the three
  modules before this one run the body on each kind from the same precondition to the same postcondition: from the
  line's ghost state, the device's launch credit, the level facts, its two scoped buffers at any contents, what it owes
  at launch and its three staging buffers — the block of the input and the taps as launched, the result's at any
  contents — to the two scoped buffers at some contents, its three own cells closed with their counters at zero,
  nothing owed, the inputs' staging buffers unchanged and the result's staging buffer holding the result block.

  The pipeline has one grid point, so the library's obligation is that run, once: its precondition is the invariant
  before the point, opened at the names the launch allocated the cells' invariants at, and its postcondition the
  invariant after it with the three staging buffers at what the body leaves.
-/
import proofs.«900434_g7700000000000435_dist_gconv1d_seqshard_i_b4_s512_c256_v7x_i16_bf16_1_alg».proof.Proof.Kernel.BodyFirst
import proofs.«900434_g7700000000000435_dist_gconv1d_seqshard_i_b4_s512_c256_v7x_i16_bf16_1_alg».proof.Proof.Kernel.BodyMid
import proofs.«900434_g7700000000000435_dist_gconv1d_seqshard_i_b4_s512_c256_v7x_i16_bf16_1_alg».proof.Proof.Kernel.BodyLast

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 4 → ℕ)

/-- The body on any device: the first, the last, or one strictly inside the line. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) Kt := by
  by_cases h0 : c.val = 0
  · exact sound_body_first m ρ K c h0 Kt
  · by_cases h15 : c.val = 15
    · exact sound_body_last m ρ K c h15 Kt
    · exact sound_body_mid m ρ K c h0 h15 Kt

/-- What the library's obligation starts from at the one point: the invariant before the point, what the device owes,
    and the three staging buffers at what they then hold. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The library's body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) (fun _ => bodyPost m ρ c)
  unfold bodyPre' Φ₀ start
  iintro ⟨⟨⟨⟨%K, Hg⟩, Hcr, Hlev⟩, Hh, Hb⟩, Ho, Hx, Hk, Hout⟩
  iapply (sound_body m ρ K c fun _ => bodyPost m ρ c)
  unfold bodyPre
  isplitr []
  · isplitl [Hg Hcr Hlev Hh Hb]
    · isplitl [Hg]; · iexact Hg
      isplitl [Hcr]; · iexact Hcr
      isplitl [Hlev]; · iexact Hlev
      isplitl [Hh] <;> iassumption
    isplitl [Ho]; · iexact Ho
    isplitl [Hx]; · iexact Hx
    isplitl [Hk] <;> iassumption
  · iintro H; iexact H

/-- info: 'Cert.KernelProof.body_obligation' depends on axioms: [propext, Classical.choice, Quot.sound] -/
#guard_msgs in #print axioms body_obligation

end Body

end Cert.KernelProof

end
-- ==== Proof.KernelIdeal.StoreLayout.lean ====
/-
  What the body's loads read and what its stores leave, index by index, for any float values.

  LOADS. A load through the rectangle of a whole buffer's own sizes at zero offsets reads the buffer itself. The rows a
  device sends up the line are rows 504 … 511 of its block: row `j` of what it sends is row `504 + j` of the block. The
  three halo rows the body convolves are rows 5 … 7 of the halo buffer: row `j` of them is row `5 + j` of the buffer.
  The first device's halo is filled with the zero pattern everywhere.

  STORES. The result block is a bf16 buffer whose rows are packed in pairs, so a store of rows that does not start and
  end on a pair boundary reads the enclosing rectangle of whole pairs, replaces the stored rows inside it and writes
  the rectangle back. The body stores its main part (509 rows, meant for rows 3 … 511) through the rectangle of rows
  2 … 511 at row offset 1 inside it, and then its halo part (3 rows, meant for rows 0 … 2) through the rectangle of rows
  0 … 3 at row offset 0. Row 2 is rewritten by the first store with what the buffer held, and then overwritten by the
  second; row 3 is rewritten by the second store with what the first left there. So whatever the buffer held first,
  afterwards row `r` holds the halo part's row `r` for `r < 3` and the main part's row `r - 3` otherwise.

  A write of every element through a unit-stride rectangle of a whole buffer is `updateSlice` at the rectangle's
  offsets, a load through such a rectangle reads the buffer at the offsets plus the index, and `updateSlice` at an
  index is decided by whether the row lies in the updated rows.
-/
import proofs.«900434_g7700000000000435_dist_gconv1d_seqshard_i_b4_s512_c256_v7x_i16_bf16_1_alg».proof.Proof.KernelIdeal.Contents
import Idealize.ShloMosaic.Lib.Pipeline.Value
import Idealize.ShloMosaic.Lib.ValueIdx

noncomputable section

namespace Cert.KernelIdealProof

open Idealize.ShloMosaic Idealize.ShloMosaic.ValueIdx Cert.KernelIdeal Cert.KernelIdeal.Gen

/-! ## Loads -/

/-- The three zero offsets, as the constant-zero function. -/
theorem zeros3 : (![0, 0, 0] : Fin 3 → Nat) = fun _ => 0 := by
  funext a
  match a with
  | ⟨0, _⟩ => rfl
  | ⟨1, _⟩ => rfl
  | ⟨2, _⟩ => rfl

/-- The two zero offsets, as the constant-zero function. -/
theorem zeros2 : (![0, 0] : Fin 2 → Nat) = fun _ => 0 := by
  funext a
  match a with
  | ⟨0, _⟩ => rfl
  | ⟨1, _⟩ => rfl

/-- The whole-block load of the input block reads the block. -/
theorem read_x {F : FTy → Type} [FloatOps F] (x : (cc0_stg0_0 : Ref sig .tc).ty.Contents (Elt F)) :
    (xM : Memref sig .tc .vmem S4x512x256 .f32).view.readAt (Elt F) rX.toLoadRect x = x :=
  Memref.readAt_unit_zero (Elt F) (cc0_stg0_0 : Ref sig .tc) zeros3 inb_S4x512x256_S4x512x256_0_0_0 x

/-- The whole-array load of the taps reads the taps. -/
theorem read_k {F : FTy → Type} [FloatOps F] (k : (cc0_stg1_0 : Ref sig .tc).ty.Contents (Elt F)) :
    (kM : Memref sig .tc .vmem S4x256 .f32).view.readAt (Elt F) rK.toLoadRect k = k :=
  Memref.readAt_unit_zero (Elt F) (cc0_stg1_0 : Ref sig .tc) zeros2 inb_S4x256_S4x256_0_0 k

/-- So the main part is the main payload of the block and the taps themselves, -/
theorem mainPart_eq {F : FTy → Type} [FloatOps F] (x : (cc0_stg0_0 : Ref sig .tc).ty.Contents (Elt F))
    (k : (cc0_stg1_0 : Ref sig .tc).ty.Contents (Elt F)) :
    mainPart (F := F) x k = k0_pay8 (k0_pay6 x k) (k0_pay7 x k) := by
  unfold mainPart
  rw [read_x, read_k]

/-- and the halo part the halo payload of them and of the halo buffer's last three rows. -/
theorem haloPart_eq {F : FTy → Type} [FloatOps F] (x : (cc0_stg0_0 : Ref sig .tc).ty.Contents (Elt F))
    (k : (cc0_stg1_0 : Ref sig .tc).ty.Contents (Elt F)) (h : (cc0_scratch0 : Ref sig .tc).ty.Contents (Elt F)) :
    haloPart (F := F) x k h = k0_pay9 (k0_pay4 x) (k0_pay5 k) (haloRows h) := by
  unfold haloPart
  rw [read_x, read_k]

/-- Row `j` of what a device sends is row `504 + j` of its block. -/
theorem tailOf_apply {F : FTy → Type} [FloatOps F] (x : (cc0_stg0_0 : Ref sig .tc).ty.Contents (Elt F))
    (b : Fin 4) (j : Fin 8) (ch : Fin 256) :
    tailOf (F := F) x (ix3 b j ch) = x (ix3 b ⟨504 + j.val, by omega⟩ ch) := by
  unfold tailOf k0_pay2 k0_pay1
  rw [shapeCast_self, shapeCast_self]
  show x _ = x _
  refine congrArg x (funext fun a => Fin.ext ?_)
  match a with
  | ⟨0, _⟩ => show 0 + 1 * b.val = b.val; omega
  | ⟨1, _⟩ => show 504 + 1 * j.val = 504 + j.val; omega
  | ⟨2, _⟩ => show 0 + 1 * ch.val = ch.val; omega

/-- Row `j` of the three halo rows is row `5 + j` of the halo buffer. -/
theorem haloRows_apply {F : FTy → Type} [FloatOps F] (h : (cc0_scratch0 : Ref sig .tc).ty.Contents (Elt F))
    (b : Fin 4) (j : Fin 3) (ch : Fin 256) :
    haloRows (F := F) h (ix3 b j ch) = h (ix3 b ⟨5 + j.val, by omega⟩ ch) := by
  unfold haloRows
  show h _ = h _
  refine congrArg h (funext fun a => Fin.ext ?_)
  match a with
  | ⟨0, _⟩ => show 0 + 1 * b.val = b.val; omega
  | ⟨1, _⟩ => show 5 + 1 * j.val = 5 + j.val; omega
  | ⟨2, _⟩ => show 0 + 1 * ch.val = ch.val; omega

/-- The first device's halo is the zero pattern at every index. -/
theorem zeroHalo_apply {F : FTy → Type} [FloatOps F] (b : Fin 4) (j : Fin 8) (ch : Fin 256) :
    zeroHalo (F := F) (ix3 b j ch) = Scalar.ofBits .f32 0x00000000#32 := by
  unfold zeroHalo k0_pay3
  rw [shapeCast_self]
  rfl

/-! ## Stores -/

/-- Two indices with the same coordinates are the same index (the row given by two spellings of one number). -/
theorem ix3_row_congr {n0 n1 n2 : Nat} (b : Fin n0) (r r' : Fin n1) (ch : Fin n2) (h : r.val = r'.val) :
    ix3 b r ch = ix3 b r' ch := by
  rw [Fin.ext h]

/-- `updateSlice` along the rows, at a row inside the updated rows: the update, at the row less the offset. -/
theorem updateSlice_rows_in {α : Type} {N n : Nat} (x : (⟨3, ![4, N, 256]⟩ : Shape).Idx → α)
    (upd : (⟨3, ![4, n, 256]⟩ : Shape).Idx → α) (o : Nat)
    (h : (⟨3, ![4, N, 256]⟩ : Shape).Slices ![0, o, 0] ⟨3, ![4, n, 256]⟩) (b : Fin 4) (r : Fin N) (ch : Fin 256)
    (h1 : o ≤ r.val) (h2 : r.val < o + n) :
    updateSlice x upd ![0, o, 0] h (ix3 b r ch) = upd (ix3 b ⟨r.val - o, by omega⟩ ch) := by
  unfold updateSlice
  split
  · next hin =>
    refine congrArg upd (funext fun a => ?_)
    match a with
    | ⟨0, _⟩ => rfl
    | ⟨1, _⟩ => rfl
    | ⟨2, _⟩ => rfl
  · next hout =>
    refine absurd (fun a => ?_) hout
    match a with
    | ⟨0, _⟩ => exact ⟨Nat.zero_le _, by show b.val < 0 + 4; omega⟩
    | ⟨1, _⟩ => exact ⟨h1, h2⟩
    | ⟨2, _⟩ => exact ⟨Nat.zero_le _, by show ch.val < 0 + 256; omega⟩

/-- `updateSlice` along the rows, at a row outside the updated rows: the operand. -/
theorem updateSlice_rows_out {α : Type} {N n : Nat} (x : (⟨3, ![4, N, 256]⟩ : Shape).Idx → α)
    (upd : (⟨3, ![4, n, 256]⟩ : Shape).Idx → α) (o : Nat)
    (h : (⟨3, ![4, N, 256]⟩ : Shape).Slices ![0, o, 0] ⟨3, ![4, n, 256]⟩) (b : Fin 4) (r : Fin N) (ch : Fin 256)
    (h1 : r.val < o ∨ o + n ≤ r.val) :
    updateSlice x upd ![0, o, 0] h (ix3 b r ch) = x (ix3 b r ch) := by
  unfold updateSlice
  split
  · next hin =>
    have h0 := hin ⟨1, by show 1 < 3; omega⟩
    have h3 : o ≤ r.val ∧ r.val < o + n := h0
    omega
  · rfl

/-- One read-modify-write store of rows `o … o + n - 1` of the result block is `updateSlice` at row `o` of the
    rewritten rectangle. -/
theorem rewriteRows_eq {F : FTy → Type} [FloatOps F] (o : Nat) (n : Nat)
    (inb : ∀ a, (![0, o, 0] : Fin 3 → Nat) a + (![4, n, 256] : Fin 3 → Nat) a ≤ S4x512x256.size a)
    (w : ((Rect.unit (s := S4x512x256) ![0, o, 0] ![4, n, 256] inb).shape.Idx → Elt F .bf16)
      → ((Rect.unit (s := S4x512x256) ![0, o, 0] ![4, n, 256] inb).shape.Idx → Elt F .bf16))
    (f : (cc0_stg2_0 : Ref sig .tc).ty.Contents (Elt F)) :
    rewriteRows (F := F) (Rect.unit (s := S4x512x256) ![0, o, 0] ![4, n, 256] inb) w f
      = updateSlice f (w ((oM : Memref sig .tc .vmem S4x512x256 .bf16).view.readAt (Elt F)
          (Rect.unit (s := S4x512x256) ![0, o, 0] ![4, n, 256] inb).toLoadRect f)) ![0, o, 0] ⟨rfl, inb⟩ := by
  unfold rewriteRows
  exact View.write_whole_slice_unit (cc0_stg2_0 : Ref sig .tc) ![0, o, 0] ![4, n, 256] inb f _

/-- A load of rows `o … o + n - 1` of the result block reads, at `(b, j, ch)`, the block at `(b, o + j, ch)`. -/
theorem readAt_out_rows {F : FTy → Type} [FloatOps F] (o : Nat) (n : Nat)
    (inb : ∀ a, (![0, o, 0] : Fin 3 → Nat) a + (![4, n, 256] : Fin 3 → Nat) a ≤ S4x512x256.size a)
    (f : (cc0_stg2_0 : Ref sig .tc).ty.Contents (Elt F)) (b : Fin 4) (j : Fin n) (ch : Fin 256) (hj : o + j.val < 512) :
    (oM : Memref sig .tc .vmem S4x512x256 .bf16).view.readAt (Elt F)
        (Rect.unit (s := S4x512x256) ![0, o, 0] ![4, n, 256] inb).toLoadRect f (ix3 b j ch)
      = f (ix3 b ⟨o + j.val, hj⟩ ch) := by
  show f _ = f _
  refine congrArg f (funext fun a => Fin.ext ?_)
  match a with
  | ⟨0, _⟩ => show 0 + 1 * b.val = b.val; omega
  | ⟨1, _⟩ => show o + 1 * j.val = o + j.val; omega
  | ⟨2, _⟩ => show 0 + 1 * ch.val = ch.val; omega

/-- After the FIRST store (the main part, through rows 2 … 511 at row offset 1): a row from 3 on holds the main part's
    row three less, whatever the buffer held. -/
theorem mainStore_apply {F : FTy → Type} [FloatOps F] (f : (cc0_stg2_0 : Ref sig .tc).ty.Contents (Elt F))
    (p8 : FVec F S4x509x256 .bf16) (b : Fin 4) (r : Fin 512) (ch : Fin 256) (hr : 3 ≤ r.val) :
    rewriteRows (F := F) rO2 (fun old => updateSlice old p8 ![0, 1, 0] slices_S4x510x256_S4x509x256_0_1_0) f (ix3 b r ch)
      = p8 (ix3 b ⟨r.val - 3, by omega⟩ ch) := by
  refine (congrFun (rewriteRows_eq (F := F) 2 510 inb_S4x512x256_S4x510x256_0_2_0 _ f) _).trans ?_
  refine (updateSlice_rows_in (N := 512) (n := 510) f _ 2 _ b r ch (by omega) (by omega)).trans ?_
  refine (updateSlice_rows_in (N := 510) (n := 509) _ p8 1 slices_S4x510x256_S4x509x256_0_1_0 b ⟨r.val - 2, by omega⟩ ch
    (by show 1 ≤ r.val - 2; omega) (by show r.val - 2 < 1 + 509; omega)).trans ?_
  exact congrArg p8 (ix3_row_congr b _ _ ch (by show r.val - 2 - 1 = r.val - 3; omega))

/-- THE RESULT BLOCK AFTER BOTH STORES, at `(b, r, ch)`: the halo part's row `r` below three, else the main part's row
    `r - 3` — for every first contents `f` of the buffer. -/
theorem outOf_apply {F : FTy → Type} [FloatOps F] (f : (cc0_stg2_0 : Ref sig .tc).ty.Contents (Elt F))
    (p8 : FVec F S4x509x256 .bf16) (p9 : FVec F S4x3x256 .bf16) (b : Fin 4) (r : Fin 512) (ch : Fin 256) :
    outOf (F := F) f p8 p9 (ix3 b r ch)
      = if hr : r.val < 3 then p9 (ix3 b ⟨r.val, hr⟩ ch) else p8 (ix3 b ⟨r.val - 3, by omega⟩ ch) := by
  unfold outOf
  refine (congrFun (rewriteRows_eq (F := F) 0 4 inb_S4x512x256_S4x4x256_0_0_0 _ _) _).trans ?_
  by_cases hr : r.val < 3
  · rw [dif_pos hr]
    refine (updateSlice_rows_in (N := 512) (n := 4) _ _ 0 _ b r ch (by omega) (by omega)).trans ?_
    refine (updateSlice_rows_in (N := 4) (n := 3) _ p9 0 slices_S4x4x256_S4x3x256_0_0_0 b ⟨r.val - 0, by omega⟩ ch
      (by omega) (by show r.val - 0 < 0 + 3; omega)).trans ?_
    exact congrArg p9 (ix3_row_congr b _ _ ch (by show r.val - 0 - 0 = r.val; omega))
  · rw [dif_neg hr]
    by_cases h3 : r.val = 3
    · refine (updateSlice_rows_in (N := 512) (n := 4) _ _ 0 _ b r ch (by omega) (by omega)).trans ?_
      refine (updateSlice_rows_out (N := 4) (n := 3) _ p9 0 slices_S4x4x256_S4x3x256_0_0_0 b ⟨r.val - 0, by omega⟩ ch
        (Or.inr (by show 0 + 3 ≤ r.val - 0; omega))).trans ?_
      refine (readAt_out_rows (F := F) 0 4 inb_S4x512x256_S4x4x256_0_0_0 _ b ⟨r.val - 0, by omega⟩ ch
        (by show 0 + (r.val - 0) < 512; omega)).trans ?_
      refine (mainStore_apply f p8 b ⟨0 + (r.val - 0), by omega⟩ ch (by show 3 ≤ 0 + (r.val - 0); omega)).trans ?_
      exact congrArg p8 (ix3_row_congr b _ _ ch (by show 0 + (r.val - 0) - 3 = r.val - 3; omega))
    · refine (updateSlice_rows_out (N := 512) (n := 4) _ _ 0 _ b r ch (Or.inr (by omega))).trans ?_
      exact mainStore_apply f p8 b r ch (by omega)

/-- So the result block does not depend on what the buffer held first. -/
theorem outOf_congr {F : FTy → Type} [FloatOps F] (f f' : (cc0_stg2_0 : Ref sig .tc).ty.Contents (Elt F))
    (p8 : FVec F S4x509x256 .bf16) (p9 : FVec F S4x3x256 .bf16) :
    outOf (F := F) f p8 p9 = outOf (F := F) f' p8 p9 := by
  funext i
  obtain ⟨b, r, ch, rfl⟩ : ∃ (b : Fin 4) (r : Fin 512) (ch : Fin 256), i = ix3 b r ch := ⟨i 0, i 1, i 2, eq_ix3 i⟩
  rw [outOf_apply, outOf_apply]

/-- info: 'Cert.KernelIdealProof.outOf_apply' depends on axioms: [propext, Classical.choice, Quot.sound] -/
#guard_msgs in #print axioms outOf_apply
/-- info: 'Cert.KernelIdealProof.tailOf_apply' depends on axioms: [propext, Classical.choice, Quot.sound] -/
#guard_msgs in #print axioms tailOf_apply

end Cert.KernelIdealProof

end
-- ==== Proof.KernelIdeal.BodyBase.lean ====
/-
  One device's body, the common part. The schedule's tables are restated here the way the symbolic run reads them:
  the table entry on the left and the neighbour already resolved (the barrier duty a device pays is that of the
  device before it, whose payload is the payer's OWN halo buffer; the receive duty it pays is that of the device
  after it, whose payload is that halo holding what the payer sent). Then what the body starts from and ends with at
  the one grid point — the line's ghost state, the credit tokens, the level facts, the two scoped buffers and the
  three staging buffers before; the scoped buffers, the three own cells closed at zero and the staging buffers
  after, the result block holding rows 0 … 2 from the halo and rows 3 … 511 from the block — and three small
  restatements: the send buffer after its store holds the block's last eight rows; a buffer at contents equal to a
  named value is the buffer at that value.
-/
import proofs.«900434_g7700000000000435_dist_gconv1d_seqshard_i_b4_s512_c256_v7x_i16_bf16_1_alg».proof.Proof.KernelIdeal.Ledger
import proofs.«900434_g7700000000000435_dist_gconv1d_seqshard_i_b4_s512_c256_v7x_i16_bf16_1_alg».proof.Proof.KernelIdeal.StoreLayout
import proofs.«900434_g7700000000000435_dist_gconv1d_seqshard_i_b4_s512_c256_v7x_i16_bf16_1_alg».proof.Proof.Gen.KernelIdeal.Skeleton
import proofs.«900434_g7700000000000435_dist_gconv1d_seqshard_i_b4_s512_c256_v7x_i16_bf16_1_alg».proof.Proof.Gen.KernelIdeal.Points

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tables, with the entry on the left and the neighbour resolved -/

section Tables
variable (c : Dev nD)

omit [FloatOps F] in
theorem dutiesT_bar (h : c.val ≠ 15) : (lineRd (F := F) m ρ).duties (barCell c) 0 = {()} := duties_active m ρ (active_bar c h)
omit [FloatOps F] in
theorem dutiesT_send (h : c.val ≠ 15) : (lineRd (F := F) m ρ).duties (sendCell c) 0 = {()} := duties_active m ρ (active_send c h)
omit [FloatOps F] in
theorem dutiesT_recv (h : c.val ≠ 0) : (lineRd (F := F) m ρ).duties (recvCell c) 0 = {()} := duties_active m ρ (active_recv c h)
omit [FloatOps F] in
theorem dutiesT_cred (h : c.val ≠ 15) : (lineRd (F := F) m ρ).duties (credCell c) 0 = {()} := duties_active m ρ (active_cred c h)

omit [FloatOps F] in
theorem payT_bar : (lineRd (F := F) m ρ).payload (barCell c) 0 () =
    iprop((∃ f, haloPts (F := F) (nxt c) f) ∗ reached ER (recvCell (nxt c)) 0) := by
  rw [payload_bar]; rfl
omit [FloatOps F] in
theorem payT_bar_prv : (lineRd (F := F) m ρ).payload (barCell (prv c)) 0 () =
    iprop((∃ f, haloPts (F := F) c f) ∗ reached ER (recvCell c) 0) := by
  have key : ∀ d : Dev nD, d = c → (iprop((∃ f, haloPts d f) ∗ reached ER (recvCell d) 0) : sProp 𝕄)
      = iprop((∃ f, haloPts (F := F) c f) ∗ reached ER (recvCell c) 0) := by
    intro d hd; subst hd; rfl
  rw [payload_bar]; exact key _ (nxt_prv c)
omit [FloatOps F] in
theorem payT_recv : (lineRd (F := F) m ρ).payload (recvCell c) 0 () =
    haloPts (F := F) c (sent m ρ (prv c)) := by
  rw [payload_recv]; rfl
omit [FloatOps F] in
theorem payT_recv_nxt : (lineRd (F := F) m ρ).payload (recvCell (nxt c)) 0 () =
    haloPts (F := F) (nxt c) (sent m ρ c) := by
  rw [payload_recv]; unfold recvPay; rw [prv_nxt]
omit [FloatOps F] in
theorem payT_send : (lineRd (F := F) m ρ).payload (sendCell c) 0 () =
    sendPts (F := F) c (sent m ρ c) := by
  rw [payload_send]; rfl

theorem O₀_mid (h0 : c.val ≠ 0) (h15 : c.val ≠ 15) :
    O₀ c = tallyAt (credCell (prv c)) () 1 + tallyAt (recvCell (nxt c)) () N + tallyAt (barCell (prv c)) () 1 := by
  unfold O₀ O₁ oCred oRecv oBar; rw [if_pos h0, if_pos h15, if_pos h0]

end Tables

section Body
variable (K : Dev nD × Fin 4 → ℕ)

abbrev stg (c : Dev nD) (b : Ref sig .tc) (X : b.ty.Contents (Elt F)) : sProp 𝕄 :=
  iprop(∃ f : Buf (Elt F) ((Memref.whole b : Memref sig .tc _ _ _).view.loc (c : Thread nD τ)), ⌜f = X⌝
    ∗ ((Memref.whole b : Memref sig .tc _ _ _).view.loc (c : Thread nD τ) ↦[(Memref.whole b : Memref sig .tc _ _ _).view.set]{fullShare} f))

def bodyPre (c : Dev nD) : sProp 𝕄 :=
  iprop((ghost m ρ K c ∗ creds (F := F) c ∗ levAts L lv ∗ (∃ f, haloPts c f) ∗ (∃ f, sendPts c f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (kstg m ρ c)
    ∗ stg c cc0_stg2_0 (outAt m ρ c))

/-- The send buffer at contents equal to what the device sends, restated at that name: the form the transfer's
    departure and arrival payloads are stated in. -/
theorem send_restate (c : Dev nD) (f : Buf (Elt F) ((bM : Memref sig .tc .vmem S4x8x256 .f32).view.loc (c : Thread nD τ)))
    (hf : f = sent m ρ c) :
    ((bM : Memref sig .tc .vmem S4x8x256 .f32).view.loc (c : Thread nD τ) ↦[(bM : Memref sig .tc .vmem S4x8x256 .f32).view.set]{fullShare} f : sProp 𝕄)
      ⊢ ((bM : Memref sig .tc .vmem S4x8x256 .f32).view.loc (c : Thread nD τ) ↦[(bM : Memref sig .tc .vmem S4x8x256 .f32).view.set]{fullShare} sent m ρ c) := by
  subst hf; exact BI.Entails.refl _

/-- The result buffer at contents equal to the kernel's result block is the obligation's post for the output window. -/
theorem stg_out_of (c : Dev nD) (f : Buf (Elt F) ((oM : Memref sig .tc .vmem S4x512x256 .bf16).view.loc (c : Thread nD τ)))
    (hf : f = outAt m ρ c) :
    ((oM : Memref sig .tc .vmem S4x512x256 .bf16).view.loc (c : Thread nD τ) ↦[(oM : Memref sig .tc .vmem S4x512x256 .bf16).view.set]{fullShare} f : sProp 𝕄)
      ⊢ stg c cc0_stg2_0 (outAt m ρ c) := by
  subst hf
  iintro H
  iexists _; isplitr; · (ipureintro; rfl)
  iexact H

theorem halo_of_ne (c : Dev nD) (h0 : c.val ≠ 0) : halo m ρ c = sent m ρ (prv c) := if_neg h0

omit [FloatOps F] in
/-- One store of a whole 4×8×256 value into the send buffer leaves that value, whatever the buffer held. -/
theorem send_writes (c : Dev nD) (f : Buf (Elt F) ((bM : Memref sig .tc .vmem S4x8x256 .f32).view.loc (c : Thread nD τ)))
    (w : rB.shape.Idx → Elt F .f32) :
    (bM : Memref sig .tc .vmem S4x8x256 .f32).view.writes (Elt F) f [⟨rB, w⟩] = w := by
  rw [View.writes_singleton]; exact Memref.write_access_unit_zero_univ (Elt F) cc0_scratch1 zeros3 _ f w

omit [FloatOps F] in
/-- The same for the halo buffer (the first device's zero fill). -/
theorem halo_writes (c : Dev nD) (f : Buf (Elt F) ((hM : Memref sig .tc .vmem S4x8x256 .f32).view.loc (c : Thread nD τ)))
    (w : rB.shape.Idx → Elt F .f32) :
    (hM : Memref sig .tc .vmem S4x8x256 .f32).view.writes (Elt F) f [⟨rB, w⟩] = w := by
  rw [View.writes_singleton]; exact Memref.write_access_unit_zero_univ (Elt F) cc0_scratch0 zeros3 _ f w

omit [FloatOps F] in
/-- A whole staging buffer owned at contents `X` is the buffer at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  simp only [show ∀ f : Buf (Elt F) ((Memref.whole b : Memref sig .tc _ _ _).view.loc (c : Thread nD τ)),
    (Memref.whole b : Memref sig .tc _ _ _).view.read (Elt F) f = f from fun f => View.read_whole _ _]

end Body

end Cert.KernelIdealProof

end
-- ==== Proof.KernelIdeal.BodyFirst.lean ====
/-
  The body on the first device of the line. It has no device before it: it signals nobody at entry, nobody copies into
  its halo, and it grants no credit. It stores the block's last eight rows in its send buffer; waits on its own
  barrier — the device after it is inside the kernel and has handed over its halo — and copies the send buffer into
  that halo; fills its own halo with zeros, the three zero rows that precede the whole sequence; computes rows
  3 … 511; computes rows 0 … 2 from the zero halo's last three rows and the block's first three; waits for its own
  copy to have left and for the credit of the device after it. Its receive cell never had a duty and is closed at
  round 0; its send and credit cells are at round 1, past their one duty, and are closed.
-/
import proofs.«900434_g7700000000000435_dist_gconv1d_seqshard_i_b4_s512_c256_v7x_i16_bf16_1_alg».proof.Proof.KernelIdeal.BodyBase

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] dutiesT_bar dutiesT_send dutiesT_recv dutiesT_cred amount_bar amount_cred amount_send amount_recv
  payT_bar payT_recv payT_send payload_cred expect_bar expect_cred expect_send expect_recv haloPts sendPts
attribute [local sl_rounds high] payT_bar_prv payT_recv_nxt

/-- The first device owes, at launch, only the transfer's credit on the receive cell of the device after it. -/
theorem O₀_first (c : Dev nD) (h0 : c.val = 0) : O₀ c = tallyAt (recvCell (nxt c)) () N := by
  have h15 : c.val ≠ 15 := by omega
  unfold O₀ O₁ oCred oRecv oBar
  rw [if_neg (not_not.mpr h0), if_pos h15, if_neg (not_not.mpr h0), zero_add, add_zero]

/-- The halo rows read back after the zero fill are the zero halo's last three rows. -/
theorem zeroRows_eq :
    (hM : Memref sig .tc .vmem S4x8x256 .f32).view.readCov [⟨rB, k0_pay3 (F := F)⟩] rH5.toLoadRect = haloRows (zeroHalo (F := F)) := by
  unfold View.readCov haloRows zeroHalo
  rw [View.writes_singleton]
  exact congrArg ((hM : Memref sig .tc .vmem S4x8x256 .f32).view.readAt (Elt F) rH5.toLoadRect)
    (Memref.write_access_unit_zero_univ (Elt F) cc0_scratch0 zeros3 _ _ _)

section Body
variable (K : Dev nD × Fin 4 → ℕ)

set_option maxHeartbeats 1600000 in
theorem sound_body_first (c : Dev nD) (h0 : c.val = 0) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) Kt := by
  have h15 : c.val ≠ 15 := by omega
  have hn0 : ¬ (c.val ≠ 0) := not_not.mpr h0
  have hc1 : ¬ k0_cond1 c = 1#1 := fun h => (cond1_iff c).mp h h0
  have hc2 : k0_cond2 c = 1#1 := (cond2_iff c).mpr h15
  have hc4 : ¬ k0_cond4 c = 1#1 := fun h => (cond4_iff c).mp h h0
  unfold bodyPre ghost invs payToks tokBar tokCred tokRecv tokSend creds credBar credRecv credCred
  rw [if_neg hn0, if_neg hn0, if_pos h15, if_pos h15, if_pos h15, if_neg hn0, if_pos h15]
  iintro ⟨⟨⟨⟨⟨#HIbar, #HIsnd, #HIrcv, #HIcrd, #HIbarP, #HIcrdP, #HIrcvN⟩, HatB, HatS, HatV, HatC, #HrBP, #HrCP, #HrVN, #HrS, #HrV, -, -, HtVN, HtS⟩,
      ⟨HcB, -, HcC⟩, #Hlev, ⟨%fh, Hhalo⟩, ⟨%fb, Hsend⟩⟩,
    Ho, ⟨%d0, %g0, %hg0, Hx⟩, ⟨%d1, %g1, %hg1, Hk⟩, ⟨%d2, %g2, %hg2, Hout⟩⟩, Hpost⟩
  have hnx : (nxt c).val ≠ 0 := nxt_val_ne_zero c h15
  have hx : g0 = xstg m ρ c := by rw [hg0]; unfold Dat.before; rw [if_pos (fetch0_0 t₀)]; rfl
  have hk : g1 = kstg m ρ c := by rw [hg1]; unfold Dat.before; rw [if_pos (fetch0_1 t₀)]; rfl
  subst hx; subst hk
  unfold Dat.owesAt Pipeline.owesWithin
  icases Ho with ⟨%W, %hW, HO⟩
  rw [show (dats m ρ 0 c).owed t₀.castSucc = O₀ c from rfl, O₀_first c h0]
  unfold haloPts sendPts
  have hd2 : (⟨k0_dev2 c, k0_dev2_lt c hc2⟩ : Dev nD) = nxt c := dev2_eq c hc2
  -- at its barrier wait the device owes the receive credit only: above the barrier's level
  have hmwB : (levAts L lv : sProp 𝕄) ⊢ MayWait (c : Thread nD τ) (.reg barS) () (tallyAt (recvCell (nxt c)) () N) := by
    have h := mayWait_bar (F := F) c
    unfold O₁ oCred oRecv at h
    rwa [if_neg hn0, if_pos h15, zero_add] at h
  sl_unfold [cc0_body]
  have hf : Scalar.cmpi .ne (Scalar.extui (wFirst c) : BitVec 32) 0#32 = 1#1 := (condFirst_iff c).mpr h0
  have hnl : Scalar.cmpi .ne (Scalar.extui (Scalar.xori (wLast c) 1#1) : BitVec 32) 0#32 = 1#1 := (condNotLast_iff c).mpr h15
  -- up to the store of the send buffer; then the send buffer named as what the device sends
  set_option sl_exec.maxSteps 10 in sl_exec
  rw [send_writes]
  ihave Hsend' := (send_restate m ρ c _ ?hs) $$ Hsend
  case hs => rfl
  sl_exec
  sl_unfold_run_names
  -- the three own cells close: the receive cell at round 0, where it never had a duty; the other two past their one duty
  imod (Rounds.cell_close ER (lineRd m ρ) (Set.mem_univ (K (c, 1))) (fun h => h) (R := 1) (duties_later m ρ (sendCell c))) $$ [HatS] with HzS
  · isplitr; · iexact HIsnd
    iexact HatS
  imod (Rounds.cell_close ER (lineRd m ρ) (Set.mem_univ (K (c, 2))) (fun h => h) (R := 0)
    (duties_idle_from m ρ (recvCell c) (not_active_recv c h0))) $$ [HatV] with HzV
  · isplitr; · iexact HIrcv
    iexact HatV
  imod (Rounds.cell_close ER (lineRd m ρ) (Set.mem_univ (K (c, 3))) (fun h => h) (R := 1) (duties_later m ρ (credCell c))) $$ [HatC] with HzC
  · isplitr; · iexact HIcrd
    iexact HatC
  rw [wp_ret]; imodintro
  iapply Hpost
  unfold bodyPost Φ₁ Dat.owesAt Pipeline.owesWithin haloPts sendPts
  rw [show (dats m ρ 0 c).owed t₀.succ = 0 from rfl]
  isplitl [Hhalo HatS_pay1 HzS HzV HzC]
  · isplitl [Hhalo]; · iexists _; iexact Hhalo
    isplitl [HatS_pay1]; · iexists _; iexact HatS_pay1
    isplitl [HzS]; · iexact HzS
    isplitl [HzV]; · iexact HzV
    iexact HzC
  isplitl [HO]
  · iexists _
    isplitr
    rotate_left
    · iexact HO
    · ipureintro; exact fun _ _ => Or.inl trivial
  isplitl [Hx]
  · iexists _; isplitr; · (ipureintro; rfl)
    iexact Hx
  isplitl [Hk]
  · iexists _; isplitr; · (ipureintro; rfl)
    iexact Hk
  -- the result buffer after the two stores is the device's result block: the halo rows read are the zero halo's
  iapply (stg_out_of m ρ c _ ?hout) $$ Hout
  case hout =>
    rw [zeroRows_eq]
    refine Eq.trans (b := outOf g2 (mainPart (xstg m ρ c) (kstg m ρ c)) (haloPart (xstg m ρ c) (kstg m ρ c) (zeroHalo (F := F)))) rfl ?_
    unfold outAt halo
    rw [if_pos h0]
    exact outOf_congr _ _ _ _

/-- info: 'Cert.KernelIdealProof.sound_body_first' depends on axioms: [propext, Classical.choice, Quot.sound] -/
#guard_msgs in #print axioms sound_body_first

end Body

end Cert.KernelIdealProof

end
-- ==== Proof.KernelIdeal.BodyMid.lean ====
/-
  The body on a device strictly inside the line: it signals the barrier of the device before it; stores the block's
  last eight rows in its send buffer; waits on its own barrier — the device after it is inside the kernel and has
  handed over its halo — and copies the send buffer into that halo; computes rows 3 … 511; waits for the copy from
  the device before it, whose last eight rows its halo now holds, and grants that device its credit; computes rows
  0 … 2 from the halo's last three rows and the block's first three; waits for its own copy to have left and for
  the credit of the device after it. The three own cells are then at round 1, past their one duty, and are closed.
-/
import proofs.«900434_g7700000000000435_dist_gconv1d_seqshard_i_b4_s512_c256_v7x_i16_bf16_1_alg».proof.Proof.KernelIdeal.BodyBase

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] dutiesT_bar dutiesT_send dutiesT_recv dutiesT_cred amount_bar amount_cred amount_send amount_recv
  payT_bar payT_recv payT_send payload_cred expect_bar expect_cred expect_send expect_recv haloPts sendPts
attribute [local sl_rounds high] payT_bar_prv payT_recv_nxt

section Body
variable (K : Dev nD × Fin 4 → ℕ)

set_option maxHeartbeats 1600000 in
theorem sound_body_mid (c : Dev nD) (h0 : c.val ≠ 0) (h15 : c.val ≠ 15) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) Kt := by
  have hc1 : k0_cond1 c = 1#1 := (cond1_iff c).mpr h0
  have hc2 : k0_cond2 c = 1#1 := (cond2_iff c).mpr h15
  have hc4 : k0_cond4 c = 1#1 := (cond4_iff c).mpr h0
  unfold bodyPre ghost invs payToks tokBar tokCred tokRecv tokSend creds credBar credRecv credCred
  rw [if_pos h0, if_pos h0, if_pos h15, if_pos h15, if_pos h15, if_pos h0, if_pos h15]
  iintro ⟨⟨⟨⟨⟨#HIbar, #HIsnd, #HIrcv, #HIcrd, #HIbarP, #HIcrdP, #HIrcvN⟩, HatB, HatS, HatV, HatC, #HrBP, #HrCP, #HrVN, #HrS, #HrV, HtBP, HtCP, HtVN, HtS⟩,
      ⟨HcB, HcV, HcC⟩, #Hlev, ⟨%fh, Hhalo⟩, ⟨%fb, Hsend⟩⟩,
    Ho, ⟨%d0, %g0, %hg0, Hx⟩, ⟨%d1, %g1, %hg1, Hk⟩, ⟨%d2, %g2, %hg2, Hout⟩⟩, Hpost⟩
  have hp15 : (prv c).val ≠ 15 := prv_val_ne_last c h0
  have hn0 : (nxt c).val ≠ 0 := nxt_val_ne_zero c h15
  have hx : g0 = xstg m ρ c := by rw [hg0]; unfold Dat.before; rw [if_pos (fetch0_0 t₀)]; rfl
  have hk : g1 = kstg m ρ c := by rw [hg1]; unfold Dat.before; rw [if_pos (fetch0_1 t₀)]; rfl
  subst hx; subst hk
  unfold Dat.owesAt Pipeline.owesWithin
  icases Ho with ⟨%W, %hW, HO⟩
  rw [show (dats m ρ 0 c).owed t₀.castSucc = O₀ c from rfl, O₀_mid c h0 h15]
  unfold haloPts sendPts
  have hd1 : (⟨k0_dev1 c, k0_dev1_lt c hc1⟩ : Dev nD) = prv c := dev1_eq c hc1
  have hd2 : (⟨k0_dev2 c, k0_dev2_lt c hc2⟩ : Dev nD) = nxt c := dev2_eq c hc2
  have hd3 : (⟨k0_dev3 c, k0_dev3_lt c hc4⟩ : Dev nD) = prv c := dev3_eq c hc4
  have hmwB : (levAts L lv : sProp 𝕄) ⊢ MayWait (c : Thread nD τ) (.reg barS) ()
      (tallyAt (credCell (prv c)) () 1 + tallyAt (recvCell (nxt c)) () N) := by
    have h := mayWait_bar (F := F) c
    unfold O₁ oCred oRecv at h
    rwa [if_pos h0, if_pos h15] at h
  have hmwV : (levAts L lv : sProp 𝕄) ⊢ MayWait (c : Thread nD τ) (.dma recvS.sem) () (tallyAt (credCell (prv c)) () 1) := by
    have h := mayWait_recv (F := F) c
    unfold oCred at h
    rwa [if_pos h0] at h
  sl_unfold [cc0_body]
  have hnf : ¬ (Scalar.cmpi .ne (Scalar.extui (wFirst c) : BitVec 32) 0#32 = 1#1) := fun h => h0 ((condFirst_iff c).mp h)
  have hnl : Scalar.cmpi .ne (Scalar.extui (Scalar.xori (wLast c) 1#1) : BitVec 32) 0#32 = 1#1 := (condNotLast_iff c).mpr h15
  set_option sl_exec.maxSteps 16 in sl_exec
  rw [send_writes]
  ihave Hsend' := (send_restate m ρ c _ ?hs) $$ Hsend
  case hs => rfl
  sl_exec
  -- the three own cells close: their counters at zero are the device's again
  imod (Rounds.cell_close ER (lineRd m ρ) (Set.mem_univ (K (c, 1))) (fun h => h) (R := 1) (duties_later m ρ (sendCell c))) $$ [HatS] with HzS
  · isplitr; · iexact HIsnd
    iexact HatS
  imod (Rounds.cell_close ER (lineRd m ρ) (Set.mem_univ (K (c, 2))) (fun h => h) (R := 1) (duties_later m ρ (recvCell c))) $$ [HatV] with HzV
  · isplitr; · iexact HIrcv
    iexact HatV
  imod (Rounds.cell_close ER (lineRd m ρ) (Set.mem_univ (K (c, 3))) (fun h => h) (R := 1) (duties_later m ρ (credCell c))) $$ [HatC] with HzC
  · isplitr; · iexact HIcrd
    iexact HatC
  rw [wp_ret]; imodintro
  iapply Hpost
  unfold bodyPost Φ₁ Dat.owesAt Pipeline.owesWithin haloPts sendPts
  rw [show (dats m ρ 0 c).owed t₀.succ = 0 from rfl]
  isplitl [HatV_pay1 HatS_pay1 HzS HzV HzC]
  · isplitl [HatV_pay1]; · iexists _; iexact HatV_pay1
    isplitl [HatS_pay1]; · iexists _; iexact HatS_pay1
    isplitl [HzS]; · iexact HzS
    isplitl [HzV]; · iexact HzV
    iexact HzC
  isplitl [HO]
  · iexists _
    isplitr
    rotate_left
    · iexact HO
    · ipureintro; exact fun _ _ => Or.inl trivial
  isplitl [Hx]
  · iexists _; isplitr; · (ipureintro; rfl)
    iexact Hx
  isplitl [Hk]
  · iexists _; isplitr; · (ipureintro; rfl)
    iexact Hk
  iapply (stg_out_of m ρ c _ ?hout) $$ Hout
  case hout =>
    refine Eq.trans (b := outOf g2 (mainPart (xstg m ρ c) (kstg m ρ c)) (haloPart (xstg m ρ c) (kstg m ρ c) (sent m ρ (prv c)))) rfl ?_
    unfold outAt; rw [halo_of_ne m ρ c h0]
    exact outOf_congr _ _ _ _

/-- info: 'Cert.KernelIdealProof.sound_body_mid' depends on axioms: [propext, Classical.choice, Quot.sound] -/
#guard_msgs in #print axioms sound_body_mid

end Body

end Cert.KernelIdealProof

end
-- ==== Proof.KernelIdeal.BodyLast.lean ====
/-
  The body on the LAST device of the line. It has no right neighbour: it does not wait on its barrier, copies
  nothing, and neither its send cell nor its credit cell is ever paid. It signals the barrier of the device before
  it — handing over its halo buffer and that its receive cell is at round 0 —; stores the block's last eight rows in
  its send buffer (nobody reads them); computes rows 3 … 511 of the result; waits for the copy from the device before
  it, owing only that device's credit unit, and finds that device's last eight rows in its halo; grants the credit;
  computes rows 0 … 2 from the halo's last three rows and the block's first three. At the end its receive cell is at
  round 1, past its one duty, and its send and credit cells, which have no duty at all on this device, still at
  round 0: all three are closed, their counters at zero the device's again.
-/
import proofs.«900434_g7700000000000435_dist_gconv1d_seqshard_i_b4_s512_c256_v7x_i16_bf16_1_alg».proof.Proof.KernelIdeal.BodyBase

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] dutiesT_bar dutiesT_send dutiesT_recv dutiesT_cred amount_bar amount_cred amount_send amount_recv
  payT_bar payT_recv payT_send payload_cred expect_bar expect_cred expect_send expect_recv haloPts sendPts
attribute [local sl_rounds high] payT_bar_prv payT_recv_nxt

section Body
variable (K : Dev nD × Fin 4 → ℕ)

omit [FloatOps F] in
/-- What the last device owes at launch: one credit unit and one barrier unit to the device before it (it sends nothing). -/
theorem O₀_last (c : Dev nD) (h15 : c.val = 15) :
    O₀ c = tallyAt (credCell (prv c)) () 1 + tallyAt (barCell (prv c)) () 1 := by
  have h0 : c.val ≠ 0 := by omega
  have hn15 : ¬ c.val ≠ 15 := fun h => h h15
  unfold O₀ O₁ oCred oRecv oBar; rw [if_pos h0, if_neg hn15, if_pos h0, add_zero]

set_option maxHeartbeats 1600000 in
theorem sound_body_last (c : Dev nD) (h15 : c.val = 15) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) Kt := by
  have h0 : c.val ≠ 0 := by omega
  have hn15 : ¬ c.val ≠ 15 := fun h => h h15
  have hc1 : k0_cond1 c = 1#1 := (cond1_iff c).mpr h0
  have hc2 : ¬ k0_cond2 c = 1#1 := fun h => (cond2_iff c).mp h h15
  have hc4 : k0_cond4 c = 1#1 := (cond4_iff c).mpr h0
  unfold bodyPre ghost invs payToks tokBar tokCred tokRecv tokSend creds credBar credRecv credCred
  rw [if_pos h0, if_pos h0, if_pos h0, if_neg hn15, if_neg hn15, if_neg hn15, if_neg hn15]
  iintro ⟨⟨⟨⟨⟨#HIbar, #HIsnd, #HIrcv, #HIcrd, #HIbarP, #HIcrdP, #HIrcvN⟩, HatB, HatS, HatV, HatC, #HrBP, #HrCP, #HrVN, #HrS, #HrV, HtBP, HtCP, -, -⟩,
      ⟨-, HcV, -⟩, #Hlev, ⟨%fh, Hhalo⟩, ⟨%fb, Hsend⟩⟩,
    Ho, ⟨%d0, %g0, %hg0, Hx⟩, ⟨%d1, %g1, %hg1, Hk⟩, ⟨%d2, %g2, %hg2, Hout⟩⟩, Hpost⟩
  have hp15 : (prv c).val ≠ 15 := prv_val_ne_last c h0
  have hx : g0 = xstg m ρ c := by rw [hg0]; unfold Dat.before; rw [if_pos (fetch0_0 t₀)]; rfl
  have hk : g1 = kstg m ρ c := by rw [hg1]; unfold Dat.before; rw [if_pos (fetch0_1 t₀)]; rfl
  subst hx; subst hk
  unfold Dat.owesAt Pipeline.owesWithin
  icases Ho with ⟨%W, %hW, HO⟩
  rw [show (dats m ρ 0 c).owed t₀.castSucc = O₀ c from rfl, O₀_last c h15]
  unfold haloPts sendPts
  have hd1 : (⟨k0_dev1 c, k0_dev1_lt c hc1⟩ : Dev nD) = prv c := dev1_eq c hc1
  have hd3 : (⟨k0_dev3 c, k0_dev3_lt c hc4⟩ : Dev nD) = prv c := dev3_eq c hc4
  have hmwV : (levAts L lv : sProp 𝕄) ⊢ MayWait (c : Thread nD τ) (.dma recvS.sem) () (tallyAt (credCell (prv c)) () 1) := by
    have h := mayWait_recv (F := F) c
    unfold oCred at h
    rwa [if_pos h0] at h
  sl_unfold [cc0_body]
  have hnf : ¬ (Scalar.cmpi .ne (Scalar.extui (wFirst c) : BitVec 32) 0#32 = 1#1) := fun h => h0 ((condFirst_iff c).mp h)
  have hnl : ¬ (Scalar.cmpi .ne (Scalar.extui (Scalar.xori (wLast c) 1#1) : BitVec 32) 0#32 = 1#1) := fun h => (condNotLast_iff c).mp h h15
  sl_exec
  -- the three own cells are closed: the send and credit cells of the last device have no duty at all, the receive cell none after round 0
  imod (Rounds.cell_close ER (lineRd m ρ) (κ := K (c, 1)) (Set.mem_univ _) (fun h => h)
      (duties_idle_from m ρ (sendCell c) (not_active_send c h15))) $$ [HatS] with HzS
  · isplitr; · iexact HIsnd
    iexact HatS
  imod (Rounds.cell_close ER (lineRd m ρ) (κ := K (c, 2)) (R := 1) (Set.mem_univ _) (fun h => h)
      (duties_later m ρ (recvCell c))) $$ [HatV] with HzV
  · isplitr; · iexact HIrcv
    iexact HatV
  imod (Rounds.cell_close ER (lineRd m ρ) (κ := K (c, 3)) (Set.mem_univ _) (fun h => h)
      (duties_idle_from m ρ (credCell c) (not_active_cred c h15))) $$ [HatC] with HzC
  · isplitr; · iexact HIcrd
    iexact HatC
  sl_step
  iapply Hpost
  unfold bodyPost Φ₁
  isplitl [HatV_pay1 Hsend HzS HzV HzC]
  · isplitl [HatV_pay1]; · iexists _; unfold haloPts; iexact HatV_pay1
    isplitl [Hsend]; · iexists _; unfold sendPts; iexact Hsend
    isplitl [HzS]; · iexact HzS
    isplitl [HzV] <;> iassumption
  isplitl [HO]
  · unfold Dat.owesAt Pipeline.owesWithin
    iexists (insert (SemLoc.dma (SemArray.sem cc0_scratch3), ()) W)
    isplitr; · ipureintro; exact fun _ _ => Set.mem_union_left _ (Set.mem_univ _)
    iexact HO
  isplitl [Hx]; · iexists _; isplitr; · (ipureintro; rfl)
                  iexact Hx
  isplitl [Hk]; · iexists _; isplitr; · (ipureintro; rfl)
                  iexact Hk
  iexists _
  isplitr
  swap
  · iexact Hout
  · ipureintro
    unfold outAt
    rw [halo_of_ne m ρ c h0, outOf_congr (blank (F := F)) g2]
    rfl

/-- info: 'Cert.KernelIdealProof.sound_body_last' depends on axioms: [propext, Classical.choice, Quot.sound] -/
#guard_msgs in #print axioms sound_body_last

end Body

end Cert.KernelIdealProof

end
-- ==== Proof.KernelIdeal.Body.lean ====
/-
  The body on every device, and the library's body obligation.

  A device of the line is the first (no left neighbour), the last (no right neighbour) or strictly inside; the three
  modules before this one run the body on each kind from the same precondition to the same postcondition: from the
  line's ghost state, the device's launch credit, the level facts, its two scoped buffers at any contents, what it owes
  at launch and its three staging buffers — the block of the input and the taps as launched, the result's at any
  contents — to the two scoped buffers at some contents, its three own cells closed with their counters at zero,
  nothing owed, the inputs' staging buffers unchanged and the result's staging buffer holding the result block.

  The pipeline has one grid point, so the library's obligation is that run, once: its precondition is the invariant
  before the point, opened at the names the launch allocated the cells' invariants at, and its postcondition the
  invariant after it with the three staging buffers at what the body leaves.
-/
import proofs.«900434_g7700000000000435_dist_gconv1d_seqshard_i_b4_s512_c256_v7x_i16_bf16_1_alg».proof.Proof.KernelIdeal.BodyFirst
import proofs.«900434_g7700000000000435_dist_gconv1d_seqshard_i_b4_s512_c256_v7x_i16_bf16_1_alg».proof.Proof.KernelIdeal.BodyMid
import proofs.«900434_g7700000000000435_dist_gconv1d_seqshard_i_b4_s512_c256_v7x_i16_bf16_1_alg».proof.Proof.KernelIdeal.BodyLast

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 4 → ℕ)

/-- The body on any device: the first, the last, or one strictly inside the line. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) Kt := by
  by_cases h0 : c.val = 0
  · exact sound_body_first m ρ K c h0 Kt
  · by_cases h15 : c.val = 15
    · exact sound_body_last m ρ K c h15 Kt
    · exact sound_body_mid m ρ K c h0 h15 Kt

/-- What the library's obligation starts from at the one point: the invariant before the point, what the device owes,
    and the three staging buffers at what they then hold. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The library's body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3 cc0_scoped0) (fun _ => bodyPost m ρ c)
  unfold bodyPre' Φ₀ start
  iintro ⟨⟨⟨⟨%K, Hg⟩, Hcr, Hlev⟩, Hh, Hb⟩, Ho, Hx, Hk, Hout⟩
  iapply (sound_body m ρ K c fun _ => bodyPost m ρ c)
  unfold bodyPre
  isplitr []
  · isplitl [Hg Hcr Hlev Hh Hb]
    · isplitl [Hg]; · iexact Hg
      isplitl [Hcr]; · iexact Hcr
      isplitl [Hlev]; · iexact Hlev
      isplitl [Hh] <;> iassumption
    isplitl [Ho]; · iexact Ho
    isplitl [Hx]; · iexact Hx
    isplitl [Hk] <;> iassumption
  · iintro H; iexact H

/-- info: 'Cert.KernelIdealProof.body_obligation' depends on axioms: [propext, Classical.choice, Quot.sound] -/
#guard_msgs in #print axioms body_obligation

end Body

end Cert.KernelIdealProof

end
-- ==== Proof.ConvSpec.lean ====
/-
  The mathematics both programs compute, with no program in sight.

  A depthwise causal convolution with four taps along the sequence axis, followed by the gate
  `y ↦ y / (1 + e^{-y})`. At one output position the value depends on four consecutive rows
  `a0 … a3` of the (zero-padded) input at one batch entry and channel, and on the four taps
  `k0 … k3` of that channel:

      conv4 a k = gate (a0·k0 + a1·k1 + a2·k2 + a3·k3).

  Everything is on the extended reals, where `+` is commutative and associative with neutral
  element `0` at the infinities too, so the order in which the four products are added does not
  matter and no finiteness is needed: the one-device program adds them in the order 0, 1, 2, 3
  onto a zero, the sharded program starts from the last product and adds 0, 1, 2.
  The sharded program writes the negation in the gate as `0 - y`; on the extended reals
  `0 - y = 0 + -y = -y`. The two spellings of the constant one (a bf16 and an f32 pattern) both
  denote `1`, and both zero patterns denote `0`.
-/
import Idealize.ShloMosaic.PureOps.Ideal
import Idealize.ShloMosaic.PureOps.IdealRules
import Idealize.ShloMosaic.Lib.ValueIdx

noncomputable section

namespace Cert.Conv

open Idealize.ShloMosaic

/-- The gate `y / (1 + e^{-y})` on the extended reals (the quotient and the exponential with the
    ideal instance's conventions at the infinities and at a zero divisor). -/
def gate (y : EReal) : EReal := Ideal.div y (1 + Ideal.exp (-y))

/-- The four-tap sum `a0·k0 + a1·k1 + a2·k2 + a3·k3`, associated to the left. -/
def tap4 (a0 a1 a2 a3 k0 k1 k2 k3 : EReal) : EReal := ((a0 * k0 + a1 * k1) + a2 * k2) + a3 * k3

/-- One output element: the gate of the four-tap sum. -/
def conv4 (a0 a1 a2 a3 k0 k1 k2 k3 : EReal) : EReal := gate (tap4 a0 a1 a2 a3 k0 k1 k2 k3)

/-- Starting from the LAST product and adding the first three is the same sum. -/
theorem tap4_last_first (a0 a1 a2 a3 k0 k1 k2 k3 : EReal) :
    ((a3 * k3 + a0 * k0) + a1 * k1) + a2 * k2 = tap4 a0 a1 a2 a3 k0 k1 k2 k3 := by
  unfold tap4
  rw [add_comm (a3 * k3) (a0 * k0), add_assoc, add_assoc, add_comm (a3 * k3), ← add_assoc, ← add_assoc]

/-- Adding the four products, in order, onto a zero is the same sum. -/
theorem tap4_onto_zero (a0 a1 a2 a3 k0 k1 k2 k3 : EReal) :
    (((0 + a0 * k0) + a1 * k1) + a2 * k2) + a3 * k3 = tap4 a0 a1 a2 a3 k0 k1 k2 k3 := by
  unfold tap4
  rw [zero_add]

/-- On the extended reals `0 - y` is `-y`. -/
theorem zero_sub_eq_neg (y : EReal) : 0 - y = -y := zero_sub y

/-- The bf16 pattern of one denotes `1`. -/
theorem one_bf16 : Ideal.ofBits .bf16 0x3F80#16 = 1 := IdealRules.sign_bit.ideal_onePat .bf16
/-- The f32 pattern of one denotes `1`. -/
theorem one_f32 : Ideal.ofBits .f32 0x3F800000#32 = 1 := IdealRules.sign_bit.ideal_onePat .f32
/-- The bf16 zero pattern denotes `0`. -/
theorem zero_bf16 : Ideal.ofBits .bf16 0x0000#16 = 0 := IdealRules.sign_bit.ideal_zero .bf16
/-- The f32 zero pattern denotes `0`. -/
theorem zero_f32 : Ideal.ofBits .f32 0x00000000#32 = 0 := IdealRules.sign_bit.ideal_zero .f32

/-- The gate as the sharded program spells it: one as a bf16 pattern, the negation as `0 - y`. -/
theorem gate_sub_form (y : EReal) :
    Ideal.div y (Ideal.ofBits .bf16 0x3F80#16 + Ideal.exp (Ideal.ofBits .bf16 0x0000#16 - y)) = gate y := by
  unfold gate
  rw [one_bf16, zero_bf16, zero_sub_eq_neg]

/-- The gate as the one-device program spells it: one as an f32 pattern, the negation itself. -/
theorem gate_neg_form (y : EReal) :
    Ideal.div y (Ideal.ofBits .f32 0x3F800000#32 + Ideal.exp (-y)) = gate y := by
  unfold gate
  rw [one_f32]

/-- info: 'Cert.Conv.gate_sub_form' depends on axioms: [propext, Classical.choice, Quot.sound] -/
#guard_msgs in #print axioms gate_sub_form

end Cert.Conv

end
-- ==== Proof.ConvLayout.lean ====
/-
  Two layout readings shared by the main part and the halo part of the sharded program's arithmetic, over literal
  shapes and with no program in sight.

  * A window of `n` consecutive rows starting at row `o` of an array `[4, N, 256]`, read at `(b, r, ch)`, is the array
    at `(b, o + r, ch)`.
  * Tap `t` of the `[4, 256]` tap array — sliced out as a `[1, 256]` row, flattened to `[256]`, viewed `[1, 1, 256]`
    and broadcast over batch and rows to `[4, n, 256]` — read at `(b, r, ch)` is the tap array at `(t, ch)`: the value
    depends on the channel alone.
-/
import Idealize.ShloMosaic.Lib.ValueIdx
import Idealize.ShloMosaic.Lib.Pipeline.Value

noncomputable section

namespace Cert.Conv

open Idealize.ShloMosaic Idealize.ShloMosaic.ValueIdx

/-- A window of rows read at an index: the array, `o` rows further down. -/
theorem slice_rows {α : Type} {n N : Nat} (v : (⟨3, ![4, N, 256]⟩ : Shape).Idx → α) (o : Nat)
    (h : (⟨3, ![4, N, 256]⟩ : Shape).Slices ![0, o, 0] ⟨3, ![4, n, 256]⟩) (b : Fin 4) (r : Fin n) (ch : Fin 256)
    (hb : o + r.val < N) :
    extractStridedSlice ⟨3, ![4, n, 256]⟩ ![0, o, 0] v h (ix3 b r ch) = v (ix3 b ⟨o + r.val, hb⟩ ch) :=
  extractStridedSlice_apply ![0, o, 0] v h (ix3 b r ch) (ix3 b ⟨o + r.val, hb⟩ ch) (fun a => match a with
    | ⟨0, _⟩ => by show b.val = 0 + b.val; omega
    | ⟨1, _⟩ => rfl
    | ⟨2, _⟩ => by show ch.val = 0 + ch.val; omega)

/-- One tap, broadcast over batch and rows, read at an index: the tap array at `(t, ch)`. -/
theorem tap_read {α : Type} {n : Nat} (kv : (⟨2, ![4, 256]⟩ : Shape).Idx → α) (t : Nat) (ht : t < 4)
    (h1 : (⟨2, ![4, 256]⟩ : Shape).Slices ![t, 0] ⟨2, ![1, 256]⟩)
    (h2 : (⟨2, ![1, 256]⟩ : Shape).ShapeCasts ⟨1, ![256]⟩)
    (h3 : (⟨1, ![256]⟩ : Shape).ShapeCasts ⟨3, ![1, 1, 256]⟩)
    (h4 : (⟨3, ![1, 1, 256]⟩ : Shape).Broadcasts ⟨3, ![4, n, 256]⟩) (b : Fin 4) (r : Fin n) (ch : Fin 256) :
    broadcastTo ⟨3, ![4, n, 256]⟩
        (shapeCast ⟨3, ![1, 1, 256]⟩ (shapeCast ⟨1, ![256]⟩ (extractStridedSlice ⟨2, ![1, 256]⟩ ![t, 0] kv h1) h2) h3) h4
        (ix3 b r ch)
      = kv (ix2 ⟨t, ht⟩ ch) := by
  refine (broadcastTo_apply _ h4 (ix3 b r ch) (ix3 (⟨0, Nat.one_pos⟩ : Fin 1) (⟨0, Nat.one_pos⟩ : Fin 1) ch) ?_).trans ?_
  · intro a
    match a with
    | ⟨0, _⟩ => rfl
    | ⟨1, _⟩ => rfl
    | ⟨2, _⟩ => rfl
  refine (shapeCast_apply _ h3 (ix3 (⟨0, Nat.one_pos⟩ : Fin 1) (⟨0, Nat.one_pos⟩ : Fin 1) ch) (ix1 ch) ?_).trans ?_
  · rw [Shape.rowMajor_val_one, Shape.rowMajor_val_three]
    show ch.val = (0 * 1 + 0) * 256 + ch.val
    omega
  refine (shapeCast_apply _ h2 (ix1 ch) (ix2 (⟨0, Nat.one_pos⟩ : Fin 1) ch) ?_).trans ?_
  · rw [Shape.rowMajor_val_two, Shape.rowMajor_val_one]
    show 0 * 256 + ch.val = ch.val
    omega
  exact extractStridedSlice_apply ![t, 0] kv h1 (ix2 (⟨0, Nat.one_pos⟩ : Fin 1) ch) (ix2 ⟨t, ht⟩ ch) (fun a => match a with
    | ⟨0, _⟩ => by show t = t + 0; omega
    | ⟨1, _⟩ => by show ch.val = 0 + ch.val; omega)

/-- info: 'Cert.Conv.tap_read' depends on axioms: [propext, Classical.choice, Quot.sound] -/
#guard_msgs in #print axioms tap_read

end Cert.Conv

end
-- ==== Proof.PayMain.lean ====
/-
  The main part of a device's result, read at one index.

  Rows 3 … 511 of a device's result block depend on the device's own block `x` of the input and on the taps alone:
  the element at batch entry `b`, row `r + 3` (`r` from 0 to 508) and channel `ch` is the gate of the four-tap sum of
  rows `r, r + 1, r + 2, r + 3` of the block at `(b, ·, ch)`. The program rounds both operands to bf16 first (the
  identity on the extended reals), takes the four windows of 509 rows at offsets 3, 0, 1, 2, multiplies each by its
  tap broadcast over batch and rows, and adds the products starting from the LAST one; the gate's negation is written
  `0 - y`. Each window and each tap is read by its layout lemma, and the order of the sum and the spelling of the gate
  are the specification's two laws.
-/
import proofs.«900434_g7700000000000435_dist_gconv1d_seqshard_i_b4_s512_c256_v7x_i16_bf16_1_alg».proof.Proof.Gen.KernelIdeal.Skeleton
import proofs.«900434_g7700000000000435_dist_gconv1d_seqshard_i_b4_s512_c256_v7x_i16_bf16_1_alg».proof.Proof.ConvSpec
import proofs.«900434_g7700000000000435_dist_gconv1d_seqshard_i_b4_s512_c256_v7x_i16_bf16_1_alg».proof.Proof.ConvLayout

noncomputable section

namespace Cert.Conv

open Idealize.ShloMosaic Idealize.ShloMosaic.ValueIdx Cert.KernelIdeal Cert.KernelIdeal.Gen

/-- Rounding the block to bf16 changes nothing on the extended reals. -/
theorem pay4_eq (x : Vec Ideal S4x512x256 .f32) : k0_pay4 (F := Ideal) x = x := by
  unfold k0_pay4
  funext i
  show shapeCast S4x512x256 x _ i = x i
  rw [shapeCast_self]

/-- Nor does rounding the taps. -/
theorem pay5_eq (kk : Vec Ideal S4x256 .f32) : k0_pay5 (F := Ideal) kk = kk := by
  unfold k0_pay5
  funext i
  show shapeCast S4x256 kk _ i = kk i
  rw [shapeCast_self]

/-- The four-tap sum the main part accumulates, at `(b, r, ch)`: rows `r … r + 3` of the block against the four taps. -/
theorem pay6_apply (x : Vec Ideal S4x512x256 .f32) (kk : Vec Ideal S4x256 .f32) (b : Fin 4) (r : Fin 509) (ch : Fin 256) :
    k0_pay6 (F := Ideal) x kk (ix3 b r ch)
      = tap4 (x (ix3 b ⟨0 + r.val, by omega⟩ ch)) (x (ix3 b ⟨1 + r.val, by omega⟩ ch))
          (x (ix3 b ⟨2 + r.val, by omega⟩ ch)) (x (ix3 b ⟨3 + r.val, by omega⟩ ch))
          (kk (ix2 ⟨0, by omega⟩ ch)) (kk (ix2 ⟨1, by omega⟩ ch)) (kk (ix2 ⟨2, by omega⟩ ch)) (kk (ix2 ⟨3, by omega⟩ ch)) := by
  unfold k0_pay6
  rw [pay4_eq, pay5_eq]
  simp only [addf_apply, mulf_apply]
  rw [slice_rows x 3 _ b r ch (by omega), slice_rows x 0 _ b r ch (by omega), slice_rows x 1 _ b r ch (by omega),
    slice_rows x 2 _ b r ch (by omega),
    tap_read kk 3 (by omega), tap_read kk 0 (by omega), tap_read kk 1 (by omega), tap_read kk 2 (by omega)]
  exact tap4_last_first _ _ _ _ _ _ _ _

/-- THE MAIN PART AT AN INDEX: the gate of the four-tap sum of rows `r … r + 3` of the block. -/
theorem pay_main_apply (x : Vec Ideal S4x512x256 .f32) (kk : Vec Ideal S4x256 .f32) (b : Fin 4) (r : Fin 509) (ch : Fin 256) :
    k0_pay8 (F := Ideal) (k0_pay6 x kk) (k0_pay7 x kk) (ix3 b r ch)
      = conv4 (x (ix3 b ⟨0 + r.val, by omega⟩ ch)) (x (ix3 b ⟨1 + r.val, by omega⟩ ch))
          (x (ix3 b ⟨2 + r.val, by omega⟩ ch)) (x (ix3 b ⟨3 + r.val, by omega⟩ ch))
          (kk (ix2 ⟨0, by omega⟩ ch)) (kk (ix2 ⟨1, by omega⟩ ch)) (kk (ix2 ⟨2, by omega⟩ ch)) (kk (ix2 ⟨3, by omega⟩ ch)) := by
  unfold k0_pay8 k0_pay7
  show Ideal.div (k0_pay6 x kk (ix3 b r ch))
      (Ideal.ofBits .bf16 0x3F80#16 + Ideal.exp (Ideal.ofBits .bf16 0x0000#16 - k0_pay6 x kk (ix3 b r ch))) = _
  rw [gate_sub_form, pay6_apply]
  rfl

/-- info: 'Cert.Conv.pay_main_apply' depends on axioms: [propext, Classical.choice, Quot.sound] -/
#guard_msgs in #print axioms pay_main_apply

end Cert.Conv

end
-- ==== Proof.PayHalo.lean ====
/-
  The halo part of a device's result, read at one index.

  Rows 0 … 2 of a device's result block need the three rows that precede the block in the whole sequence. The program
  joins the three halo rows `h` (what the device reads from its halo buffer) and the first three rows of its own block `x`
  into six rows, `pad6 h x`: rows 0 … 2 are `h`, rows 3 … 5 are rows 0 … 2 of `x`. The element of the result at batch
  entry `b`, row `r` (0 … 2) and channel `ch` is the gate of the four-tap sum of rows `r … r + 3` of those six rows at
  `(b, ·, ch)`. As in the main part the products are added starting from the last one and the gate's negation is `0 - y`.
-/
import proofs.«900434_g7700000000000435_dist_gconv1d_seqshard_i_b4_s512_c256_v7x_i16_bf16_1_alg».proof.Proof.Gen.KernelIdeal.Skeleton
import proofs.«900434_g7700000000000435_dist_gconv1d_seqshard_i_b4_s512_c256_v7x_i16_bf16_1_alg».proof.Proof.ConvSpec
import proofs.«900434_g7700000000000435_dist_gconv1d_seqshard_i_b4_s512_c256_v7x_i16_bf16_1_alg».proof.Proof.ConvLayout

noncomputable section

namespace Cert.Conv

open Idealize.ShloMosaic Idealize.ShloMosaic.ValueIdx Cert.KernelIdeal Cert.KernelIdeal.Gen

/-- The six rows the halo part convolves: three halo rows, then the block's first three rows. -/
def pad6 (h : (⟨3, ![4, 3, 256]⟩ : Shape).Idx → EReal) (x : (⟨3, ![4, 512, 256]⟩ : Shape).Idx → EReal)
    (b : Fin 4) (j : Fin 6) (ch : Fin 256) : EReal :=
  if hj : j.val < 3 then h (ix3 b ⟨j.val, hj⟩ ch) else x (ix3 b ⟨j.val - 3, by omega⟩ ch)

/-- An exponential at an index is the exponential of the element. -/
theorem exp_apply {s : Shape} {φ : FTy} (a : FVec Ideal s φ) (i : s.Idx) : exp a i = Ideal.exp (a i) := rfl

/-- The join of two three-row pieces along the rows, read at `(b, j, ch)`: the first piece at row `j` below three, else
    the second at row `j - 3`. -/
theorem concat_rows (h x3 : (⟨3, ![4, 3, 256]⟩ : Shape).Idx → EReal)
    (hc : Shape.Concatenates [(⟨3, ![4, 3, 256]⟩ : Shape), ⟨3, ![4, 3, 256]⟩] ⟨3, ![4, 6, 256]⟩ 1)
    (b : Fin 4) (j : Fin 6) (ch : Fin 256) :
    concatenate ⟨3, ![4, 6, 256]⟩ 1 [⟨⟨3, ![4, 3, 256]⟩, h⟩, ⟨⟨3, ![4, 3, 256]⟩, x3⟩] hc (ix3 b j ch)
      = if hj : j.val < 3 then h (ix3 b ⟨j.val, hj⟩ ch) else x3 (ix3 b ⟨j.val - 3, by omega⟩ ch) := by
  by_cases hj : j.val < 3
  · rw [dif_pos hj]
    refine concatenate_pair_apply_left (1 : Fin 3) h x3 hc (ix3 b j ch) rfl (ix3 b ⟨j.val, hj⟩ ch) (fun a => ?_)
    match a with
    | ⟨0, _⟩ => rfl
    | ⟨1, _⟩ => rfl
    | ⟨2, _⟩ => rfl
  · rw [dif_neg hj]
    refine concatenate_pair_apply_right (1 : Fin 3) h x3 hc (ix3 b j ch) rfl rfl (ix3 b ⟨j.val - 3, by omega⟩ ch) (fun a ha => ?_) ?_
    · match a with
      | ⟨0, _⟩ => rfl
      | ⟨1, _⟩ => exact absurd rfl ha
      | ⟨2, _⟩ => rfl
    · show j.val - 3 + 3 = j.val
      omega

/-- The six joined rows inside the halo part, at `(b, j, ch)`, are `pad6`. -/
theorem joined_apply (v43 : FVec Ideal S4x512x256 .bf16) (h : Vec Ideal S4x3x256 .f32)
    (hs : S4x512x256.Slices ![0, 0, 0] S4x3x256)
    (hc : Shape.Concatenates [S4x3x256, S4x3x256] S4x6x256 1) (b : Fin 4) (j : Fin 6) (ch : Fin 256) :
    concatenate S4x6x256 1 [⟨S4x3x256, truncf .bf16 h bitsLt_bf16_f32⟩, ⟨S4x3x256, extractStridedSlice S4x3x256 ![0, 0, 0] v43 hs⟩] hc (ix3 b j ch)
      = pad6 h v43 b j ch := by
  refine (concat_rows _ _ hc b j ch).trans ?_
  unfold pad6
  by_cases hj : j.val < 3
  · rw [dif_pos hj, dif_pos hj]
    rfl
  · rw [dif_neg hj, dif_neg hj]
    refine (slice_rows v43 0 hs b ⟨j.val - 3, by omega⟩ ch (by show 0 + (j.val - 3) < 512; omega)).trans ?_
    refine congrArg v43 (funext fun a => ?_)
    match a with
    | ⟨0, _⟩ => rfl
    | ⟨1, _⟩ => exact Fin.ext (by show 0 + (j.val - 3) = j.val - 3; omega)
    | ⟨2, _⟩ => rfl

/-- THE HALO PART AT AN INDEX, for any rounded block and taps: the gate of the four-tap sum of rows `r … r + 3` of the
    six joined rows. -/
theorem pay9_apply (v43 : FVec Ideal S4x512x256 .bf16) (v46 : FVec Ideal S4x256 .bf16) (h : Vec Ideal S4x3x256 .f32)
    (b : Fin 4) (r : Fin 3) (ch : Fin 256) :
    k0_pay9 (F := Ideal) v43 v46 h (ix3 b r ch)
      = conv4 (pad6 h v43 b ⟨0 + r.val, by omega⟩ ch) (pad6 h v43 b ⟨1 + r.val, by omega⟩ ch)
          (pad6 h v43 b ⟨2 + r.val, by omega⟩ ch) (pad6 h v43 b ⟨3 + r.val, by omega⟩ ch)
          (v46 (ix2 ⟨0, by omega⟩ ch)) (v46 (ix2 ⟨1, by omega⟩ ch)) (v46 (ix2 ⟨2, by omega⟩ ch)) (v46 (ix2 ⟨3, by omega⟩ ch)) := by
  unfold k0_pay9
  simp only [divf_apply, addf_apply, subf_apply, mulf_apply, broadcast_apply, exp_apply]
  rw [slice_rows _ 3 _ b r ch (by omega), slice_rows _ 0 _ b r ch (by omega), slice_rows _ 1 _ b r ch (by omega),
    slice_rows _ 2 _ b r ch (by omega),
    joined_apply, joined_apply, joined_apply, joined_apply,
    tap_read v46 3 (by omega), tap_read v46 0 (by omega), tap_read v46 1 (by omega), tap_read v46 2 (by omega),
    tap4_last_first]
  exact gate_sub_form _

/-- THE HALO PART of a block `x` with taps `kk` and halo rows `h`, at an index. -/
theorem pay_halo_apply (x : Vec Ideal S4x512x256 .f32) (kk : Vec Ideal S4x256 .f32) (h : Vec Ideal S4x3x256 .f32)
    (b : Fin 4) (r : Fin 3) (ch : Fin 256) :
    k0_pay9 (F := Ideal) (k0_pay4 x) (k0_pay5 kk) h (ix3 b r ch)
      = conv4 (pad6 h x b ⟨0 + r.val, by omega⟩ ch) (pad6 h x b ⟨1 + r.val, by omega⟩ ch)
          (pad6 h x b ⟨2 + r.val, by omega⟩ ch) (pad6 h x b ⟨3 + r.val, by omega⟩ ch)
          (kk (ix2 ⟨0, by omega⟩ ch)) (kk (ix2 ⟨1, by omega⟩ ch)) (kk (ix2 ⟨2, by omega⟩ ch)) (kk (ix2 ⟨3, by omega⟩ ch)) := by
  have e4 : k0_pay4 (F := Ideal) x = x := by
    unfold k0_pay4; funext i; show shapeCast S4x512x256 x _ i = x i; rw [shapeCast_self]
  have e5 : k0_pay5 (F := Ideal) kk = kk := by
    unfold k0_pay5; funext i; show shapeCast S4x256 kk _ i = kk i; rw [shapeCast_self]
  rw [e4, e5]
  exact pay9_apply x kk h b r ch

/-- info: 'Cert.Conv.pay_halo_apply' depends on axioms: [propext, Classical.choice, Quot.sound] -/
#guard_msgs in #print axioms pay_halo_apply

end Cert.Conv

end
-- ==== Proof.RefValue.lean ====
/-
  The one-device program's result, as ONE function of the whole arrays.

  The one-device program puts three zero rows in front of the whole input `X` along the sequence axis (`padX`: rows
  0 … 2 are zero, row `t` from 3 on is row `t - 3` of `X`), takes the four windows of 8192 rows at offsets 0, 1, 2, 3,
  multiplies window `t` by tap `t` (row `t` of the tap array, broadcast over batch and rows) and adds the four products,
  in order, onto a zero array; the gate `y / (1 + e^{-y})` follows, and a final rounding to bf16 that is the identity
  on the extended reals. At `(b, s, ch)` that is the gate of the four-tap sum of rows `s … s + 3` of the padded input:
  `refOut X K`.
-/
import proofs.«900434_g7700000000000435_dist_gconv1d_seqshard_i_b4_s512_c256_v7x_i16_bf16_1_alg».proof.Proof.Gen.ReferenceIdeal.Read
import proofs.«900434_g7700000000000435_dist_gconv1d_seqshard_i_b4_s512_c256_v7x_i16_bf16_1_alg».proof.Proof.ConvSpec

noncomputable section

namespace Cert.Conv

open Idealize.ShloMosaic Idealize.ShloMosaic.ValueIdx Cert.ReferenceIdeal Cert.ReferenceIdeal.Gen Cert.ReferenceIdeal.Read

/-- The whole input with three zero rows in front, read at batch entry `b`, row `t` and channel `ch`. -/
def padX (X : (⟨3, ![4, 8192, 256]⟩ : Shape).Idx → EReal) (b : Fin 4) (t : Fin 8195) (ch : Fin 256) : EReal :=
  if t.val < 3 then 0 else X (ix3 b ⟨t.val - 3, by omega⟩ ch)

/-- The one-device program's result as one function: the gate of the four-tap sum of four consecutive rows of the
    padded input. -/
def refOut (X : (⟨3, ![4, 8192, 256]⟩ : Shape).Idx → EReal) (K : (⟨2, ![4, 256]⟩ : Shape).Idx → EReal) :
    (⟨3, ![4, 8192, 256]⟩ : Shape).Idx → EReal := fun i =>
  conv4 (padX X (i 0) ⟨0 + (i 1).val, by have h1 : (i 1).val < 8192 := (i 1).isLt; show 0 + (i 1).val < 8195; omega⟩ (i 2))
    (padX X (i 0) ⟨1 + (i 1).val, by have h1 : (i 1).val < 8192 := (i 1).isLt; show 1 + (i 1).val < 8195; omega⟩ (i 2))
    (padX X (i 0) ⟨2 + (i 1).val, by have h1 : (i 1).val < 8192 := (i 1).isLt; show 2 + (i 1).val < 8195; omega⟩ (i 2))
    (padX X (i 0) ⟨3 + (i 1).val, by have h1 : (i 1).val < 8192 := (i 1).isLt; show 3 + (i 1).val < 8195; omega⟩ (i 2))
    (K (ix2 ⟨0, by omega⟩ (i 2))) (K (ix2 ⟨1, by omega⟩ (i 2))) (K (ix2 ⟨2, by omega⟩ (i 2))) (K (ix2 ⟨3, by omega⟩ (i 2)))

/-- `refOut` at coordinates. -/
theorem refOut_apply (X : (⟨3, ![4, 8192, 256]⟩ : Shape).Idx → EReal) (K : (⟨2, ![4, 256]⟩ : Shape).Idx → EReal)
    (b : Fin 4) (s : Fin 8192) (ch : Fin 256) :
    refOut X K (ix3 b s ch)
      = conv4 (padX X b ⟨0 + s.val, by omega⟩ ch) (padX X b ⟨1 + s.val, by omega⟩ ch) (padX X b ⟨2 + s.val, by omega⟩ ch)
          (padX X b ⟨3 + s.val, by omega⟩ ch)
          (K (ix2 ⟨0, by omega⟩ ch)) (K (ix2 ⟨1, by omega⟩ ch)) (K (ix2 ⟨2, by omega⟩ ch)) (K (ix2 ⟨3, by omega⟩ ch)) := rfl

/-- The padded input the program builds, read at `(b, t, ch)`, is `padX`: the join reads the zero piece below row three
    and the input three rows up from there on. -/
theorem padded_apply (X : (⟨S4x8192x256, .f32⟩ : BufTy).Contents (Elt Ideal)) (b : Fin 4) (t : Fin 8195) (ch : Fin 256) :
    val_main_v1 (F := Ideal) X (ix3 b t ch) = padX X b t ch := by
  unfold val_main_v1 padX
  by_cases ht : t.val < 3
  · rw [if_pos ht]
    refine (concatenate_pair_apply_left (t := S4x8195x256) (s₁ := S4x3x256) (s₂ := S4x8192x256) (1 : Fin 3) (val_main_v0 (F := Ideal)) X
      concatenates_S4x3x256_S4x8192x256_S4x8195x256_d1 (ix3 b t ch) rfl
      (ix3 b ⟨t.val, ht⟩ ch) (fun a => ?_)).trans ?_
    · match a with
      | ⟨0, _⟩ => rfl
      | ⟨1, _⟩ => rfl
      | ⟨2, _⟩ => rfl
    · rw [val_main_v0_apply, val_main_cst_apply]
      exact zero_f32
  · rw [if_neg ht]
    refine concatenate_pair_apply_right (t := S4x8195x256) (s₁ := S4x3x256) (s₂ := S4x8192x256) (1 : Fin 3) (val_main_v0 (F := Ideal)) X
      concatenates_S4x3x256_S4x8192x256_S4x8195x256_d1 (ix3 b t ch) rfl rfl
      (ix3 b ⟨t.val - 3, by omega⟩ ch) (fun a ha => ?_) ?_
    · match a with
      | ⟨0, _⟩ => rfl
      | ⟨1, _⟩ => exact absurd rfl ha
      | ⟨2, _⟩ => rfl
    · show t.val - 3 + 3 = t.val
      omega

/-- The four windows' indices: window `o` at `(b, s, ch)` reads the padded input at `(b, o + s, ch)`. -/
theorem idx_win0 (b : Fin 4) (s : Fin 8192) (ch : Fin 256) : idx_main_v3 (ix3 b s ch) = ix3 b ⟨0 + s.val, by omega⟩ ch := by
  funext a
  match a with
  | ⟨0, _⟩ => rfl
  | ⟨1, _⟩ => exact Fin.ext (by show s.val = 0 + s.val; omega)
  | ⟨2, _⟩ => rfl
theorem idx_win1 (b : Fin 4) (s : Fin 8192) (ch : Fin 256) : idx_main_v10 (ix3 b s ch) = ix3 b ⟨1 + s.val, by omega⟩ ch := by
  funext a
  match a with
  | ⟨0, _⟩ => rfl
  | ⟨1, _⟩ => rfl
  | ⟨2, _⟩ => rfl
theorem idx_win2 (b : Fin 4) (s : Fin 8192) (ch : Fin 256) : idx_main_v17 (ix3 b s ch) = ix3 b ⟨2 + s.val, by omega⟩ ch := by
  funext a
  match a with
  | ⟨0, _⟩ => rfl
  | ⟨1, _⟩ => rfl
  | ⟨2, _⟩ => rfl
theorem idx_win3 (b : Fin 4) (s : Fin 8192) (ch : Fin 256) : idx_main_v24 (ix3 b s ch) = ix3 b ⟨3 + s.val, by omega⟩ ch := by
  funext a
  match a with
  | ⟨0, _⟩ => rfl
  | ⟨1, _⟩ => rfl
  | ⟨2, _⟩ => rfl

/-- The four taps' indices: tap `t` broadcast over batch and rows reads, at `(b, s, ch)`, the tap array at `(t, ch)`. -/
theorem idx_tap0 (b : Fin 4) (s : Fin 8192) (ch : Fin 256) :
    idx_main_v4 (idx_main_v5 (idx_main_v6 (idx_main_v7 (ix3 b s ch)))) = ix2 ⟨0, by omega⟩ ch := by
  funext a
  match a with
  | ⟨0, _⟩ => rfl
  | ⟨1, _⟩ => exact Fin.ext (Nat.mod_eq_of_lt ch.isLt)
theorem idx_tap1 (b : Fin 4) (s : Fin 8192) (ch : Fin 256) :
    idx_main_v11 (idx_main_v12 (idx_main_v13 (idx_main_v14 (ix3 b s ch)))) = ix2 ⟨1, by omega⟩ ch := by
  funext a
  match a with
  | ⟨0, _⟩ => rfl
  | ⟨1, _⟩ => exact Fin.ext (Nat.mod_eq_of_lt ch.isLt)
theorem idx_tap2 (b : Fin 4) (s : Fin 8192) (ch : Fin 256) :
    idx_main_v18 (idx_main_v19 (idx_main_v20 (idx_main_v21 (ix3 b s ch)))) = ix2 ⟨2, by omega⟩ ch := by
  funext a
  match a with
  | ⟨0, _⟩ => rfl
  | ⟨1, _⟩ => exact Fin.ext (Nat.mod_eq_of_lt ch.isLt)
theorem idx_tap3 (b : Fin 4) (s : Fin 8192) (ch : Fin 256) :
    idx_main_v25 (idx_main_v26 (idx_main_v27 (idx_main_v28 (ix3 b s ch)))) = ix2 ⟨3, by omega⟩ ch := by
  funext a
  match a with
  | ⟨0, _⟩ => rfl
  | ⟨1, _⟩ => exact Fin.ext (Nat.mod_eq_of_lt ch.isLt)

/-- THE ONE-DEVICE RESULT AT AN INDEX. -/
theorem ref_apply (X : (⟨S4x8192x256, .f32⟩ : BufTy).Contents (Elt Ideal)) (K : (⟨S4x256, .f32⟩ : BufTy).Contents (Elt Ideal))
    (b : Fin 4) (s : Fin 8192) (ch : Fin 256) :
    val_main_v36 (F := Ideal) X K (ix3 b s ch) = refOut X K (ix3 b s ch) := by
  rw [refOut_apply, val_main_v36_apply, val_main_v35_apply, val_main_v34_apply, val_main_v33_apply, val_main_cst_1_apply,
    val_main_v32_apply, val_main_v31_apply, val_main_v30_apply,
    val_main_v29_apply, val_main_v28_apply, val_main_v27_apply, val_main_v26_apply, val_main_v25_apply, val_main_v24_apply,
    val_main_v23_apply,
    val_main_v22_apply, val_main_v21_apply, val_main_v20_apply, val_main_v19_apply, val_main_v18_apply, val_main_v17_apply,
    val_main_v16_apply,
    val_main_v15_apply, val_main_v14_apply, val_main_v13_apply, val_main_v12_apply, val_main_v11_apply, val_main_v10_apply,
    val_main_v9_apply,
    val_main_v8_apply, val_main_v7_apply, val_main_v6_apply, val_main_v5_apply, val_main_v4_apply, val_main_v3_apply,
    val_main_v2_apply, val_main_cst_0_apply,
    idx_win0, idx_win1, idx_win2, idx_win3, idx_tap0, idx_tap1, idx_tap2, idx_tap3,
    padded_apply, padded_apply, padded_apply, padded_apply]
  simp only [Ideal.hostDivf_def, Ideal.addf_def, Ideal.mulf_def, Ideal.hostUnary_exp_def, Ideal.hostNegf_def, Ideal.negf_def,
    Ideal.truncf_def, Ideal.ofBits_def, zero_f32]
  rw [tap4_onto_zero]
  exact gate_neg_form _

/-- The one-device program's result term IS `refOut` of the whole arrays. -/
theorem ref_eq (X : (⟨S4x8192x256, .f32⟩ : BufTy).Contents (Elt Ideal)) (K : (⟨S4x256, .f32⟩ : BufTy).Contents (Elt Ideal)) :
    val_main_v36 (F := Ideal) X K = refOut X K := by
  funext i
  obtain ⟨b, s, ch, rfl⟩ : ∃ (b : Fin 4) (s : Fin 8192) (ch : Fin 256), i = ix3 b s ch := ⟨i 0, i 1, i 2, eq_ix3 i⟩
  exact ref_apply X K b s ch

/-- info: 'Cert.Conv.ref_eq' depends on axioms: [propext, Classical.choice, Quot.sound] -/
#guard_msgs in #print axioms ref_eq

end Cert.Conv

end
-- ==== Proof.BlockJoin.lean ====
/-
  Each device's result block is its block of the one-device result.

  Sixteen devices in a line; device `c` holds rows `512·c … 512·c + 511` of the whole input `X` (its block) and all the
  taps `K`. Row `r` of its result block must be row `512·c + r` of the one-device result, which needs rows
  `512·c + r - 3 … 512·c + r` of `X` (a zero where the row number would be negative).
  * From row 3 on, these four rows lie in the device's own block: rows `r - 3 … r`. That is the main part.
  * For the first three rows, the rows before the block come from the halo: device `c > 0` holds in rows 5 … 7 of its halo
    buffer rows 509 … 511 of device `c - 1`'s block, that is rows `512·c - 3 … 512·c - 1` of `X`; device 0 holds zeros
    there, which is what the one-device program's three leading zero rows are. Joined with the block's first three rows
    they are rows `512·c - 3 … 512·c + 2` of the padded input. That is the halo part.
  With the reading of the result block after the body's two stores (rows below three from the halo part, the others
  from the main part), the block of the one-device result and the device's result block agree row by row.
-/
import proofs.«900434_g7700000000000435_dist_gconv1d_seqshard_i_b4_s512_c256_v7x_i16_bf16_1_alg».proof.Proof.PayMain
import proofs.«900434_g7700000000000435_dist_gconv1d_seqshard_i_b4_s512_c256_v7x_i16_bf16_1_alg».proof.Proof.PayHalo
import proofs.«900434_g7700000000000435_dist_gconv1d_seqshard_i_b4_s512_c256_v7x_i16_bf16_1_alg».proof.Proof.RefValue
import proofs.«900434_g7700000000000435_dist_gconv1d_seqshard_i_b4_s512_c256_v7x_i16_bf16_1_alg».proof.Proof.KernelIdeal.StoreLayout
import Idealize.ShloMosaic.Lib.Layout

noncomputable section

namespace Cert.Conv

open Idealize.ShloMosaic Idealize.ShloMosaic.ValueIdx Cert.KernelIdeal Cert.KernelIdeal.Gen Cert.KernelIdealProof

/-- Block `c` of an array cut along the rows into sixteen blocks of 512 rows, read at `(b, r, ch)`: the array at row
    `512·c + r`. -/
theorem block_rows_apply {α : Type} (c : Fin 16) (v : (⟨3, ![4, 8192, 256]⟩ : Shape).Idx → α)
    (hT : Layout.Tiles ⟨3, ![4, 512, 256]⟩ ⟨3, ![4, 8192, 256]⟩ 1 16) (b : Fin 4) (r : Fin 512) (ch : Fin 256) :
    Layout.block ⟨3, ![4, 512, 256]⟩ ⟨3, ![4, 8192, 256]⟩ 1 16 c v hT (ix3 b r ch)
      = v (ix3 b ⟨c.val * 512 + r.val, by omega⟩ ch) := by
  show v (hT.idx c (ix3 b r ch)) = _
  refine congrArg v (funext fun a => Fin.ext ?_)
  match a with
  | ⟨0, _⟩ => rfl
  | ⟨1, _⟩ => rfl
  | ⟨2, _⟩ => rfl

/-- What device `c`'s halo buffer holds when the body reads it: zeros on the first device, else the last eight rows of
    the block of the device before it. -/
def haloOf (X : (⟨3, ![4, 8192, 256]⟩ : Shape).Idx → EReal) (c : Fin 16) : (cc0_scratch0 : Ref sig .tc).ty.Contents (Elt Ideal) :=
  if c.val = 0 then zeroHalo (F := Ideal)
  else tailOf (F := Ideal) (Layout.block ⟨3, ![4, 512, 256]⟩ ⟨3, ![4, 8192, 256]⟩ 1 16 ⟨c.val - 1, by omega⟩ X)

/-- Two gates of four-tap sums with equal rows and the same taps are equal. -/
theorem conv4_congr {a0 a1 a2 a3 a0' a1' a2' a3' : EReal} (h0 : a0 = a0') (h1 : a1 = a1') (h2 : a2 = a2') (h3 : a3 = a3')
    (k0 k1 k2 k3 : EReal) : conv4 a0 a1 a2 a3 k0 k1 k2 k3 = conv4 a0' a1' a2' a3' k0 k1 k2 k3 := by
  rw [h0, h1, h2, h3]

/-- From row 3 of the block on, the padded input's row `i + (512·c + r)` is the block's row `i + (r - 3)`. -/
theorem main_row (X : (⟨3, ![4, 8192, 256]⟩ : Shape).Idx → EReal) (c : Fin 16) (b : Fin 4) (r : Fin 512) (ch : Fin 256)
    (hr : 3 ≤ r.val) (i : Nat) (hi : i ≤ 3) :
    padX X b ⟨i + (c.val * 512 + r.val), by omega⟩ ch
      = Layout.block ⟨3, ![4, 512, 256]⟩ ⟨3, ![4, 8192, 256]⟩ 1 16 c X (by decide) (ix3 b ⟨i + (r.val - 3), by omega⟩ ch) := by
  unfold padX
  rw [if_neg (by show ¬ i + (c.val * 512 + r.val) < 3; omega), block_rows_apply]
  exact congrArg X (ix3_row_congr b _ _ ch (by show i + (c.val * 512 + r.val) - 3 = c.val * 512 + (i + (r.val - 3)); omega))

/-- In the first three rows of the block, the padded input's row `i + (512·c + r)` is row `i + r` of the six rows the
    halo part joins: halo rows (zeros on the first device, the previous block's last three rows otherwise), then the
    block's first three rows. -/
theorem halo_row (X : (⟨3, ![4, 8192, 256]⟩ : Shape).Idx → EReal) (c : Fin 16) (b : Fin 4) (r : Fin 512) (ch : Fin 256)
    (hr : r.val < 3) (i : Nat) (hi : i ≤ 3) :
    padX X b ⟨i + (c.val * 512 + r.val), by omega⟩ ch
      = pad6 (haloRows (F := Ideal) (haloOf X c)) (Layout.block ⟨3, ![4, 512, 256]⟩ ⟨3, ![4, 8192, 256]⟩ 1 16 c X (by decide))
          b ⟨i + r.val, by omega⟩ ch := by
  unfold padX pad6
  by_cases hj : i + r.val < 3
  · rw [dif_pos hj, haloRows_apply]
    unfold haloOf
    by_cases hc : c.val = 0
    · rw [if_pos hc, if_pos (by show i + (c.val * 512 + r.val) < 3; omega), zeroHalo_apply]
      exact zero_f32.symm
    · rw [if_neg hc, if_neg (by show ¬ i + (c.val * 512 + r.val) < 3; omega), tailOf_apply, block_rows_apply]
      exact congrArg X (ix3_row_congr b _ _ ch
        (by show i + (c.val * 512 + r.val) - 3 = (c.val - 1) * 512 + (504 + (5 + (i + r.val))); omega))
  · rw [dif_neg hj, if_neg (by show ¬ i + (c.val * 512 + r.val) < 3; omega), block_rows_apply]
    exact congrArg X (ix3_row_congr b _ _ ch (by show i + (c.val * 512 + r.val) - 3 = c.val * 512 + (i + r.val - 3); omega))

/-- THE JOIN: block `c` of the one-device result is device `c`'s result block after the body's two stores, whatever the
    buffer held first. -/
theorem block_join (X : (⟨3, ![4, 8192, 256]⟩ : Shape).Idx → EReal) (K : (⟨2, ![4, 256]⟩ : Shape).Idx → EReal) (c : Fin 16)
    (f : (cc0_stg2_0 : Ref sig .tc).ty.Contents (Elt Ideal)) :
    Layout.block ⟨3, ![4, 512, 256]⟩ ⟨3, ![4, 8192, 256]⟩ 1 16 c (refOut X K)
      = outOf (F := Ideal) f
          (mainPart (F := Ideal) (Layout.block ⟨3, ![4, 512, 256]⟩ ⟨3, ![4, 8192, 256]⟩ 1 16 c X) K)
          (haloPart (F := Ideal) (Layout.block ⟨3, ![4, 512, 256]⟩ ⟨3, ![4, 8192, 256]⟩ 1 16 c X) K (haloOf X c)) := by
  funext i
  obtain ⟨b, r, ch, rfl⟩ : ∃ (b : Fin 4) (r : Fin 512) (ch : Fin 256), i = ix3 b r ch := ⟨i 0, i 1, i 2, eq_ix3 i⟩
  refine (block_rows_apply c (refOut X K) _ b r ch).trans ?_
  refine Eq.trans ?_ (outOf_apply (F := Ideal) f _ _ b r ch).symm
  rw [refOut_apply, mainPart_eq, haloPart_eq]
  by_cases hr : r.val < 3
  · rw [dif_pos hr]
    refine Eq.trans ?_ (pay_halo_apply _ K (haloRows (F := Ideal) (haloOf X c)) b ⟨r.val, hr⟩ ch).symm
    exact conv4_congr (halo_row X c b r ch hr 0 (by omega)) (halo_row X c b r ch hr 1 (by omega))
      (halo_row X c b r ch hr 2 (by omega)) (halo_row X c b r ch hr 3 (by omega)) _ _ _ _
  · rw [dif_neg hr]
    refine Eq.trans ?_ (pay_main_apply _ K b ⟨r.val - 3, by omega⟩ ch).symm
    exact conv4_congr (main_row X c b r ch (by omega) 0 (by omega)) (main_row X c b r ch (by omega) 1 (by omega))
      (main_row X c b r ch (by omega) 2 (by omega)) (main_row X c b r ch (by omega) 3 (by omega)) _ _ _ _

/-- info: 'Cert.Conv.block_join' depends on axioms: [propext, Classical.choice, Quot.sound] -/
#guard_msgs in #print axioms block_join

end Cert.Conv

end
-- ==== Proof.HaloForms.lean ====
/-
  The halo a device reads, by cases on its place in the line: the first device's is the zero fill; any other device's is
  what the device before it sends, the last eight rows of that device's block — however the device before is named.
-/
import proofs.«900434_g7700000000000435_dist_gconv1d_seqshard_i_b4_s512_c256_v7x_i16_bf16_1_alg».proof.Proof.BlockJoin

noncomputable section

namespace Cert.Conv

open Idealize.ShloMosaic Idealize.ShloMosaic.ValueIdx Cert.KernelIdeal Cert.KernelIdeal.Gen Cert.KernelIdealProof

/-- On the first device the halo is the zero fill. -/
theorem haloOf_zero (X : (⟨3, ![4, 8192, 256]⟩ : Shape).Idx → EReal) (c : Fin 16) (hc : c.val = 0) :
    haloOf X c = zeroHalo (F := Ideal) := by
  unfold haloOf
  rw [if_pos hc]

/-- On any other device it is the last eight rows of the block of the device before it. -/
theorem haloOf_pred (X : (⟨3, ![4, 8192, 256]⟩ : Shape).Idx → EReal) (c c' : Fin 16) (h : c'.val + 1 = c.val) :
    haloOf X c = tailOf (F := Ideal) (Layout.block ⟨3, ![4, 512, 256]⟩ ⟨3, ![4, 8192, 256]⟩ 1 16 c' X) := by
  unfold haloOf
  rw [if_neg (by omega)]
  have e : (⟨c.val - 1, by omega⟩ : Fin 16) = c' := Fin.ext (by show c.val - 1 = c'.val; omega)
  rw [e]

/-- info: 'Cert.Conv.haloOf_pred' depends on axioms: [propext, Classical.choice, Quot.sound] -/
#guard_msgs in #print axioms haloOf_pred

end Cert.Conv

end
-- ==== Proof.OutBlock.lean ====
/-
  A device's result block, as the launch memory determines it, is its block of the one-device result.

  The kernel has no grid: each of its windows has one block, which is the whole per-device array, at block index zero.
  So what a device stages of its input and of the taps is the device's argument arrays as launched. When each device's
  input array is its block of a whole array `X` and each device's taps are `K`, the halo a device reads — zeros on the
  first device, else the last eight rows of what the device before it staged — is the halo of `X` at that device, and
  the result block is the device's block of the one-device result of `X` and `K`.
-/
import proofs.«900434_g7700000000000435_dist_gconv1d_seqshard_i_b4_s512_c256_v7x_i16_bf16_1_alg».proof.Proof.KernelIdeal.Schedule
import proofs.«900434_g7700000000000435_dist_gconv1d_seqshard_i_b4_s512_c256_v7x_i16_bf16_1_alg».proof.Proof.BlockJoin
import proofs.«900434_g7700000000000435_dist_gconv1d_seqshard_i_b4_s512_c256_v7x_i16_bf16_1_alg».proof.Proof.HaloForms

noncomputable section

namespace Cert.Conv

open Idealize.ShloMosaic Idealize.ShloMosaic.TcCoe Idealize.ShloMosaic.ValueIdx Idealize.SL.Sem
open Cert.KernelIdeal Cert.KernelIdeal.Gen Cert.KernelIdealProof

/-- What a device stages of its input is its input array as launched: the window's one block is the whole array. -/
theorem xstg_eq {F : FTy → Type} [FloatOps F] (m : (ℓ : Loc nD τ sig) → Buf (Elt F) ℓ) (ρ : Dev nD → PrngReg) (c : Dev nD) :
    xstg (F := F) m ρ c = m ((c : Thread nD τ).loc main_arg0) := by
  funext i
  unfold xstg
  show m ((c : Thread nD τ).loc main_arg0) ((win0_0.rect (0 : Fin 1)).emb i) = m ((c : Thread nD τ).loc main_arg0) i
  refine congrArg _ (funext fun a => Fin.ext ?_)
  exact Pipeline.Window.rect_emb_val_of_index_zero win0_0 (0 : Fin 1) a rfl i

/-- What a device stages of the taps is its tap array as launched. -/
theorem kstg_eq {F : FTy → Type} [FloatOps F] (m : (ℓ : Loc nD τ sig) → Buf (Elt F) ℓ) (ρ : Dev nD → PrngReg) (c : Dev nD) :
    kstg (F := F) m ρ c = m ((c : Thread nD τ).loc main_arg1) := by
  funext i
  unfold kstg
  show m ((c : Thread nD τ).loc main_arg1) ((win0_1.rect (0 : Fin 1)).emb i) = m ((c : Thread nD τ).loc main_arg1) i
  refine congrArg _ (funext fun a => Fin.ext ?_)
  exact Pipeline.Window.rect_emb_val_of_index_zero win0_1 (0 : Fin 1) a rfl i

/-- THE RESULT BLOCK of device `c`, from a launch memory whose input arrays are the blocks of `X` and whose tap arrays
    are `K`, is block `c` of the one-device result. -/
theorem outAt_eq_block (m : (ℓ : Loc nD τ sig) → Buf (Elt Ideal) ℓ) (ρ : Dev nD → PrngReg)
    (X : (⟨3, ![4, 8192, 256]⟩ : Shape).Idx → EReal) (K : (⟨2, ![4, 256]⟩ : Shape).Idx → EReal)
    (hx : ∀ c : Dev nD, m ((c.tc : Thread nD τ).loc main_arg0) = Layout.block ⟨3, ![4, 512, 256]⟩ ⟨3, ![4, 8192, 256]⟩ 1 16 c X)
    (hk : ∀ c : Dev nD, m ((c.tc : Thread nD τ).loc main_arg1) = K) (c : Dev nD) :
    outAt (F := Ideal) m ρ c = Layout.block ⟨3, ![4, 512, 256]⟩ ⟨3, ![4, 8192, 256]⟩ 1 16 c (refOut X K) := by
  have ex : ∀ d : Dev nD, xstg (F := Ideal) m ρ d = Layout.block ⟨3, ![4, 512, 256]⟩ ⟨3, ![4, 8192, 256]⟩ 1 16 d X :=
    fun d => (xstg_eq m ρ d).trans (hx d)
  have ek : kstg (F := Ideal) m ρ c = K := (kstg_eq m ρ c).trans (hk c)
  have eh : halo (F := Ideal) m ρ c = haloOf X c := by
    unfold halo sent
    by_cases hc : c.val = 0
    · rw [if_pos hc, haloOf_zero X c hc]
    · rw [if_neg hc, ex (prv c), haloOf_pred X c (prv c) (prv_val c hc)]
  unfold outAt
  rw [ex c, ek, eh]
  exact (block_join X K c (blank (F := Ideal))).symm

/-- info: 'Cert.Conv.outAt_eq_block' depends on axioms: [propext, Classical.choice, Quot.sound] -/
#guard_msgs in #print axioms outAt_eq_block

end Cert.Conv

end
-- ==== Proof.Algebraic.lean ====
/-
  The algebraic claim, from the sharded program's run with its result blocks named.

  GIVEN that from every launch memory the sharded program terminates with each device's result array holding the
  device's result block (the block the body's arithmetic and its two stores determine from the launch memory) and its
  arguments unchanged, the claim follows: take as the one-device result the one-device program's own result term. When
  each device's input is its block of the one-device input and its taps are the one-device taps, each device's result
  block is its block of that result (the join of blocks), and the one-device program's generated run ends at that term
  with its arguments unchanged.
-/
import proofs.«900434_g7700000000000435_dist_gconv1d_seqshard_i_b4_s512_c256_v7x_i16_bf16_1_alg».proof.Defs
import proofs.«900434_g7700000000000435_dist_gconv1d_seqshard_i_b4_s512_c256_v7x_i16_bf16_1_alg».proof.Proof.Gen.Pre_finite_inputs_Kernel
import proofs.«900434_g7700000000000435_dist_gconv1d_seqshard_i_b4_s512_c256_v7x_i16_bf16_1_alg».proof.Proof.Gen.ReferenceIdeal.Read
import proofs.«900434_g7700000000000435_dist_gconv1d_seqshard_i_b4_s512_c256_v7x_i16_bf16_1_alg».proof.Proof.OutBlock

noncomputable section

namespace Cert.Conv

open Idealize.ShloMosaic Idealize.ShloMosaic.TcCoe Idealize.SL.Sem

/-- The algebraic claim from the sharded program's run with values. -/
theorem algebraic_of
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v1)
              = Cert.KernelIdealProof.outAt (F := Ideal) m ρ c
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))) :
    Cert.algebraic_KernelIdeal_ReferenceIdeal := by
  intro m g m' g' _ hagree
  refine ⟨Cert.ReferenceIdeal.Value.res_main_v36 m' 0, ?_, ?_⟩
  · refine (θ_run (Cert.KernelIdeal.defs (F := Ideal)) _ _).mono (fun r h c => ⟨(h c).1.trans ?_, (h c).2⟩) (hrun m g)
    rw [Cert.ReferenceIdeal.Read.val_main_v36_eq, ref_eq]
    exact outAt_eq_block m g _ _ (fun d => (hagree d).1) (fun d => (hagree d).2) c
  · exact (θ_run (Cert.ReferenceIdeal.defs (F := Ideal)) _ _).mono (fun _ h => h 0)
      (Cert.ReferenceIdeal.Value.run (F := Ideal) m' g')

/-- info: 'Cert.Conv.algebraic_of' depends on axioms: [propext, Classical.choice, Quot.sound] -/
#guard_msgs in #print axioms algebraic_of

end Cert.Conv

end
-- ==== Proof.lean ====
/-
  A four-tap causal convolution along the sequence, followed by the gate y ↦ y / (1 + exp (−y)), of an input cut along
  the sequence into sixteen blocks of 512 rows, one per device of a line. Row s of the result needs rows s − 3 … s of
  the input, so the first three rows of a device's block need the last three rows of the block before it: each device
  but the last copies its last eight rows into the halo buffer of the device after it, once that device has told it,
  on the barrier semaphore, that it is inside the kernel; the first device fills its halo with zeros, the three zero
  rows the reference puts in front of the whole sequence. A device computes rows 3 … 511 of its block from the block
  alone, then — its halo landed — rows 0 … 2 from the halo's last three rows and the block's first three, and grants
  the sender a credit so that the sender does not leave while its rows are still being read.

  Frames: every fair run of all sixteen devices ends, faults nowhere and leaves the arguments unchanged, because every
  wait is on a cell whose level is below everything the waiter still owes (barrier 1, receive 2, credit 3) and every
  duty is paid exactly once; the one-device reference's frame is its run with the result dropped. The idealization
  rewrote nothing. Value: on the extended reals the kernel's four products, added in the order tap 3, 0, 1, 2, and the
  reference's, added in the order 0, 1, 2, 3 onto zero, are one sum (addition there is commutative and associative,
  so no finiteness is used), the two spellings 0 − y and −y of the negation agree, both programs' one is the real 1,
  and a change of float format is the identity; block c of the reference's result is what device c leaves.
-/
import proofs.«900434_g7700000000000435_dist_gconv1d_seqshard_i_b4_s512_c256_v7x_i16_bf16_1_alg».proof.Defs
import proofs.«900434_g7700000000000435_dist_gconv1d_seqshard_i_b4_s512_c256_v7x_i16_bf16_1_alg».proof.Proof.Assembly
import proofs.«900434_g7700000000000435_dist_gconv1d_seqshard_i_b4_s512_c256_v7x_i16_bf16_1_alg».proof.Proof.Kernel.Body
import proofs.«900434_g7700000000000435_dist_gconv1d_seqshard_i_b4_s512_c256_v7x_i16_bf16_1_alg».proof.Proof.KernelIdeal.Body
import proofs.«900434_g7700000000000435_dist_gconv1d_seqshard_i_b4_s512_c256_v7x_i16_bf16_1_alg».proof.Proof.Algebraic
import Idealize.ShloMosaic.Adequacy
import Idealize.ShloMosaic.Init

noncomputable section

namespace Cert.Proof

open Idealize.ShloMosaic Idealize.SL.Sem

/-- The five claims: each instance's body obligation carried through the launch to its frame; the reference's frame;
    nothing to preserve; and the value claim from the ideal instance's run with the result block named. -/
theorem claim : Cert.Claim :=
  claim_of (fun m ρ c => Cert.KernelProof.body_obligation m ρ c) (fun m ρ c => Cert.KernelIdealProof.body_obligation m ρ c)
    (Cert.Conv.algebraic_of fun m ρ => Cert.KernelIdealProof.value_post_of m ρ (Cert.KernelIdealProof.body_obligation m ρ))

end Cert.Proof

end
